-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x37 : Shape := ⟨2, ![100000, 37]⟩
abbrev S2x3200000 : Shape := ⟨2, ![2, 3200000]⟩
abbrev S100000 : Shape := ⟨1, ![100000]⟩
abbrev S37x32 : Shape := ⟨2, ![37, 32]⟩
abbrev S32 : Shape := ⟨1, ![32]⟩
abbrev S32x32 : Shape := ⟨2, ![32, 32]⟩
abbrev S96x128 : Shape := ⟨2, ![96, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x37 : S_.BroadcastsInDim S100000x37 (![] : Fin 0 → Fin S100000x37.rank)
  reducesTo_S100000x37_S_d0_1 : S100000x37.ReducesTo [0, 1] S_
  h_S_ : 0 < S_.numel
  bcast_S_S37x32 : S_.BroadcastsInDim S37x32 (![] : Fin 0 → Fin S37x32.rank)
  reducesTo_S37x32_S_d0_1 : S37x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S96x128 .f32) (main_arg10 : FVec F S128 .f32) (main_arg11 : FVec F S128x2 .f32) (main_arg12 : FVec F S2 .f32) (main_v33 : IVec S_ 1) : IVec S_ 1 :=
  let main_v34 : FVec F S96x128 .f32 := Host.absf main_arg9
  let main_cst_12 : FVec F S_ .f32 := constant S_ .f32 0x7F800000#32
  let main_v35 : FVec F S96x128 .f32 := broadcastInDim S96x128 ![] bcast_S_S96x128 main_cst_12
  let main_v36 : IVec S96x128 1 := cmpf .olt main_v34 main_v35
  let main_c_13 : IVec S_ 1 := constantI S_ 1 1#1
  let main_v37 : IVec S_ 1 := (fun x v => Host.reduce IntOp.andi x v reducesTo_S96x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S32 .f32) (main_arg7 : FVec F S32x32 .f32) (main_arg8 : FVec F S32 .f32) (main_arg9 : FVec F S96x128 .f32) (main_arg10 : FVec F S128 .f32) (main_arg11 : FVec F S128x2 .f32) (main_arg12 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x37 .f32) (main_arg1 : IVec S2x3200000 32) (main_arg2 : IVec S100000 32) (main_arg3 : FVec F S37x32 .f32) (main_arg4 : FVec F S32 .f32) (main_arg5 : FVec F S32x32 .f32) (main_arg6 : FVec F S32 .f32) (main_arg7 : FVec F S32x32 .f32) (main_arg8 : FVec F S32 .f32) (main_arg9 : FVec F S96x128 .f32) (main_arg10 : FVec F S128 .f32) (main_arg11 : FVec F S128x2 .f32) (main_arg12 : FVec F S2 .f32) : IVec S_ 1 :=
  let main_v0 : FVec F S100000x37 .f32 := Host.absf main_arg0
  let main_cst : FVec F S_ .f32 := constant S_ .f32 0x7F800000#32
  let main_v1 : FVec F S100000x37 .f32 := broadcastInDim S100000x37 ![] bcast_S_S100000x37 main_cst
  let main_v2 : IVec S100000x37 1 := cmpf .olt main_v0 main_v1
  let main_c : IVec S_ 1 := constantI S_ 1 1#1
  let main_v3 : IVec S_ 1 := (fun x v => Host.reduce IntOp.andi x v reducesTo_S100000x37_S_d0_1 h_S_) main_v2 main_c
  let main_v4 : FVec F S37x32 .f32 := Host.absf main_arg3
  let main_cst_0 : FVec F S_ .f32 := constant S_ .f32 0x7F800000#32
  let main_v5 : FVec F S37x32 .f32 := broadcastInDim S37x32 ![] bcast_S_S37x32 main_cst_0
  let main_v6 : IVec S37x32 1 := cmpf .olt main_v4 main_v5
  let main_c_1 : IVec S_ 1 := constantI S_ 1 1#1
  let main_v7 : IVec S_ 1 := (fun x v => Host.reduce IntOp.andi x v reducesTo_S37x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_v13 main_v16
-- ==== Kernel.lean ====
abbrev S100000x37 : Shape := ⟨2, ![100000, 37]⟩
abbrev S2x3200000 : Shape := ⟨2, ![2, 3200000]⟩
abbrev S100000 : Shape := ⟨1, ![100000]⟩
abbrev S37x32 : Shape := ⟨2, ![37, 32]⟩
abbrev S32 : Shape := ⟨1, ![32]⟩
abbrev S32x32 : Shape := ⟨2, ![32, 32]⟩
abbrev S96x128 : Shape := ⟨2, ![96, 128]⟩
abbrev S128 : Shape := ⟨1, ![128]⟩
abbrev S128x2 : Shape := ⟨2, ![128, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x32 : Shape := ⟨2, ![100000, 32]⟩
abbrev S5000x37 : Shape := ⟨2, ![5000, 37]⟩
abbrev S5000x32 : Shape := ⟨2, ![5000, 32]⟩
abbrev S3200000x32 : Shape := ⟨2, ![3200000, 32]⟩
abbrev S1x32 : Shape := ⟨2, ![1, 32]⟩
abbrev S5000x1 : Shape := ⟨2, ![5000, 1]⟩
abbrev S32x128 : Shape := ⟨2, ![32, 128]⟩
abbrev S1x128 : Shape := ⟨2, ![1, 128]⟩
abbrev S100000x128 : Shape := ⟨2, ![100000, 128]⟩
abbrev S5000x128 : Shape := ⟨2, ![5000, 128]⟩
abbrev S2000x128 : Shape := ⟨2, ![2000, 128]⟩
abbrev S1x2 : Shape := ⟨2, ![1, 2]⟩
abbrev S2000x2 : Shape := ⟨2, ![2000, 2]⟩
abbrev S2000 : Shape := ⟨1, ![2000]⟩
abbrev S2000x1 : Shape := ⟨2, ![2000, 1]⟩

abbrev nBuf : Space → Nat
  | .hbm => 155
  | .vmem => 58
  | .smem => 0
  | _ => 0

abbrev hbmTy0_0 (i : Nat) : BufTy := match i % 128 with
  | 0 => ⟨S100000x37, .f32⟩
  | 1 => ⟨S2x3200000, .i32⟩
  | 2 => ⟨S100000, .i32⟩
  | 3 => ⟨S37x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S96x128, .f32⟩
  | 10 => ⟨S128, .f32⟩
  | 11 => ⟨S128x2, .f32⟩
  | 12 => ⟨S2, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x32, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x32, .f32⟩
  | 59 => ⟨S3200000x1, .f32⟩
  | 60 => ⟨S3200000x32, .f32⟩
  | 61 => ⟨S3200000x32, .f32⟩
  | 62 => ⟨S_, .f32⟩
  | 63 => ⟨S100000x32, .f32⟩
  | 64 => ⟨S3200000x1, .i32⟩
  | 65 => ⟨S100000x32, .f32⟩
  | 66 => ⟨S1x32, .f32⟩
  | 67 => ⟨S100000x32, .f32⟩
  | 68 => ⟨S100000x32, .f32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x32, .f32⟩
  | 97 => ⟨S3200000x1, .f32⟩
  | 98 => ⟨S3200000x32, .f32⟩
  | 99 => ⟨S3200000x32, .f32⟩
  | 100 => ⟨S_, .f32⟩
  | 101 => ⟨S100000x32, .f32⟩
  | 102 => ⟨S3200000x1, .i32⟩
  | 103 => ⟨S100000x32, .f32⟩
  | 104 => ⟨S1x32, .f32⟩
  | 105 => ⟨S100000x32, .f32⟩
  | 106 => ⟨S100000x32, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000, .f32⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S3200000, .f32⟩
  | 125 => ⟨S3200000, .f32⟩
  | 126 => ⟨S_, .i32⟩
  | 127 => ⟨S3200000, .i32⟩
  | _ => ⟨S100000x37, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x32, .f32⟩
  | 7 => ⟨S3200000x1, .f32⟩
  | 8 => ⟨S3200000x32, .f32⟩
  | 9 => ⟨S3200000x32, .f32⟩
  | 10 => ⟨S_, .f32⟩
  | 11 => ⟨S100000x32, .f32⟩
  | 12 => ⟨S3200000x1, .i32⟩
  | 13 => ⟨S100000x32, .f32⟩
  | 14 => ⟨S1x32, .f32⟩
  | 15 => ⟨S100000x32, .f32⟩
  | 16 => ⟨S32x128, .f32⟩
  | 17 => ⟨S32x128, .f32⟩
  | 18 => ⟨S32x128, .f32⟩
  | 19 => ⟨S1x128, .f32⟩
  | 20 => ⟨S100000x128, .f32⟩
  | 21 => ⟨S_, .f32⟩
  | 22 => ⟨S2000x128, .f32⟩
  | 23 => ⟨S100000x1, .i32⟩
  | 24 => ⟨S2000x128, .f32⟩
  | 25 => ⟨S1x2, .f32⟩
  | 26 => ⟨S2000x2, .f32⟩
  | _ => ⟨S100000x37, .f32⟩

abbrev hbmTy (i : Nat) : BufTy := match i / 128 with
  | 0 => hbmTy0_0 i
  | 1 => hbmTy0_1 i
  | _ => ⟨S100000x37, .f32⟩

abbrev bufTy : (tb : Table) → Fin (tcTables nBuf tb) → BufTy
  | .hbm, ⟨i, _⟩ => hbmTy i
  | .local _ .vmem, ⟨0, _⟩ => ⟨S5000x37, .f32⟩
  | .local _ .vmem, ⟨1, _⟩ => ⟨S5000x37, .f32⟩
  | .local _ .vmem, ⟨2, _⟩ => ⟨S37x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x32, .f32⟩
  | .local _ .vmem, ⟨10, _⟩ => ⟨S5000x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x1, .f32⟩
  | .local _ .vmem, ⟨22, _⟩ => ⟨S5000x1, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S32x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x1, .f32⟩
  | .local _ .vmem, ⟨36, _⟩ => ⟨S5000x1, .f32⟩
  | .local _ .vmem, ⟨37, _⟩ => ⟨S5000x32, .f32⟩
  | .local _ .vmem, ⟨38, _⟩ => ⟨S5000x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S5000x32, .f32⟩
  | .local _ .vmem, ⟨48, _⟩ => ⟨S32x128, .f32⟩
  | .local _ .vmem, ⟨49, _⟩ => ⟨S32x128, .f32⟩
  | .local _ .vmem, ⟨50, _⟩ => ⟨S32x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S2000x128, .f32⟩
  | .local _ .vmem, ⟨55, _⟩ => ⟨S128x2, .f32⟩
  | .local _ .vmem, ⟨56, _⟩ => ⟨S1x2, .f32⟩
  | .local _ .vmem, ⟨57, _⟩ => ⟨S2000x2, .f32⟩
  | _, _ => ⟨S100000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_c_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_c_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem7_0 : DmaSem sig := 52
abbrev cc6_sem7_1 : DmaSem sig := 53
abbrev cc7_sem0_0 : DmaSem sig := 54
abbrev cc7_sem1_0 : DmaSem sig := 55
abbrev cc7_sem2_0 : DmaSem sig := 56
abbrev cc7_sem3_0 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S37x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S32x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2000x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x37_S5000x37_0_0 : ∀ a, (![0, 0] : Fin 2 → Nat) a + S5000x37.size a ≤ S5000x37.size a
  h_S5000x37 : 0 < S5000x37.numel
  bitsLt_bf16_f32 : FTy.bits .bf16 < FTy.bits .f32
  inb_S37x32_S37x32_0_0 : ∀ a, (![0, 0] : Fin 2 → Nat) a + S37x32.size a ≤ S37x32.size a
  h_S37x32 : 0 < S37x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  slices_S96x128_S32x128_0_0 : S96x128.Slices ![0, 0] S32x128
  slices_S96x128_S32x128_32_0 : S96x128.Slices ![32, 0] S32x128
  slices_S96x128_S32x128_64_0 : S96x128.Slices ![64, 0] S32x128
  shapeCasts_S128_S1x128 : S128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S2000x128 : S_.BroadcastsInDim S2000x128 (![] : Fin 0 → Fin S2000x128.rank)
  bcast_S100000_S100000x1_0 : S100000.BroadcastsInDim S100000x1 (![0] : Fin 1 → Fin S100000x1.rank)
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S100000_S3200000x1_S3200000_n_0_0_1_wf : ScatterDims.WF S100000 S3200000x1 S3200000 [] [0] [0] 1
  dot_S5000x37_S37x32_S5000x32_1_0_0_1_n_n_wf : DotDims.WF S5000x37 S37x32 S5000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S5000x32_S32x128_S5000x128_1_0_0_1_n_n_wf : DotDims.WF S5000x32 S32x128 S5000x128 [1] [0] [0] [1] [] []
  scatter_S2000x128_S100000x1_S100000x128_1_0_0_1_wf : ScatterDims.WF S2000x128 S100000x1 S100000x128 [1] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x37.size a ≤ S100000x37.size a
  hwx0_0 : ∀ i : grid0.Coords, EltTy.bits .f32 = 32 ∨ (Rect.block (s := S100000x37) S5000x37.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S37x32.size a ≤ S37x32.size a
  hwx0_1 : ∀ i : grid0.Coords, EltTy.bits .f32 = 32 ∨ (Rect.block (s := S37x32) S37x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S100000x32.size a
  hwx5_2 : ∀ i : grid5.Coords, EltTy.bits .f32 = 32 ∨ (Rect.block (s := S100000x32) S5000x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x32.size a ≤ S100000x32.size a
  hwx6_1 : ∀ i : grid6.Coords, EltTy.bits .f32 = 32 ∨ (Rect.block (s := S100000x32) S5000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S100000x32.size a
  hwx6_2 : ∀ i : grid6.Coords, EltTy.bits .f32 = 32 ∨ (Rect.block (s := S100000x32) S5000x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x128.size a ≤ S32x128.size a
  hwx6_3 : ∀ i : grid6.Coords, EltTy.bits .f32 = 32 ∨ (Rect.block (s := S32x128) S32x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x128.size a ≤ S32x128.size a
  hwx6_4 : ∀ i : grid6.Coords, EltTy.bits .f32 = 32 ∨ (Rect.block (s := S32x128) S32x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x128.size a ≤ S32x128.size a
  hwx6_5 : ∀ i : grid6.Coords, EltTy.bits .f32 = 32 ∨ (Rect.block (s := S32x128) S32x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S2000x128.size a
  hwx7_0 : ∀ i : grid7.Coords, EltTy.bits .f32 = 32 ∨ (Rect.block (s := S2000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x2.size a ≤ S128x2.size a
  hwx7_1 : ∀ i : grid7.Coords, EltTy.bits .f32 = 32 ∨ (Rect.block (s := S128x2) S128x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2000x2.size a ≤ S2000x2.size a
  hwx7_3 : ∀ i : grid7.Coords, EltTy.bits .f32 = 32 ∨ (Rect.block (s := S2000x2) S2000x2.size (cc7_transform_3 i) (hinb7_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x37_S37x32_S5000x32_1_0_0_1_n_n : DotDims S5000x37 S37x32 S5000x32 where
  lhsContracting := [1]
  rhsContracting := [0]
  lhsNonContracting := [0]
  rhsNonContracting := [1]
  lhsBatch := []
  rhsBatch := []
  wf := dot_S5000x37_S37x32_S5000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S5000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S37x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S5000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v43) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S5000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S5000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v106) S32x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S32x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108) S32x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v109) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v110) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v113) S2000x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v115) S2000x2.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x37 : Shape := ⟨2, ![100000, 37]⟩
abbrev S2x3200000 : Shape := ⟨2, ![2, 3200000]⟩
abbrev S100000 : Shape := ⟨1, ![100000]⟩
abbrev S37x32 : Shape := ⟨2, ![37, 32]⟩
abbrev S32 : Shape := ⟨1, ![32]⟩
abbrev S32x32 : Shape := ⟨2, ![32, 32]⟩
abbrev S96x128 : Shape := ⟨2, ![96, 128]⟩
abbrev S128 : Shape := ⟨1, ![128]⟩
abbrev S128x2 : Shape := ⟨2, ![128, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S3200000x32 : Shape := ⟨2, ![3200000, 32]⟩
abbrev S100000x1 : Shape := ⟨2, ![100000, 1]⟩
abbrev S1x32 : Shape := ⟨2, ![1, 32]⟩
abbrev S100000x96 : Shape := ⟨2, ![100000, 96]⟩
abbrev S100000x128 : Shape := ⟨2, ![100000, 128]⟩
abbrev S1x128 : Shape := ⟨2, ![1, 128]⟩
abbrev S2000x128 : Shape := ⟨2, ![2000, 128]⟩
abbrev S2000x2 : Shape := ⟨2, ![2000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 204
  | .vmem => 0
  | .smem => 0
  | _ => 0

abbrev hbmTy0_0 (i : Nat) : BufTy := match i % 128 with
  | 0 => ⟨S100000x37, .f32⟩
  | 1 => ⟨S2x3200000, .i32⟩
  | 2 => ⟨S100000, .i32⟩
  | 3 => ⟨S37x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S96x128, .f32⟩
  | 10 => ⟨S128, .f32⟩
  | 11 => ⟨S128x2, .f32⟩
  | 12 => ⟨S2, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x32, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x32, .f32⟩
  | 58 => ⟨S3200000x1, .f32⟩
  | 59 => ⟨S3200000x32, .f32⟩
  | 60 => ⟨S3200000x32, .f32⟩
  | 61 => ⟨S_, .f32⟩
  | 62 => ⟨S100000x32, .f32⟩
  | 63 => ⟨S3200000x1, .i32⟩
  | 64 => ⟨S100000x32, .f32⟩
  | 65 => ⟨S_, .f32⟩
  | 66 => ⟨S100000, .f32⟩
  | 67 => ⟨S100000, .f32⟩
  | 68 => ⟨S100000, .f32⟩
  | 69 => ⟨S100000x1, .f32⟩
  | 70 => ⟨S100000x32, .f32⟩
  | 71 => ⟨S100000x32, .f32⟩
  | 72 => ⟨S100000x32, .f32⟩
  | 73 => ⟨S1x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S100000x32, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S3200000x1, .f32⟩
  | 109 => ⟨S3200000x32, .f32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S_, .f32⟩
  | 116 => ⟨S100000, .f32⟩
  | 117 => ⟨S100000, .f32⟩
  | 118 => ⟨S100000, .f32⟩
  | 119 => ⟨S100000x1, .f32⟩
  | 120 => ⟨S100000x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S100000x32, .f32⟩
  | 127 => ⟨S_, .i32⟩
  | _ => ⟨S100000x37, .f32⟩

abbrev hbmTy0_1 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000, .f32⟩
  | 17 => ⟨S3200000, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x32, .f32⟩
  | 27 => ⟨S3200000x1, .f32⟩
  | 28 => ⟨S3200000x32, .f32⟩
  | 29 => ⟨S3200000x32, .f32⟩
  | 30 => ⟨S_, .f32⟩
  | 31 => ⟨S100000x32, .f32⟩
  | 32 => ⟨S3200000x1, .i32⟩
  | 33 => ⟨S100000x32, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x32, .f32⟩
  | 40 => ⟨S100000x32, .f32⟩
  | 41 => ⟨S100000x32, .f32⟩
  | 42 => ⟨S1x32, .f32⟩
  | 43 => ⟨S100000x32, .f32⟩
  | 44 => ⟨S100000x32, .f32⟩
  | 45 => ⟨S100000x96, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S2000x128, .f32⟩
  | 55 => ⟨S100000x1, .i32⟩
  | 56 => ⟨S2000x128, .f32⟩
  | 57 => ⟨S2000x2, .f32⟩
  | 58 => ⟨S1x2, .f32⟩
  | 59 => ⟨S2000x2, .f32⟩
  | 60 => ⟨S2000x2, .f32⟩
  | 61 => ⟨S_, .f32⟩
  | 62 => ⟨S2000, .f32⟩
  | 63 => ⟨S_, .f32⟩
  | 64 => ⟨S2000, .f32⟩
  | 65 => ⟨S2000, .f32⟩
  | 66 => ⟨S2000x1, .f32⟩
  | 67 => ⟨S2000x2, .f32⟩
  | 68 => ⟨S2000x2, .f32⟩
  | 69 => ⟨S2000x2, .f32⟩
  | 70 => ⟨S_, .f32⟩
  | 71 => ⟨S2000, .f32⟩
  | 72 => ⟨S2000x1, .f32⟩
  | 73 => ⟨S2000x1, .f32⟩
  | 74 => ⟨S2000x2, .f32⟩
  | 75 => ⟨S2000x2, .f32⟩
  | _ => ⟨S100000x37, .f32⟩

abbrev hbmTy (i : Nat) : BufTy := match i / 128 with
  | 0 => hbmTy0_0 i
  | 1 => hbmTy0_1 i
  | _ => ⟨S100000x37, .f32⟩

abbrev bufTy : (tb : Table) → Fin (tcTables nBuf tb) → BufTy
  | .hbm, ⟨i, _⟩ => hbmTy i
  | _, _ => ⟨S100000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call0_cst : Ref sig .tc := ⟨.hbm, 76, rfl⟩
abbrev main_call0_v0 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_v92 : Ref sig .tc := ⟨.hbm, 128, rfl⟩
abbrev main_v93 : Ref sig .tc := ⟨.hbm, 129, rfl⟩
abbrev main_c_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_20 : Ref sig .tc := ⟨.hbm, 136, rfl⟩
abbrev main_v99 : Ref sig .tc := ⟨.hbm, 137, rfl⟩
abbrev main_v100 : Ref sig .tc := ⟨.hbm, 138, rfl⟩
abbrev main_c_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_22 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_24 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_25 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_call1_cst : Ref sig .tc := ⟨.hbm, 178, rfl⟩
abbrev main_call1_v0 : Ref sig .tc := ⟨.hbm, 179, rfl⟩
abbrev main_v135 : Ref sig .tc := ⟨.hbm, 180, rfl⟩
abbrev main_cst_26 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_call2_cst : Ref sig .tc := ⟨.hbm, 189, rfl⟩
abbrev main_call2_v0 : Ref sig .tc := ⟨.hbm, 190, rfl⟩
abbrev main_call2_cst_0 : Ref sig .tc := ⟨.hbm, 191, rfl⟩
abbrev main_call2_v1 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_call2_v5 : Ref sig .tc := ⟨.hbm, 196, rfl⟩
abbrev main_call2_v6 : Ref sig .tc := ⟨.hbm, 197, rfl⟩
abbrev main_call2_cst_1 : Ref sig .tc := ⟨.hbm, 198, rfl⟩
abbrev main_call2_v7 : Ref sig .tc := ⟨.hbm, 199, rfl⟩
abbrev main_call2_v8 : Ref sig .tc := ⟨.hbm, 200, rfl⟩
abbrev main_call2_v9 : Ref sig .tc := ⟨.hbm, 201, rfl⟩
abbrev main_call2_v10 : Ref sig .tc := ⟨.hbm, 202, rfl⟩
abbrev main_v143 : Ref sig .tc := ⟨.hbm, 203, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x32_S100000x96_d1 : Shape.Concatenates [S100000x32, S100000x32, S100000x32] S100000x96 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S2000x128 : S_.BroadcastsInDim S2000x128 (![] : Fin 0 → Fin S2000x128.rank)
  bcast_S2_S1x2_1 : S2.BroadcastsInDim S1x2 (![1] : Fin 1 → Fin S1x2.rank)
  bcast_S1x2_S2000x2_0_1 : S1x2.BroadcastsInDim S2000x2 (![0, 1] : Fin 2 → Fin S2000x2.rank)
  reducesTo_S2000x2_S2000_d1 : S2000x2.ReducesTo [1] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x2_0_1 : S2000x1.BroadcastsInDim S2000x2 (![0, 1] : Fin 2 → Fin S2000x2.rank)
  scatter_S100000_S3200000x1_S3200000_n_0_0_1_wf : ScatterDims.WF S100000 S3200000x1 S3200000 [] [0] [0] 1
  dot_S100000x37_S37x32_S100000x32_1_0_0_1_n_n_wf : DotDims.WF S100000x37 S37x32 S100000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x96_S96x128_S100000x128_1_0_0_1_n_n_wf : DotDims.WF S100000x96 S96x128 S100000x128 [1] [0] [0] [1] [] []
  scatter_S2000x128_S100000x1_S100000x128_1_0_0_1_wf : ScatterDims.WF S2000x128 S100000x1 S100000x128 [1] [0] [0] 1
  dot_S2000x128_S128x2_S2000x2_1_0_0_1_n_n_wf : DotDims.WF S2000x128 S128x2 S2000x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x37_S37x32_S100000x32_1_0_0_1_n_n : DotDims S100000x37 S37x32 S100000x32 where
  lhsContracting := [1]
  rhsContracting := [0]
  lhsNonContracting := [0]
  rhsNonContracting := [1]
  lhsBatch := []
  rhsBatch := []
  wf := dot_S100000x37_S37x32_S100000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

class Facts : Prop extends Facts₀ where

variable [Facts]
-- ==== Proof.KRun.lean ====
/-
  The idealized kernel program's run with its result named: every weakly fair execution of @main
  terminates without a fault, the result array ends at what the last boundary's contents hold for
  it (the fold of the host stretches and of the eight pipelines' write-backs from the launch
  memory), and the argument arrays end as launched.
-/
import proofs.«139152_j41120016892602_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over @main's fourteen segments, the last thread state read against the
    final state at every unscoped buffer, the result's among them. -/
theorem run_named : θ_run defs (onTc (τ := τ) (main (F := F))) ⟨m, fun _ => 0, ρ⟩ (fun r => ∀ c : Dev nD,
      r.2.mem ((c.tc : Thread nD τ).loc main_v115) = W14 m ρ c (Proc.devRef .tc main_v115)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v115 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KRun

end
-- ==== Proof.HostK.lean ====
/-
  The host stretches of the idealized kernel program, read from ANY contents `Wv` of the buffers
  they start from: each stretch applies to its operands the very operations the reference applies
  to its own (the edge list cut into source and target rows, the degree vector and its inverse
  square root, the gather of the projected features along the edges, their weighting, the sum into
  the target nodes; the per-graph sum; the bias vectors laid as rows and the dense weights cut into
  their three row blocks), so once its operands hold the reference's values its results do too.
-/
import proofs.«139152_j41120016892602_1_alg».proof.Proof.Gen.KernelIdeal.Launch
import proofs.«139152_j41120016892602_1_alg».proof.Proof.RefRead
import Idealize.ShloMosaic.Lib.StableHlo.Run

set_option maxRecDepth 16384

noncomputable section

namespace Cert.HostK

open Cert.KernelIdeal Cert.KernelIdeal.Gen
open Idealize.ShloMosaic Idealize.ShloMosaic.TcCoe Idealize.SL.Sem Idealize.ShloMosaic.StableHlo

variable (Wv : Valuation τ sig (Elt Ideal))
variable (a0 : (⟨S100000x37, .f32⟩ : BufTy).Contents (Elt Ideal))
  (a1 : (⟨S2x3200000, .i32⟩ : BufTy).Contents (Elt Ideal))
  (a2 : (⟨S100000, .i32⟩ : BufTy).Contents (Elt Ideal))
  (a3 : (⟨S37x32, .f32⟩ : BufTy).Contents (Elt Ideal))
  (a4 : (⟨S32, .f32⟩ : BufTy).Contents (Elt Ideal))
  (a5 : (⟨S32x32, .f32⟩ : BufTy).Contents (Elt Ideal))
  (a6 : (⟨S32, .f32⟩ : BufTy).Contents (Elt Ideal))
  (a7 : (⟨S32x32, .f32⟩ : BufTy).Contents (Elt Ideal))
  (a8 : (⟨S32, .f32⟩ : BufTy).Contents (Elt Ideal))
  (a9 : (⟨S96x128, .f32⟩ : BufTy).Contents (Elt Ideal))
  (a10 : (⟨S128, .f32⟩ : BufTy).Contents (Elt Ideal))
  (a11 : (⟨S128x2, .f32⟩ : BufTy).Contents (Elt Ideal))
  (a12 : (⟨S2, .f32⟩ : BufTy).Contents (Elt Ideal))

/-! ## Before the first projection: the edge rows, the degree factor and its column form -/

theorem h0_v1 (e1 : Wv (Proc.devRef .tc main_arg1) = a1) :
    after hostOps0 Wv (Proc.devRef .tc main_v1) = Cert.ReferenceIdeal.Read.val_main_v1 (F := Ideal) a1 := by
  after_results; rw [e1]; rfl
theorem h0_v3 (e1 : Wv (Proc.devRef .tc main_arg1) = a1) :
    after hostOps0 Wv (Proc.devRef .tc main_v3) = Cert.ReferenceIdeal.Read.val_main_v3 (F := Ideal) a1 := by
  after_results; rw [e1]; rfl
theorem h0_v11 (e1 : Wv (Proc.devRef .tc main_arg1) = a1) :
    after hostOps0 Wv (Proc.devRef .tc main_v11) = Cert.ReferenceIdeal.Read.val_main_v11 (F := Ideal) a1 := by
  after_results; rw [e1]; rfl
theorem h0_v12 (e1 : Wv (Proc.devRef .tc main_arg1) = a1) :
    after hostOps0 Wv (Proc.devRef .tc main_v12) = shapeCast S100000x1 (Cert.ReferenceIdeal.Read.val_main_v11 (F := Ideal) a1) shapeCasts_S100000_S100000x1 := by
  after_results; rw [e1]; rfl

/-! ## Between the projections: the neighbours' weighted sum of each layer, and the bias as a row -/

theorem h1_v41 (e13 : Wv (Proc.devRef .tc main_v13) = Cert.ReferenceIdeal.Read.val_main_v12 (F := Ideal) a0 a3) (e11 : Wv (Proc.devRef .tc main_v11) = Cert.ReferenceIdeal.Read.val_main_v11 (F := Ideal) a1) (e1 : Wv (Proc.devRef .tc main_v1) = Cert.ReferenceIdeal.Read.val_main_v1 (F := Ideal) a1) (e3 : Wv (Proc.devRef .tc main_v3) = Cert.ReferenceIdeal.Read.val_main_v3 (F := Ideal) a1) :
    after hostOps1 Wv (Proc.devRef .tc main_v41) = Cert.ReferenceIdeal.Read.val_main_v40 (F := Ideal) a0 a1 a3 := by
  after_results_simp; rw [e13, e11, e1, e3]; rfl
theorem h1_v42 (e4 : Wv (Proc.devRef .tc main_arg4) = a4) :
    after hostOps1 Wv (Proc.devRef .tc main_v42) = shapeCast S1x32 a4 shapeCasts_S32_S1x32 := by
  after_results_simp; rw [e4]; rfl
theorem h3_v72 (e44 : Wv (Proc.devRef .tc main_v44) = Cert.ReferenceIdeal.Read.val_main_v52 (F := Ideal) a0 a1 a3 a4 a5) (e11 : Wv (Proc.devRef .tc main_v11) = Cert.ReferenceIdeal.Read.val_main_v11 (F := Ideal) a1) (e1 : Wv (Proc.devRef .tc main_v1) = Cert.ReferenceIdeal.Read.val_main_v1 (F := Ideal) a1) (e3 : Wv (Proc.devRef .tc main_v3) = Cert.ReferenceIdeal.Read.val_main_v3 (F := Ideal) a1) :
    after hostOps3 Wv (Proc.devRef .tc main_v72) = Cert.ReferenceIdeal.Read.val_main_v80 (F := Ideal) a0 a1 a3 a4 a5 := by
  after_results_simp; rw [e44, e11, e1, e3]; rfl
theorem h3_v73 (e6 : Wv (Proc.devRef .tc main_arg6) = a6) :
    after hostOps3 Wv (Proc.devRef .tc main_v73) = shapeCast S1x32 a6 shapeCasts_S32_S1x32 := by
  after_results_simp; rw [e6]; rfl
theorem h5_v103 (e75 : Wv (Proc.devRef .tc main_v75) = Cert.ReferenceIdeal.Read.val_main_v91 (F := Ideal) a0 a1 a3 a4 a5 a6 a7) (e11 : Wv (Proc.devRef .tc main_v11) = Cert.ReferenceIdeal.Read.val_main_v11 (F := Ideal) a1) (e1 : Wv (Proc.devRef .tc main_v1) = Cert.ReferenceIdeal.Read.val_main_v1 (F := Ideal) a1) (e3 : Wv (Proc.devRef .tc main_v3) = Cert.ReferenceIdeal.Read.val_main_v3 (F := Ideal) a1) :
    after hostOps5 Wv (Proc.devRef .tc main_v103) = Cert.ReferenceIdeal.Read.val_main_v119 (F := Ideal) a0 a1 a3 a4 a5 a6 a7 := by
  after_results_simp; rw [e75, e11, e1, e3]; rfl
theorem h5_v104 (e8 : Wv (Proc.devRef .tc main_arg8) = a8) :
    after hostOps5 Wv (Proc.devRef .tc main_v104) = shapeCast S1x32 a8 shapeCasts_S32_S1x32 := by
  after_results_simp; rw [e8]; rfl

/-! ## Before the dense layer: its weights' three row blocks and its bias as a row -/

theorem h6_v106 (e9 : Wv (Proc.devRef .tc main_arg9) = a9) :
    after hostOps6 Wv (Proc.devRef .tc main_v106) = extractStridedSlice S32x128 ![0, 0] a9 slices_S96x128_S32x128_0_0 := by
  after_results; rw [e9]
theorem h6_v107 (e9 : Wv (Proc.devRef .tc main_arg9) = a9) :
    after hostOps6 Wv (Proc.devRef .tc main_v107) = extractStridedSlice S32x128 ![32, 0] a9 slices_S96x128_S32x128_32_0 := by
  after_results; rw [e9]
theorem h6_v108 (e9 : Wv (Proc.devRef .tc main_arg9) = a9) :
    after hostOps6 Wv (Proc.devRef .tc main_v108) = extractStridedSlice S32x128 ![64, 0] a9 slices_S96x128_S32x128_64_0 := by
  after_results; rw [e9]
theorem h6_v109 (e10 : Wv (Proc.devRef .tc main_arg10) = a10) :
    after hostOps6 Wv (Proc.devRef .tc main_v109) = shapeCast S1x128 a10 shapeCasts_S128_S1x128 := by
  after_results; rw [e10]; rfl

/-! ## Before the last layer: the per-graph sum and the bias as a row -/

theorem h7_v113 (e110 : Wv (Proc.devRef .tc main_v110) = Cert.ReferenceIdeal.Read.val_main_v135 (F := Ideal) a0 a1 a3 a4 a5 a6 a7 a8 a9 a10) (e2 : Wv (Proc.devRef .tc main_arg2) = a2) :
    after hostOps7 Wv (Proc.devRef .tc main_v113) = Cert.ReferenceIdeal.Read.val_main_v138 (F := Ideal) a0 a1 a2 a3 a4 a5 a6 a7 a8 a9 a10 := by
  after_results; rw [e110, e2]; rfl
theorem h7_v114 (e12 : Wv (Proc.devRef .tc main_arg12) = a12) :
    after hostOps7 Wv (Proc.devRef .tc main_v114) = shapeCast S1x2 a12 shapeCasts_S2_S1x2 := by
  after_results; rw [e12]; rfl

end Cert.HostK

end
-- ==== Proof.Spec.lean ====
/-
  The mathematics both programs compute, entry by entry, over the extended reals.

  A graph-convolution layer takes node features `x`, projects them (`h = x·W`), adds to the sum of
  the neighbours' weighted projections `agg` the node's own projection weighted by `2·d·d` (`d` the
  node's inverse square-root degree) and a bias; the first layer clamps the result at zero. The three
  layers' outputs side by side go through one dense layer with a clamp, are summed per graph, and a last
  dense layer followed by a log-softmax over its two columns gives the result. The functions below
  are those steps as functions of whole arrays, each defined by its value at entry `(p, q)`; the sums
  that scatter and gather along the edges are not here: both programs apply the same host operations
  for them.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals. -/
abbrev Mat (a b : Nat) : Type := FVec Ideal ⟨2, ![a, b]⟩ .f32

/-- The extended reals the words of `2.0`, `0.0` and `-∞` denote (kept as words: nothing evaluates them). -/
abbrev two : EReal := Ideal.ofBits .f32 0x40000000#32
abbrev zero : EReal := Ideal.ofBits .f32 0x00000000#32
abbrev ninf : EReal := Ideal.ofBits .f32 0xFF800000#32

/-! ## The dense product -/

/-- Entry `(p, q)` of `x·w`: the sum over the shared axis. -/
def mmAt {A K B : Nat} (x : Mat A K) (w : Mat K B) (p : Fin A) (q : Fin B) : EReal :=
  ∑ k : Fin K, x (ix2 p k) * w (ix2 k q)

/-- `x·w`. -/
def mm {A K B : Nat} (x : Mat A K) (w : Mat K B) : Mat A B := fun i => mmAt x w (i 0) (i 1)

theorem mm_ix2 {A K B : Nat} (x : Mat A K) (w : Mat K B) (p : Fin A) (q : Fin B) :
    mm x w (ix2 p q) = mmAt x w p q := rfl

/-! ## Closing a graph-convolution layer -/

/-- Entry `(p, q)` of `agg + (2·d·d)·h + b`, the degree factor `d` a column and the bias `b` a row. -/
def finAt {N D : Nat} (h : Mat N D) (d : Mat N 1) (agg : Mat N D) (b : Mat 1 D) (p : Fin N) (q : Fin D) : EReal :=
  (agg (ix2 p q) + ((two * d (ix2 p 0)) * d (ix2 p 0)) * h (ix2 p q)) + b (ix2 0 q)

/-- The layer's output without a clamp … -/
def fin {N D : Nat} (h : Mat N D) (d : Mat N 1) (agg : Mat N D) (b : Mat 1 D) : Mat N D :=
  fun i => finAt h d agg b (i 0) (i 1)

/-- … and clamped at zero from below. -/
def finRelu {N D : Nat} (h : Mat N D) (d : Mat N 1) (agg : Mat N D) (b : Mat 1 D) : Mat N D :=
  fun i => max (finAt h d agg b (i 0) (i 1)) zero

theorem fin_ix2 {N D : Nat} (h : Mat N D) (d : Mat N 1) (agg : Mat N D) (b : Mat 1 D) (p : Fin N) (q : Fin D) :
    fin h d agg b (ix2 p q) = finAt h d agg b p q := rfl
theorem finRelu_ix2 {N D : Nat} (h : Mat N D) (d : Mat N 1) (agg : Mat N D) (b : Mat 1 D) (p : Fin N) (q : Fin D) :
    finRelu h d agg b (ix2 p q) = max (finAt h d agg b p q) zero := rfl

/-! ## The dense layer over the three layers' outputs -/

/-- Entry `(p, q)` of `max (x₁·w₁ + x₂·w₂ + x₃·w₃ + b) 0`, the three products added left to right. -/
def fc1At {N D G : Nat} (x1 x2 x3 : Mat N D) (w1 w2 w3 : Mat D G) (b : Mat 1 G) (p : Fin N) (q : Fin G) : EReal :=
  max (((mmAt x1 w1 p q + mmAt x2 w2 p q) + mmAt x3 w3 p q) + b (ix2 0 q)) zero

def fc1 {N D G : Nat} (x1 x2 x3 : Mat N D) (w1 w2 w3 : Mat D G) (b : Mat 1 G) : Mat N G :=
  fun i => fc1At x1 x2 x3 w1 w2 w3 b (i 0) (i 1)

theorem fc1_ix2 {N D G : Nat} (x1 x2 x3 : Mat N D) (w1 w2 w3 : Mat D G) (b : Mat 1 G) (p : Fin N) (q : Fin G) :
    fc1 x1 x2 x3 w1 w2 w3 b (ix2 p q) = fc1At x1 x2 x3 w1 w2 w3 b p q := rfl

/-! ## The last dense layer and the log-softmax over its two columns -/

/-- Entry `(p, q)` of the logits `pl·w + b`. -/
def logitAt {M K : Nat} (pl : Mat M K) (w : Mat K 2) (b : Mat 1 2) (p : Fin M) (q : Fin 2) : EReal :=
  mmAt pl w p q + b (ix2 0 q)

/-- The largest of a row's two entries, as the fold of `max` from `-∞`. -/
def rowMax (l : Fin 2 → EReal) : EReal := (Finset.univ : Finset (Fin 2)).fold max ninf l

/-- Entry `(p, q)` of the log-softmax of the logits along their two columns: with `z = l - max l`,
    `z q - log (Σ exp z)`. -/
def fc3At {M K : Nat} (pl : Mat M K) (w : Mat K 2) (b : Mat 1 2) (p : Fin M) (q : Fin 2) : EReal :=
  (logitAt pl w b p q - rowMax (logitAt pl w b p))
    - Ideal.log (∑ q' : Fin 2, Ideal.exp (logitAt pl w b p q' - rowMax (logitAt pl w b p)))

def fc3 {M K : Nat} (pl : Mat M K) (w : Mat K 2) (b : Mat 1 2) : Mat M 2 :=
  fun i => fc3At pl w b (i 0) (i 1)

theorem fc3_ix2 {M K : Nat} (pl : Mat M K) (w : Mat K 2) (b : Mat 1 2) (p : Fin M) (q : Fin 2) :
    fc3 pl w b (ix2 p q) = fc3At pl w b p q := rfl

end Cert.Spec

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.RegA0.lean ====
/-
  The first dense product of the kernel, as a whole array.

  The region runs over twenty grid points; point `t` reads rows `5000·t, …, 5000·t + 4999` of the node
  features (a 100000 × 37 matrix) and all of the 37 × 32 weights, multiplies them into a zero accumulator, and
  writes the 5000 × 32 result back as rows `5000·t, …` of the output. An entry of a block's product is the sum
  over the shared axis of the products of the entries; a row of the output depends on the same row of the features
  only, so block `t` of the whole product `x·W` is exactly what point `t` writes, and the twenty blocks tile the
  output. Hence the output array ends as `x·W`.
-/
import proofs.«139152_j41120016892602_1_alg».proof.Proof.Gen.KernelIdeal.Frame
import proofs.«139152_j41120016892602_1_alg».proof.Proof.Spec
import proofs.«139152_j41120016892602_1_alg».proof.Proof.LibSoftplus
import Idealize.ShloMosaic.Lib.Pipeline.Value
import Idealize.ShloMosaic.Lib.ValueIdx

noncomputable section

open scoped BigOperators

namespace Cert.RegA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem zero_off0 : (![0, 0] : Fin 2 → Nat) = fun _ => 0 := funext fun a => by fin_cases a <;> rfl

/-- Entry (r, q) of the body's product of a 5000×37 block with the 37×32 weights into a zero accumulator:
    the sum over the shared axis (the change of format of the operands is the identity here). -/
theorem pay0_apply (x0 : Vec Ideal S5000x37 .f32) (x1 : Vec Ideal S37x32 .f32) (r : Fin 5000) (q : Fin 32) :
    k0_pay1 x0 x1 (ix2 r q) = ∑ k : Fin 37, x0 (ix2 r k) * x1 (ix2 k q) := by
  unfold k0_pay1
  exact Cert.Lib.Softplus.matmul0_plain_apply _ rfl none _ _ r q

/-- When the block `x0` holds rows `5000·b, …, 5000·b + 4999` of `A` and `x1` is all of `W`, the body's
    product at the block entry `y` is `A·W` at the array entry `i` in row `5000·b + y 0`, column `y 1`. -/
theorem block0_apply (A : Spec.Mat 100000 37) (W : Spec.Mat 37 32)
    (x0 : Vec Ideal S5000x37 .f32) (x1 : Vec Ideal S37x32 .f32) (b : Nat)
    (h0 : ∀ (y : S5000x37.Idx) (i : S100000x37.Idx), (i 0).val = b * 5000 + (y 0).val → (i 1).val = (y 1).val → x0 y = A i)
    (h1 : ∀ y : S37x32.Idx, x1 y = W y)
    (y : S5000x32.Idx) (i : S100000x32.Idx) (hi0 : (i 0).val = b * 5000 + (y 0).val) (hi1 : (i 1).val = (y 1).val) :
    k0_pay1 x0 x1 y = Spec.mm A W i := by
  obtain ⟨r, q, rfl⟩ : ∃ (r : Fin 5000) (q : Fin 32), y = ix2 r q := ⟨y 0, y 1, eq_ix2 y⟩
  obtain ⟨p, q', rfl⟩ : ∃ (p : Fin 100000) (q' : Fin 32), i = ix2 p q' := ⟨i 0, i 1, eq_ix2 i⟩
  obtain rfl : q' = q := Fin.ext hi1
  rw [pay0_apply, Spec.mm_ix2]
  unfold Spec.mmAt
  exact Finset.sum_congr rfl fun k _ => by rw [h0 (ix2 r k) (ix2 p k) hi0 rfl, h1]

/-- The printed index maps, decided over the twenty grid points: the row-block window of the left operand moves
    with the output's, both stay in column-block 0, the weights' window stays at block (0, 0). -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the twenty row blocks is some grid point's. -/
theorem idx_onto0 : ∀ q : Fin 20, ∃ t : Fin cfg0.N, win0_2.index t = ![q.val, 0] :=
  (by decide +kernel : ∀ q : Fin 20, ∃ t : Fin grid0.N, win0_2.index t = ![q.val, 0])

/-- What grid point `t` writes back is block `t` of the product of the two arrays as the region finds them. -/
theorem flushed0_eq (c : Dev nD) (t : Fin cfg0.N) :
    (dat0 (F := Ideal) V c).flushed 2 t
      = ((cfg0.win 2).blk t).view.read (Elt Ideal) (Spec.mm (V c main_arg0 : Spec.Mat 100000 37) (V c main_arg3 : Spec.Mat 37 32)) := by
  show (cfg0.win 2).cut (grid0.coords t) ((dat0 V c).after 2 t) = _
  rw [after0_2]
  unfold out0_2
  rw [View.canon_unit_zero zero_off0]
  simp only [View.ld_unit_zero (S := S5000x37) zero_off0, View.ld_unit_zero (S := S37x32) zero_off0]
  obtain ⟨e0, e1, e2, e3, e4⟩ := idx_facts0 t
  funext j
  show k0_pay1 (iblk0 V c 0 t) (iblk0 V c 1 t) ((cfg0.win 2).xinj (grid0.coords t) j)
    = Spec.mm (V c main_arg0 : Spec.Mat 100000 37) (V c main_arg3 : Spec.Mat 37 32) (((cfg0.win 2).blk t).view.emb j)
  refine block0_apply (V c main_arg0) (V c main_arg3) (iblk0 V c 0 t) (iblk0 V c 1 t) (win0_2.index t (0 : Fin 2)) ?_ ?_ _ _ ?_ ?_
  · intro y i hi0 hi1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 37 + 1 * (y 1).val = (i 1).val; omega
  · intro y
    show V c main_arg3 (((cfg0.win 1).blk t).view.emb y) = V c main_arg3 y
    refine congrArg _ (funext fun a => Fin.ext ?_)
    match a with
    | ⟨0, _⟩ => show win0_1.index t (0 : Fin 2) * 37 + 1 * (y 0).val = (y 0).val; omega
    | ⟨1, _⟩ => show win0_1.index t (1 : Fin 2) * 32 + 1 * (y 1).val = (y 1).val; omega
  · show win0_2.index t (0 : Fin 2) * 5000 + 1 * (j 0).val = win0_2.index t (0 : Fin 2) * 5000 + (j 0).val
    omega
  · show win0_2.index t (1 : Fin 2) * 32 + 1 * (j 1).val = (j 1).val
    omega

/-- An entry of the output array is in grid point `t`'s block exactly when each coordinate is in the block's range. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v13).slice (win0_2.rect t)).set ↔ _
  rw [View.set_slice_whole, Rect.mem_set_unit]
  exact Iff.rfl

/-- The twenty row blocks cover the output array: row `p` lies in block `p / 5000`. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the run the first product's array is `x·W`, entry by entry. -/
theorem region0 (c : Dev nD) :
    (dat0 (F := Ideal) V c).arrAt 2 cfg0.N = Spec.mm (V c main_arg0 : Spec.Mat 100000 37) (V c main_arg3 : Spec.Mat 37 32) :=
  (dat0 V c).arrAt_eq_of_cover 2 _ (fun t _ => flushed0_eq V c t) cover0

end Cert.RegA

end
-- ==== Proof.RegA2.lean ====
/-
  The second graph-convolution layer's projection, as a whole array.

  The region runs over twenty grid points; point `t` reads rows `5000·t, …, 5000·t + 4999` of the layer's
  input (a 100000 × 32 matrix, the previous layer's output) and all of the 32 × 32 weights, multiplies them into a
  zero accumulator, and writes the 5000 × 32 result back as rows `5000·t, …` of the output. An entry of a block's
  product is the sum over the shared axis of the products of the entries; a row of the output depends on the same
  row of the input only, so block `t` of the whole product `x·W` is exactly what point `t` writes, and the
  twenty blocks tile the output. Hence the output array ends as `x·W`.
-/
import proofs.«139152_j41120016892602_1_alg».proof.Proof.Gen.KernelIdeal.Frame
import proofs.«139152_j41120016892602_1_alg».proof.Proof.Spec
import proofs.«139152_j41120016892602_1_alg».proof.Proof.LibSoftplus
import Idealize.ShloMosaic.Lib.Pipeline.Value
import Idealize.ShloMosaic.Lib.ValueIdx

noncomputable section

open scoped BigOperators

namespace Cert.RegA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem zero_off2 : (![0, 0] : Fin 2 → Nat) = fun _ => 0 := funext fun a => by fin_cases a <;> rfl

/-- Entry (r, q) of the body's product of a 5000×32 block with the 32×32 weights into a zero accumulator:
    the sum over the shared axis (a reshape to the same shape and the change of format of the operands are
    the identity here). -/
theorem pay2_apply (x0 : Vec Ideal S5000x32 .f32) (x1 : Vec Ideal S32x32 .f32) (r : Fin 5000) (q : Fin 32) :
    k2_pay1 x0 x1 (ix2 r q) = ∑ k : Fin 32, x0 (ix2 r k) * x1 (ix2 k q) := by
  unfold k2_pay1
  refine (Cert.Lib.Softplus.matmul0_plain_apply _ rfl none _ _ r q).trans ?_
  rw [shapeCast_self]
  rfl

/-- When the block `x0` holds rows `5000·b, …, 5000·b + 4999` of `A` and `x1` is all of `W`, the body's
    product at the block entry `y` is `A·W` at the array entry `i` in row `5000·b + y 0`, column `y 1`. -/
theorem block2_apply (A : Spec.Mat 100000 32) (W : Spec.Mat 32 32)
    (x0 : Vec Ideal S5000x32 .f32) (x1 : Vec Ideal S32x32 .f32) (b : Nat)
    (h0 : ∀ (y : S5000x32.Idx) (i : S100000x32.Idx), (i 0).val = b * 5000 + (y 0).val → (i 1).val = (y 1).val → x0 y = A i)
    (h1 : ∀ y : S32x32.Idx, x1 y = W y)
    (y : S5000x32.Idx) (i : S100000x32.Idx) (hi0 : (i 0).val = b * 5000 + (y 0).val) (hi1 : (i 1).val = (y 1).val) :
    k2_pay1 x0 x1 y = Spec.mm A W i := by
  obtain ⟨r, q, rfl⟩ : ∃ (r : Fin 5000) (q : Fin 32), y = ix2 r q := ⟨y 0, y 1, eq_ix2 y⟩
  obtain ⟨p, q', rfl⟩ : ∃ (p : Fin 100000) (q' : Fin 32), i = ix2 p q' := ⟨i 0, i 1, eq_ix2 i⟩
  obtain rfl : q' = q := Fin.ext hi1
  rw [pay2_apply, Spec.mm_ix2]
  unfold Spec.mmAt
  exact Finset.sum_congr rfl fun k _ => by rw [h0 (ix2 r k) (ix2 p k) hi0 rfl, h1]

/-- The printed index maps, decided over the twenty grid points: the row-block window of the left operand moves
    with the output's, both stay in column-block 0, the weights' window stays at block (0, 0). -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the twenty row blocks is some grid point's. -/
theorem idx_onto2 : ∀ q : Fin 20, ∃ t : Fin cfg2.N, win2_2.index t = ![q.val, 0] :=
  (by decide +kernel : ∀ q : Fin 20, ∃ t : Fin grid2.N, win2_2.index t = ![q.val, 0])

/-- What grid point `t` writes back is block `t` of the product of the two arrays as the region finds them. -/
theorem flushed2_eq (c : Dev nD) (t : Fin cfg2.N) :
    (dat2 (F := Ideal) V c).flushed 2 t
      = ((cfg2.win 2).blk t).view.read (Elt Ideal) (Spec.mm (V c main_v43 : Spec.Mat 100000 32) (V c main_arg5 : Spec.Mat 32 32)) := by
  show (cfg2.win 2).cut (grid2.coords t) ((dat2 V c).after 2 t) = _
  rw [after2_2]
  unfold out2_2
  rw [View.canon_unit_zero zero_off2]
  simp only [View.ld_unit_zero (S := S5000x32) zero_off2, View.ld_unit_zero (S := S32x32) zero_off2]
  obtain ⟨e0, e1, e2, e3, e4⟩ := idx_facts2 t
  funext j
  show k2_pay1 (iblk2 V c 0 t) (iblk2 V c 1 t) ((cfg2.win 2).xinj (grid2.coords t) j)
    = Spec.mm (V c main_v43 : Spec.Mat 100000 32) (V c main_arg5 : Spec.Mat 32 32) (((cfg2.win 2).blk t).view.emb j)
  refine block2_apply (V c main_v43) (V c main_arg5) (iblk2 V c 0 t) (iblk2 V c 1 t) (win2_2.index t (0 : Fin 2)) ?_ ?_ _ _ ?_ ?_
  · intro y i hi0 hi1
    show V c main_v43 (((cfg2.win 0).blk t).view.emb y) = V c main_v43 i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 32 + 1 * (y 1).val = (i 1).val; omega
  · intro y
    show V c main_arg5 (((cfg2.win 1).blk t).view.emb y) = V c main_arg5 y
    refine congrArg _ (funext fun a => Fin.ext ?_)
    match a with
    | ⟨0, _⟩ => show win2_1.index t (0 : Fin 2) * 32 + 1 * (y 0).val = (y 0).val; omega
    | ⟨1, _⟩ => show win2_1.index t (1 : Fin 2) * 32 + 1 * (y 1).val = (y 1).val; omega
  · show win2_2.index t (0 : Fin 2) * 5000 + 1 * (j 0).val = win2_2.index t (0 : Fin 2) * 5000 + (j 0).val
    omega
  · show win2_2.index t (1 : Fin 2) * 32 + 1 * (j 1).val = (j 1).val
    omega

/-- An entry of the output array is in grid point `t`'s block exactly when each coordinate is in the block's range. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v44).slice (win2_2.rect t)).set ↔ _
  rw [View.set_slice_whole, Rect.mem_set_unit]
  exact Iff.rfl

/-- The twenty row blocks cover the output array: row `p` lies in block `p / 5000`. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the run the second layer's projection array is the layer's input times its weights, entry by entry. -/
theorem region2 (c : Dev nD) :
    (dat2 (F := Ideal) V c).arrAt 2 cfg2.N = Spec.mm (V c main_v43 : Spec.Mat 100000 32) (V c main_arg5 : Spec.Mat 32 32) :=
  (dat2 V c).arrAt_eq_of_cover 2 _ (fun t _ => flushed2_eq V c t) cover2

end Cert.RegA

end
-- ==== Proof.RegB1.lean ====
/-
  The region that closes a graph-convolution layer, read as a whole array: over row blocks of 5000 rows
  the body adds to the aggregated neighbours `agg` the node's own projection `h` weighted by `2·d·d`
  (`d` the degree column) and the bias row, and clamps the result at zero.  Each block the body leaves is the
  block of ONE function of the four arrays, and the twenty blocks cover the output, so the output array
  after the run is that function: `Spec.finRelu`.
-/
import proofs.«139152_j41120016892602_1_alg».proof.Proof.Gen.KernelIdeal.Frame
import proofs.«139152_j41120016892602_1_alg».proof.Proof.Spec
import Idealize.ShloMosaic.Lib.Pipeline.Value
import Idealize.ShloMosaic.Lib.ValueLayout
import Idealize.ShloMosaic.Lib.ValueIdx

noncomputable section

namespace Cert.RegB

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- A column broadcast along its unit axis reads, at `(r, q)`, the column at row `r`. -/
theorem col_bcast1 (v : Vec Ideal S5000x1 .f32) (r : Fin 5000) (q : Fin 32) :
    broadcastTo S5000x32 v broadcasts_S5000x1_S5000x32 (ix2 r q) = v (ix2 r (0 : Fin 1)) := by
  refine broadcastTo_apply v broadcasts_S5000x1_S5000x32 (ix2 r q) (ix2 r (0 : Fin 1)) fun ax => ?_
  match ax with
  | ⟨0, _⟩ => rfl
  | ⟨1, _⟩ => rfl

/-- Entry `(r, q)` of what the body stores, from the four blocks it loads (degree column, projection,
    aggregate, bias row): the layer's sum clamped at zero. -/
theorem pay1_apply (v0 : Vec Ideal S5000x1 .f32) (v5 v9 : Vec Ideal S5000x32 .f32) (v12 : Vec Ideal S1x32 .f32)
    (r : Fin 5000) (q : Fin 32) :
    k1_pay1 (F := Ideal) v0 v5 v9 v12 (ix2 r q)
      = max ((v9 (ix2 r q) + ((Spec.two * v0 (ix2 r 0)) * v0 (ix2 r 0)) * v5 (ix2 r q)) + v12 (ix2 0 q)) Spec.zero := by
  unfold k1_pay1
  simp only [shapeCast_self]
  rw [maximumf_apply, addf_apply, addf_apply, mulf_apply]
  rw [col_bcast1, broadcastTo_1b_ab_apply]
  rfl

/-- The same entry as the entry `(p, q)` of the whole-array function, when each loaded block holds there
    what its array holds at row `p` (the bias row: at its one row). -/
theorem point1 (x0 x2 : Vec Ideal S5000x32 .f32) (x1 : Vec Ideal S5000x1 .f32) (x3 : Vec Ideal S1x32 .f32)
    (H A : Spec.Mat 100000 32) (D : Spec.Mat 100000 1) (B : Spec.Mat 1 32)
    (r : Fin 5000) (q : Fin 32) (p : Fin 100000)
    (h0 : x0 (ix2 r q) = H (ix2 p q)) (h1 : x1 (ix2 r 0) = D (ix2 p 0))
    (h2 : x2 (ix2 r q) = A (ix2 p q)) (h3 : x3 (ix2 0 q) = B (ix2 0 q)) :
    k1_pay1 (F := Ideal) x1 x0 x2 x3 (ix2 r q) = Spec.finRelu H D A B (ix2 p q) := by
  rw [pay1_apply, Spec.finRelu_ix2, h0, h1, h2, h3]; rfl

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The block index maps, decided over the twenty grid points: the projection, the degree column and the
    aggregate move with the output along the rows and stay at column block 0; the bias row stays whole. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- What grid point `t` writes back is block `t` of the whole-array function of the arrays the region finds. -/
theorem flushed1_eq (c : Dev nD) (t : Fin cfg1.N) :
    (dat1 (F := Ideal) V c).flushed 4 t = ((cfg1.win 4).blk t).view.read (Elt Ideal)
      (Spec.finRelu (V c main_v13) (V c main_v12) (V c main_v41) (V c main_v42)) := by
  show (cfg1.win 4).cut (grid1.coords t) ((dat1 V c).after 4 t) = _
  rw [after1_4]
  unfold out1_4
  rw [View.canon_unit_zero hz1]
  simp only [View.ld_unit_zero (S := S5000x32) hz1, View.ld_unit_zero (S := S5000x1) hz1, View.ld_unit_zero (S := S1x32) hz1]
  funext j
  obtain ⟨e00, e01, e10, e11, e20, e21, e30, e31, e4le, e41⟩ := idx_facts1 t
  have hr : (j 0).val < 5000 := (j 0).isLt
  have hq : (j 1).val < 32 := (j 1).isLt
  have hp : win1_4.index t (0 : Fin 2) * 5000 + (j 0).val < 100000 := by omega
  have hj : (win1 4).xinj (grid1.coords t) j = ix2 (⟨(j 0).val, hr⟩ : Fin 5000) (⟨(j 1).val, hq⟩ : Fin 32) := eq_ix2 _
  -- a block's element sits in the array at block index × block size + its coordinate in the block
  have hemb : ((cfg1.win 4).blk t).view.emb j
      = ix2 (⟨win1_4.index t (0 : Fin 2) * 5000 + (j 0).val, hp⟩ : Fin 100000) (⟨(j 1).val, hq⟩ : Fin 32) := by
    funext a; apply Fin.ext
    match a with
    | ⟨0, _⟩ => show win1_4.index t (0 : Fin 2) * 5000 + 1 * (j 0).val = win1_4.index t (0 : Fin 2) * 5000 + (j 0).val; omega
    | ⟨1, _⟩ => show win1_4.index t (1 : Fin 2) * 32 + 1 * (j 1).val = (j 1).val; omega
  show k1_pay1 (iblk1 V c 1 t) (iblk1 V c 0 t) (iblk1 V c 2 t) (iblk1 V c 3 t) ((win1 4).xinj (grid1.coords t) j)
      = Spec.finRelu (V c main_v13) (V c main_v12) (V c main_v41) (V c main_v42) (((cfg1.win 4).blk t).view.emb j)
  rw [hj, hemb]
  refine point1 _ _ _ _ _ _ _ _ _ _ _ ?_ ?_ ?_ ?_
  · show V c main_v13 (((cfg1.win 0).blk t).view.emb (ix2 (⟨(j 0).val, hr⟩ : Fin 5000) (⟨(j 1).val, hq⟩ : Fin 32))) = _
    refine congrArg (V c main_v13) ?_
    funext a; apply Fin.ext
    match a with
    | ⟨0, _⟩ => show win1_0.index t (0 : Fin 2) * 5000 + 1 * (j 0).val = win1_4.index t (0 : Fin 2) * 5000 + (j 0).val; omega
    | ⟨1, _⟩ => show win1_0.index t (1 : Fin 2) * 32 + 1 * (j 1).val = (j 1).val; omega
  · show V c main_v12 (((cfg1.win 1).blk t).view.emb (ix2 (⟨(j 0).val, hr⟩ : Fin 5000) (0 : Fin 1))) = _
    refine congrArg (V c main_v12) ?_
    funext a; apply Fin.ext
    match a with
    | ⟨0, _⟩ => show win1_1.index t (0 : Fin 2) * 5000 + 1 * (j 0).val = win1_4.index t (0 : Fin 2) * 5000 + (j 0).val; omega
    | ⟨1, _⟩ => show win1_1.index t (1 : Fin 2) * 1 + 1 * 0 = 0; omega
  · show V c main_v41 (((cfg1.win 2).blk t).view.emb (ix2 (⟨(j 0).val, hr⟩ : Fin 5000) (⟨(j 1).val, hq⟩ : Fin 32))) = _
    refine congrArg (V c main_v41) ?_
    funext a; apply Fin.ext
    match a with
    | ⟨0, _⟩ => show win1_2.index t (0 : Fin 2) * 5000 + 1 * (j 0).val = win1_4.index t (0 : Fin 2) * 5000 + (j 0).val; omega
    | ⟨1, _⟩ => show win1_2.index t (1 : Fin 2) * 32 + 1 * (j 1).val = (j 1).val; omega
  · show V c main_v42 (((cfg1.win 3).blk t).view.emb (ix2 (0 : Fin 1) (⟨(j 1).val, hq⟩ : Fin 32))) = _
    refine congrArg (V c main_v42) ?_
    funext a; apply Fin.ext
    match a with
    | ⟨0, _⟩ => show win1_3.index t (0 : Fin 2) * 1 + 1 * 0 = 0; omega
    | ⟨1, _⟩ => show win1_3.index t (1 : Fin 2) * 32 + 1 * (j 1).val = (j 1).val; omega

/-- An index of the array lies in the block of point `t` iff each coordinate lies in the block's range on its axis. -/
theorem mem_blk1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v43).slice (win1_4.rect t)).set ↔ _
  rw [View.set_slice_whole, Rect.mem_set_unit]
  exact Iff.rfl

/-- Every one of the twenty row blocks is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- Row `r` lies in row block `r / 5000`: the blocks cover the array. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- The region's output array after the run: the layer's sum clamped at zero of the arrays the region finds. -/
theorem region1 (c : Dev nD) : (dat1 (F := Ideal) V c).arrAt 4 cfg1.N
    = Spec.finRelu (V c main_v13) (V c main_v12) (V c main_v41) (V c main_v42) :=
  (dat1 (F := Ideal) V c).arrAt_eq_of_cover 4 _ (fun t _ => flushed1_eq V c t) cover1

end Cert.RegB

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.RefA1.lean ====
/-
  The reference program's dense products and layer closings, read at an entry.

  Each dense product of the reference is the sum over the shared axis, and each closing of a graph-convolution
  layer is, entry by entry, the neighbours' sum plus the node's own projection weighted by 2·d·d plus the bias,
  clamped at zero for the first layer.  The neighbours' sum enters each closing as an array of its own.
-/
import proofs.«139152_j41120016892602_1_alg».proof.Proof.RefRead
import proofs.«139152_j41120016892602_1_alg».proof.Proof.Spec
import proofs.«139152_j41120016892602_1_alg».proof.Proof.LibColumnLayout
import Idealize.ShloMosaic.Lib.ValueIdx
import Idealize.ShloMosaic.Lib.Pipeline.Value

noncomputable section

open scoped BigOperators

namespace Cert.RefA

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A vector `[b]` cast to the row `[1, b]` reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

variable (x0 : (⟨S100000x37, .f32⟩ : BufTy).Contents (Elt Ideal))
  (x1 : (⟨S2x3200000, .i32⟩ : BufTy).Contents (Elt Ideal))
  (x3 : (⟨S37x32, .f32⟩ : BufTy).Contents (Elt Ideal))
  (x4 : (⟨S32, .f32⟩ : BufTy).Contents (Elt Ideal))
  (x5 : (⟨S32x32, .f32⟩ : BufTy).Contents (Elt Ideal))
  (x6 : (⟨S32, .f32⟩ : BufTy).Contents (Elt Ideal))
  (x7 : (⟨S32x32, .f32⟩ : BufTy).Contents (Elt Ideal))
  (x8 : (⟨S32, .f32⟩ : BufTy).Contents (Elt Ideal))

/-! ## The first layer -/

/-- The first projection `x·W₁`, entry by entry. -/
theorem ref_v12 : val_main_v12 (F := Ideal) x0 x3 = Spec.mm x0 x3 := by
  funext i
  obtain ⟨p, q, rfl⟩ : ∃ (p : Fin 100000) (q : Fin 32), i = ix2 p q := ⟨i 0, i 1, eq_ix2 i⟩
  rw [val_main_v12_apply, Spec.mm_ix2]
  unfold Spec.mmAt
  refine Finset.sum_congr rfl fun k _ => ?_
  have el : lidx_main_v12 (ix2 p q) k = ix2 p k :=
    funext fun a => Fin.ext (by match a with | ⟨0, _⟩ => rfl | ⟨1, _⟩ => rfl)
  have er : ridx_main_v12 (ix2 p q) k = ix2 k q :=
    funext fun a => Fin.ext (by match a with | ⟨0, _⟩ => rfl | ⟨1, _⟩ => rfl)
  rw [el, er]

/-- The first layer's output: the closing `agg + (2·d·d)·h + b`, clamped at zero. -/
theorem ref_v51 (hd : (⟨1, ![100000]⟩ : Shape).ShapeCasts ⟨2, ![100000, 1]⟩)
    (hb : (⟨1, ![32]⟩ : Shape).ShapeCasts ⟨2, ![1, 32]⟩) :
    val_main_v51 (F := Ideal) x0 x1 x3 x4
      = Spec.finRelu (val_main_v12 (F := Ideal) x0 x3)
          (shapeCast ⟨2, ![100000, 1]⟩ (val_main_v11 (F := Ideal) x1) hd)
          (val_main_v40 (F := Ideal) x0 x1 x3)
          (shapeCast ⟨2, ![1, 32]⟩ x4 hb) := by
  funext i
  obtain ⟨p, q, rfl⟩ : ∃ (p : Fin 100000) (q : Fin 32), i = ix2 p q := ⟨i 0, i 1, eq_ix2 i⟩
  rw [val_main_v51_apply, val_main_v50_apply, val_main_v47_apply, val_main_v46_apply, val_main_v45_apply,
    val_main_v44_apply, val_main_v43_apply, val_main_v42_apply, val_main_v41_apply, val_main_cst_9_apply,
    val_main_v49_apply, val_main_v48_apply, val_main_call0_v0_apply, val_main_call0_cst_apply,
    Spec.finRelu_ix2]
  unfold Spec.finAt
  rw [PhysLoss.shapeCast_a_a1_apply, shapeCast_row_apply]
  generalize val_main_v40 (F := Ideal) x0 x1 x3 = agg
  generalize val_main_v11 (F := Ideal) x1 = d
  generalize val_main_v12 (F := Ideal) x0 x3 = h
  have e1 : idx_main_v44 (idx_main_v45 (ix2 p q)) = ix1 p :=
    funext fun a => Fin.ext (by match a with | ⟨0, _⟩ => rfl)
  have e2 : idx_main_v48 (idx_main_v49 (ix2 p q)) = ix1 q :=
    funext fun a => Fin.ext (by match a with | ⟨0, _⟩ => rfl)
  rw [e1, e2]
  simp only [Ideal.mulf_def, Ideal.addf_def, Ideal.maximumf_def, Ideal.ofBits_def]

/-- The second projection `out₁·W₂`, entry by entry. -/
theorem ref_v52 : val_main_v52 (F := Ideal) x0 x1 x3 x4 x5
      = Spec.mm (val_main_v51 (F := Ideal) x0 x1 x3 x4) x5 := by
  funext i
  obtain ⟨p, q, rfl⟩ : ∃ (p : Fin 100000) (q : Fin 32), i = ix2 p q := ⟨i 0, i 1, eq_ix2 i⟩
  rw [val_main_v52_apply, Spec.mm_ix2]
  unfold Spec.mmAt
  generalize val_main_v51 (F := Ideal) x0 x1 x3 x4 = y
  refine Finset.sum_congr rfl fun k _ => ?_
  have el : lidx_main_v52 (ix2 p q) k = ix2 p k :=
    funext fun a => Fin.ext (by match a with | ⟨0, _⟩ => rfl | ⟨1, _⟩ => rfl)
  have er : ridx_main_v52 (ix2 p q) k = ix2 k q :=
    funext fun a => Fin.ext (by match a with | ⟨0, _⟩ => rfl | ⟨1, _⟩ => rfl)
  rw [el, er]

/-! ## The second layer -/

/-- The second layer's output: the closing `agg + (2·d·d)·h + b`, not clamped. -/
theorem ref_v90 (hd : (⟨1, ![100000]⟩ : Shape).ShapeCasts ⟨2, ![100000, 1]⟩)
    (hb : (⟨1, ![32]⟩ : Shape).ShapeCasts ⟨2, ![1, 32]⟩) :
    val_main_v90 (F := Ideal) x0 x1 x3 x4 x5 x6
      = Spec.fin (val_main_v52 (F := Ideal) x0 x1 x3 x4 x5)
          (shapeCast ⟨2, ![100000, 1]⟩ (val_main_v11 (F := Ideal) x1) hd)
          (val_main_v80 (F := Ideal) x0 x1 x3 x4 x5)
          (shapeCast ⟨2, ![1, 32]⟩ x6 hb) := by
  funext i
  obtain ⟨p, q, rfl⟩ : ∃ (p : Fin 100000) (q : Fin 32), i = ix2 p q := ⟨i 0, i 1, eq_ix2 i⟩
  rw [val_main_v90_apply, val_main_v87_apply, val_main_v86_apply, val_main_v85_apply,
    val_main_v84_apply, val_main_v83_apply, val_main_v82_apply, val_main_v81_apply, val_main_cst_17_apply,
    val_main_v89_apply, val_main_v88_apply, Spec.fin_ix2]
  unfold Spec.finAt
  rw [PhysLoss.shapeCast_a_a1_apply, shapeCast_row_apply]
  generalize val_main_v80 (F := Ideal) x0 x1 x3 x4 x5 = agg
  generalize val_main_v11 (F := Ideal) x1 = d
  generalize val_main_v52 (F := Ideal) x0 x1 x3 x4 x5 = h
  have e1 : idx_main_v84 (idx_main_v85 (ix2 p q)) = ix1 p :=
    funext fun a => Fin.ext (by match a with | ⟨0, _⟩ => rfl)
  have e2 : idx_main_v88 (idx_main_v89 (ix2 p q)) = ix1 q :=
    funext fun a => Fin.ext (by match a with | ⟨0, _⟩ => rfl)
  rw [e1, e2]
  simp only [Ideal.mulf_def, Ideal.addf_def, Ideal.ofBits_def]

/-- The third projection `out₂·W₃`, entry by entry. -/
theorem ref_v91 : val_main_v91 (F := Ideal) x0 x1 x3 x4 x5 x6 x7
      = Spec.mm (val_main_v90 (F := Ideal) x0 x1 x3 x4 x5 x6) x7 := by
  funext i
  obtain ⟨p, q, rfl⟩ : ∃ (p : Fin 100000) (q : Fin 32), i = ix2 p q := ⟨i 0, i 1, eq_ix2 i⟩
  rw [val_main_v91_apply, Spec.mm_ix2]
  unfold Spec.mmAt
  generalize val_main_v90 (F := Ideal) x0 x1 x3 x4 x5 x6 = y
  refine Finset.sum_congr rfl fun k _ => ?_
  have el : lidx_main_v91 (ix2 p q) k = ix2 p k :=
    funext fun a => Fin.ext (by match a with | ⟨0, _⟩ => rfl | ⟨1, _⟩ => rfl)
  have er : ridx_main_v91 (ix2 p q) k = ix2 k q :=
    funext fun a => Fin.ext (by match a with | ⟨0, _⟩ => rfl | ⟨1, _⟩ => rfl)
  rw [el, er]

/-! ## The third layer -/

/-- The third layer's output: the closing `agg + (2·d·d)·h + b`, not clamped. -/
theorem ref_v129 (hd : (⟨1, ![100000]⟩ : Shape).ShapeCasts ⟨2, ![100000, 1]⟩)
    (hb : (⟨1, ![32]⟩ : Shape).ShapeCasts ⟨2, ![1, 32]⟩) :
    val_main_v129 (F := Ideal) x0 x1 x3 x4 x5 x6 x7 x8
      = Spec.fin (val_main_v91 (F := Ideal) x0 x1 x3 x4 x5 x6 x7)
          (shapeCast ⟨2, ![100000, 1]⟩ (val_main_v11 (F := Ideal) x1) hd)
          (val_main_v119 (F := Ideal) x0 x1 x3 x4 x5 x6 x7)
          (shapeCast ⟨2, ![1, 32]⟩ x8 hb) := by
  funext i
  obtain ⟨p, q, rfl⟩ : ∃ (p : Fin 100000) (q : Fin 32), i = ix2 p q := ⟨i 0, i 1, eq_ix2 i⟩
  rw [val_main_v129_apply, val_main_v126_apply, val_main_v125_apply, val_main_v124_apply,
    val_main_v123_apply, val_main_v122_apply, val_main_v121_apply, val_main_v120_apply, val_main_cst_25_apply,
    val_main_v128_apply, val_main_v127_apply, Spec.fin_ix2]
  unfold Spec.finAt
  rw [PhysLoss.shapeCast_a_a1_apply, shapeCast_row_apply]
  generalize val_main_v119 (F := Ideal) x0 x1 x3 x4 x5 x6 x7 = agg
  generalize val_main_v11 (F := Ideal) x1 = d
  generalize val_main_v91 (F := Ideal) x0 x1 x3 x4 x5 x6 x7 = h
  have e1 : idx_main_v123 (idx_main_v124 (ix2 p q)) = ix1 p :=
    funext fun a => Fin.ext (by match a with | ⟨0, _⟩ => rfl)
  have e2 : idx_main_v127 (idx_main_v128 (ix2 p q)) = ix1 q :=
    funext fun a => Fin.ext (by match a with | ⟨0, _⟩ => rfl)
  rw [e1, e2]
  simp only [Ideal.mulf_def, Ideal.addf_def, Ideal.ofBits_def]

end Cert.RefA

end
-- ==== Proof.Chain1.lean ====
/-
  The contents of the idealized kernel program's buffers at the boundaries between its segments,
  boundaries 0 to 5: every buffer a later segment reads holds the value the reference computes
  for it (a host stretch's result by the stretch's own operations, a pipeline's output array by the
  pipeline's whole-array value, and a buffer no segment in between writes keeps what it held).
-/
import proofs.«139152_j41120016892602_1_alg».proof.Proof.Gen.KernelIdeal.Frame
import proofs.«139152_j41120016892602_1_alg».proof.Proof.HostK
import proofs.«139152_j41120016892602_1_alg».proof.Proof.Spec
import proofs.«139152_j41120016892602_1_alg».proof.Proof.RegA0
import proofs.«139152_j41120016892602_1_alg».proof.Proof.RegA2
import proofs.«139152_j41120016892602_1_alg».proof.Proof.RegB1
import proofs.«139152_j41120016892602_1_alg».proof.Proof.RefA1

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of a host stretch writes keeps its contents through the stretch. -/
macro "host_keep" ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## At launch -/

theorem W0_arg0 : W0 m ρ c (Proc.devRef .tc main_arg0) = (m ((c : Thread nD τ).loc main_arg0)) := rfl
theorem W0_arg1 : W0 m ρ c (Proc.devRef .tc main_arg1) = (m ((c : Thread nD τ).loc main_arg1)) := rfl
theorem W0_arg2 : W0 m ρ c (Proc.devRef .tc main_arg2) = (m ((c : Thread nD τ).loc main_arg2)) := rfl
theorem W0_arg3 : W0 m ρ c (Proc.devRef .tc main_arg3) = (m ((c : Thread nD τ).loc main_arg3)) := rfl
theorem W0_arg4 : W0 m ρ c (Proc.devRef .tc main_arg4) = (m ((c : Thread nD τ).loc main_arg4)) := rfl
theorem W0_arg5 : W0 m ρ c (Proc.devRef .tc main_arg5) = (m ((c : Thread nD τ).loc main_arg5)) := rfl
theorem W0_arg6 : W0 m ρ c (Proc.devRef .tc main_arg6) = (m ((c : Thread nD τ).loc main_arg6)) := rfl
theorem W0_arg7 : W0 m ρ c (Proc.devRef .tc main_arg7) = (m ((c : Thread nD τ).loc main_arg7)) := rfl
theorem W0_arg8 : W0 m ρ c (Proc.devRef .tc main_arg8) = (m ((c : Thread nD τ).loc main_arg8)) := rfl
theorem W0_arg9 : W0 m ρ c (Proc.devRef .tc main_arg9) = (m ((c : Thread nD τ).loc main_arg9)) := rfl
theorem W0_arg10 : W0 m ρ c (Proc.devRef .tc main_arg10) = (m ((c : Thread nD τ).loc main_arg10)) := rfl
theorem W0_arg11 : W0 m ρ c (Proc.devRef .tc main_arg11) = (m ((c : Thread nD τ).loc main_arg11)) := rfl
theorem W0_arg12 : W0 m ρ c (Proc.devRef .tc main_arg12) = (m ((c : Thread nD τ).loc main_arg12)) := rfl

/-! ## Boundary 1: after the host stretch hostOps0 -/

theorem W1_arg0 : W1 m ρ c (Proc.devRef .tc main_arg0) = (m ((c : Thread nD τ).loc main_arg0)) :=
  (show W1 m ρ c (Proc.devRef .tc main_arg0) = W0 m ρ c (Proc.devRef .tc main_arg0) by host_keep hostOps0).trans (W0_arg0 m ρ c)
theorem W1_arg2 : W1 m ρ c (Proc.devRef .tc main_arg2) = (m ((c : Thread nD τ).loc main_arg2)) :=
  (show W1 m ρ c (Proc.devRef .tc main_arg2) = W0 m ρ c (Proc.devRef .tc main_arg2) by host_keep hostOps0).trans (W0_arg2 m ρ c)
theorem W1_arg3 : W1 m ρ c (Proc.devRef .tc main_arg3) = (m ((c : Thread nD τ).loc main_arg3)) :=
  (show W1 m ρ c (Proc.devRef .tc main_arg3) = W0 m ρ c (Proc.devRef .tc main_arg3) by host_keep hostOps0).trans (W0_arg3 m ρ c)
theorem W1_arg4 : W1 m ρ c (Proc.devRef .tc main_arg4) = (m ((c : Thread nD τ).loc main_arg4)) :=
  (show W1 m ρ c (Proc.devRef .tc main_arg4) = W0 m ρ c (Proc.devRef .tc main_arg4) by host_keep hostOps0).trans (W0_arg4 m ρ c)
theorem W1_arg5 : W1 m ρ c (Proc.devRef .tc main_arg5) = (m ((c : Thread nD τ).loc main_arg5)) :=
  (show W1 m ρ c (Proc.devRef .tc main_arg5) = W0 m ρ c (Proc.devRef .tc main_arg5) by host_keep hostOps0).trans (W0_arg5 m ρ c)
theorem W1_arg6 : W1 m ρ c (Proc.devRef .tc main_arg6) = (m ((c : Thread nD τ).loc main_arg6)) :=
  (show W1 m ρ c (Proc.devRef .tc main_arg6) = W0 m ρ c (Proc.devRef .tc main_arg6) by host_keep hostOps0).trans (W0_arg6 m ρ c)
theorem W1_arg7 : W1 m ρ c (Proc.devRef .tc main_arg7) = (m ((c : Thread nD τ).loc main_arg7)) :=
  (show W1 m ρ c (Proc.devRef .tc main_arg7) = W0 m ρ c (Proc.devRef .tc main_arg7) by host_keep hostOps0).trans (W0_arg7 m ρ c)
theorem W1_arg8 : W1 m ρ c (Proc.devRef .tc main_arg8) = (m ((c : Thread nD τ).loc main_arg8)) :=
  (show W1 m ρ c (Proc.devRef .tc main_arg8) = W0 m ρ c (Proc.devRef .tc main_arg8) by host_keep hostOps0).trans (W0_arg8 m ρ c)
theorem W1_arg9 : W1 m ρ c (Proc.devRef .tc main_arg9) = (m ((c : Thread nD τ).loc main_arg9)) :=
  (show W1 m ρ c (Proc.devRef .tc main_arg9) = W0 m ρ c (Proc.devRef .tc main_arg9) by host_keep hostOps0).trans (W0_arg9 m ρ c)
theorem W1_arg10 : W1 m ρ c (Proc.devRef .tc main_arg10) = (m ((c : Thread nD τ).loc main_arg10)) :=
  (show W1 m ρ c (Proc.devRef .tc main_arg10) = W0 m ρ c (Proc.devRef .tc main_arg10) by host_keep hostOps0).trans (W0_arg10 m ρ c)
theorem W1_arg11 : W1 m ρ c (Proc.devRef .tc main_arg11) = (m ((c : Thread nD τ).loc main_arg11)) :=
  (show W1 m ρ c (Proc.devRef .tc main_arg11) = W0 m ρ c (Proc.devRef .tc main_arg11) by host_keep hostOps0).trans (W0_arg11 m ρ c)
theorem W1_arg12 : W1 m ρ c (Proc.devRef .tc main_arg12) = (m ((c : Thread nD τ).loc main_arg12)) :=
  (show W1 m ρ c (Proc.devRef .tc main_arg12) = W0 m ρ c (Proc.devRef .tc main_arg12) by host_keep hostOps0).trans (W0_arg12 m ρ c)
theorem W1_v1 : W1 m ρ c (Proc.devRef .tc main_v1) = Cert.ReferenceIdeal.Read.val_main_v1 (F := Ideal) (m ((c : Thread nD τ).loc main_arg1)) :=
  Cert.HostK.h0_v1 (Wv := W0 m ρ c) (e1 := W0_arg1 m ρ c)
theorem W1_v3 : W1 m ρ c (Proc.devRef .tc main_v3) = Cert.ReferenceIdeal.Read.val_main_v3 (F := Ideal) (m ((c : Thread nD τ).loc main_arg1)) :=
  Cert.HostK.h0_v3 (Wv := W0 m ρ c) (e1 := W0_arg1 m ρ c)
theorem W1_v11 : W1 m ρ c (Proc.devRef .tc main_v11) = Cert.ReferenceIdeal.Read.val_main_v11 (F := Ideal) (m ((c : Thread nD τ).loc main_arg1)) :=
  Cert.HostK.h0_v11 (Wv := W0 m ρ c) (e1 := W0_arg1 m ρ c)
theorem W1_v12 : W1 m ρ c (Proc.devRef .tc main_v12) = shapeCast S100000x1 (Cert.ReferenceIdeal.Read.val_main_v11 (F := Ideal) (m ((c : Thread nD τ).loc main_arg1))) shapeCasts_S100000_S100000x1 :=
  Cert.HostK.h0_v12 (Wv := W0 m ρ c) (e1 := W0_arg1 m ρ c)

/-! ## Boundary 2: after pipeline 0 -/

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v11 : W2 m ρ c (Proc.devRef .tc main_v11) = Cert.ReferenceIdeal.Read.val_main_v11 (F := Ideal) (m ((c : Thread nD τ).loc main_arg1)) :=
  (W2_of_ne m ρ c main_v11 (by decide)).trans (W1_v11 m ρ c)
theorem W2_v12 : W2 m ρ c (Proc.devRef .tc main_v12) = shapeCast S100000x1 (Cert.ReferenceIdeal.Read.val_main_v11 (F := Ideal) (m ((c : Thread nD τ).loc main_arg1))) shapeCasts_S100000_S100000x1 :=
  (W2_of_ne m ρ c main_v12 (by decide)).trans (W1_v12 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_v13 : W2 m ρ c (Proc.devRef .tc main_v13) = Cert.ReferenceIdeal.Read.val_main_v12 (F := Ideal) (m ((c : Thread nD τ).loc main_arg0)) (m ((c : Thread nD τ).loc main_arg3)) :=
  (W2_arr m ρ c 2).trans ((Cert.RegA.region0 (V1 m ρ) c).trans (by
    rw [show V1 m ρ c main_arg0 = _ from W1_arg0 m ρ c,
      show V1 m ρ c main_arg3 = _ from W1_arg3 m ρ c]
    exact (Cert.RefA.ref_v12 ..).symm))

/-! ## Boundary 3: after the host stretch hostOps1 -/

theorem W3_v1 : W3 m ρ c (Proc.devRef .tc main_v1) = Cert.ReferenceIdeal.Read.val_main_v1 (F := Ideal) (m ((c : Thread nD τ).loc main_arg1)) :=
  (show W3 m ρ c (Proc.devRef .tc main_v1) = W2 m ρ c (Proc.devRef .tc main_v1) by host_keep hostOps1).trans (W2_v1 m ρ c)
theorem W3_v3 : W3 m ρ c (Proc.devRef .tc main_v3) = Cert.ReferenceIdeal.Read.val_main_v3 (F := Ideal) (m ((c : Thread nD τ).loc main_arg1)) :=
  (show W3 m ρ c (Proc.devRef .tc main_v3) = W2 m ρ c (Proc.devRef .tc main_v3) by host_keep hostOps1).trans (W2_v3 m ρ c)
theorem W3_v11 : W3 m ρ c (Proc.devRef .tc main_v11) = Cert.ReferenceIdeal.Read.val_main_v11 (F := Ideal) (m ((c : Thread nD τ).loc main_arg1)) :=
  (show W3 m ρ c (Proc.devRef .tc main_v11) = W2 m ρ c (Proc.devRef .tc main_v11) by host_keep hostOps1).trans (W2_v11 m ρ c)
theorem W3_v12 : W3 m ρ c (Proc.devRef .tc main_v12) = shapeCast S100000x1 (Cert.ReferenceIdeal.Read.val_main_v11 (F := Ideal) (m ((c : Thread nD τ).loc main_arg1))) shapeCasts_S100000_S100000x1 :=
  (show W3 m ρ c (Proc.devRef .tc main_v12) = W2 m ρ c (Proc.devRef .tc main_v12) by host_keep hostOps1).trans (W2_v12 m ρ c)
theorem W3_v13 : W3 m ρ c (Proc.devRef .tc main_v13) = Cert.ReferenceIdeal.Read.val_main_v12 (F := Ideal) (m ((c : Thread nD τ).loc main_arg0)) (m ((c : Thread nD τ).loc main_arg3)) :=
  (show W3 m ρ c (Proc.devRef .tc main_v13) = W2 m ρ c (Proc.devRef .tc main_v13) by host_keep hostOps1).trans (W2_v13 m ρ c)
theorem W3_arg2 : W3 m ρ c (Proc.devRef .tc main_arg2) = (m ((c : Thread nD τ).loc main_arg2)) :=
  (show W3 m ρ c (Proc.devRef .tc main_arg2) = W2 m ρ c (Proc.devRef .tc main_arg2) by host_keep hostOps1).trans (W2_arg2 m ρ c)
theorem W3_arg5 : W3 m ρ c (Proc.devRef .tc main_arg5) = (m ((c : Thread nD τ).loc main_arg5)) :=
  (show W3 m ρ c (Proc.devRef .tc main_arg5) = W2 m ρ c (Proc.devRef .tc main_arg5) by host_keep hostOps1).trans (W2_arg5 m ρ c)
theorem W3_arg6 : W3 m ρ c (Proc.devRef .tc main_arg6) = (m ((c : Thread nD τ).loc main_arg6)) :=
  (show W3 m ρ c (Proc.devRef .tc main_arg6) = W2 m ρ c (Proc.devRef .tc main_arg6) by host_keep hostOps1).trans (W2_arg6 m ρ c)
theorem W3_arg7 : W3 m ρ c (Proc.devRef .tc main_arg7) = (m ((c : Thread nD τ).loc main_arg7)) :=
  (show W3 m ρ c (Proc.devRef .tc main_arg7) = W2 m ρ c (Proc.devRef .tc main_arg7) by host_keep hostOps1).trans (W2_arg7 m ρ c)
theorem W3_arg8 : W3 m ρ c (Proc.devRef .tc main_arg8) = (m ((c : Thread nD τ).loc main_arg8)) :=
  (show W3 m ρ c (Proc.devRef .tc main_arg8) = W2 m ρ c (Proc.devRef .tc main_arg8) by host_keep hostOps1).trans (W2_arg8 m ρ c)
theorem W3_arg9 : W3 m ρ c (Proc.devRef .tc main_arg9) = (m ((c : Thread nD τ).loc main_arg9)) :=
  (show W3 m ρ c (Proc.devRef .tc main_arg9) = W2 m ρ c (Proc.devRef .tc main_arg9) by host_keep hostOps1).trans (W2_arg9 m ρ c)
theorem W3_arg10 : W3 m ρ c (Proc.devRef .tc main_arg10) = (m ((c : Thread nD τ).loc main_arg10)) :=
  (show W3 m ρ c (Proc.devRef .tc main_arg10) = W2 m ρ c (Proc.devRef .tc main_arg10) by host_keep hostOps1).trans (W2_arg10 m ρ c)
theorem W3_arg11 : W3 m ρ c (Proc.devRef .tc main_arg11) = (m ((c : Thread nD τ).loc main_arg11)) :=
  (show W3 m ρ c (Proc.devRef .tc main_arg11) = W2 m ρ c (Proc.devRef .tc main_arg11) by host_keep hostOps1).trans (W2_arg11 m ρ c)
theorem W3_arg12 : W3 m ρ c (Proc.devRef .tc main_arg12) = (m ((c : Thread nD τ).loc main_arg12)) :=
  (show W3 m ρ c (Proc.devRef .tc main_arg12) = W2 m ρ c (Proc.devRef .tc main_arg12) by host_keep hostOps1).trans (W2_arg12 m ρ c)
theorem W3_v41 : W3 m ρ c (Proc.devRef .tc main_v41) = Cert.ReferenceIdeal.Read.val_main_v40 (F := Ideal) (m ((c : Thread nD τ).loc main_arg0)) (m ((c : Thread nD τ).loc main_arg1)) (m ((c : Thread nD τ).loc main_arg3)) :=
  Cert.HostK.h1_v41 (Wv := W2 m ρ c) (e13 := W2_v13 m ρ c) (e11 := W2_v11 m ρ c) (e1 := W2_v1 m ρ c) (e3 := W2_v3 m ρ c)
theorem W3_v42 : W3 m ρ c (Proc.devRef .tc main_v42) = shapeCast S1x32 (m ((c : Thread nD τ).loc main_arg4)) shapeCasts_S32_S1x32 :=
  Cert.HostK.h1_v42 (Wv := W2 m ρ c) (e4 := W2_arg4 m ρ c)

/-! ## Boundary 4: after pipeline 1 -/

theorem W4_v1 : W4 m ρ c (Proc.devRef .tc main_v1) = Cert.ReferenceIdeal.Read.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v11 : W4 m ρ c (Proc.devRef .tc main_v11) = Cert.ReferenceIdeal.Read.val_main_v11 (F := Ideal) (m ((c : Thread nD τ).loc main_arg1)) :=
  (W4_of_ne m ρ c main_v11 (by decide)).trans (W3_v11 m ρ c)
theorem W4_v12 : W4 m ρ c (Proc.devRef .tc main_v12) = shapeCast S100000x1 (Cert.ReferenceIdeal.Read.val_main_v11 (F := Ideal) (m ((c : Thread nD τ).loc main_arg1))) shapeCasts_S100000_S100000x1 :=
  (W4_arr m ρ c 1).trans (((dat1 (V3 m ρ) c).arrAt_in 1 rfl _).trans ((A_eq1 (V3 m ρ) c 1).trans (W3_v12 m ρ c)))
theorem W4_arg2 : W4 m ρ c (Proc.devRef .tc main_arg2) = (m ((c : Thread nD τ).loc main_arg2)) :=
  (W4_of_ne m ρ c main_arg2 (by decide)).trans (W3_arg2 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_v43 : W4 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (W4_arr m ρ c 4).trans ((Cert.RegB.region1 (V3 m ρ) c).trans (by
    rw [show V3 m ρ c main_v13 = _ from W3_v13 m ρ c,
      show V3 m ρ c main_v12 = _ from W3_v12 m ρ c,
      show V3 m ρ c main_v41 = _ from W3_v41 m ρ c,
      show V3 m ρ c main_v42 = _ from W3_v42 m ρ c]
    exact (Cert.RefA.ref_v51 ..).symm))

/-! ## Boundary 5: after pipeline 2 -/

theorem W5_v1 : W5 m ρ c (Proc.devRef .tc main_v1) = Cert.ReferenceIdeal.Read.val_main_v1 (F := Ideal) (m ((c : Thread nD τ).loc main_arg1)) :=
  (W5_of_ne m ρ c main_v1 (by decide)).trans (W4_v1 m ρ c)
theorem W5_v3 : W5 m ρ c (Proc.devRef .tc main_v3) = Cert.ReferenceIdeal.Read.val_main_v3 (F := Ideal) (m ((c : Thread nD τ).loc main_arg1)) :=
  (W5_of_ne m ρ c main_v3 (by decide)).trans (W4_v3 m ρ c)
theorem W5_v11 : W5 m ρ c (Proc.devRef .tc main_v11) = Cert.ReferenceIdeal.Read.val_main_v11 (F := Ideal) (m ((c : Thread nD τ).loc main_arg1)) :=
  (W5_of_ne m ρ c main_v11 (by decide)).trans (W4_v11 m ρ c)
theorem W5_v12 : W5 m ρ c (Proc.devRef .tc main_v12) = shapeCast S100000x1 (Cert.ReferenceIdeal.Read.val_main_v11 (F := Ideal) (m ((c : Thread nD τ).loc main_arg1))) shapeCasts_S100000_S100000x1 :=
  (W5_of_ne m ρ c main_v12 (by decide)).trans (W4_v12 m ρ c)
theorem W5_v43 : W5 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (W5_arr m ρ c 0).trans (((dat2 (V4 m ρ) c).arrAt_in 0 rfl _).trans ((A_eq2 (V4 m ρ) c 0).trans (W4_v43 m ρ c)))
theorem W5_arg2 : W5 m ρ c (Proc.devRef .tc main_arg2) = (m ((c : Thread nD τ).loc main_arg2)) :=
  (W5_of_ne m ρ c main_arg2 (by decide)).trans (W4_arg2 m ρ c)
theorem W5_arg6 : W5 m ρ c (Proc.devRef .tc main_arg6) = (m ((c : Thread nD τ).loc main_arg6)) :=
  (W5_of_ne m ρ c main_arg6 (by decide)).trans (W4_arg6 m ρ c)
theorem W5_arg7 : W5 m ρ c (Proc.devRef .tc main_arg7) = (m ((c : Thread nD τ).loc main_arg7)) :=
  (W5_of_ne m ρ c main_arg7 (by decide)).trans (W4_arg7 m ρ c)
theorem W5_arg8 : W5 m ρ c (Proc.devRef .tc main_arg8) = (m ((c : Thread nD τ).loc main_arg8)) :=
  (W5_of_ne m ρ c main_arg8 (by decide)).trans (W4_arg8 m ρ c)
theorem W5_arg9 : W5 m ρ c (Proc.devRef .tc main_arg9) = (m ((c : Thread nD τ).loc main_arg9)) :=
  (W5_of_ne m ρ c main_arg9 (by decide)).trans (W4_arg9 m ρ c)
theorem W5_arg10 : W5 m ρ c (Proc.devRef .tc main_arg10) = (m ((c : Thread nD τ).loc main_arg10)) :=
  (W5_of_ne m ρ c main_arg10 (by decide)).trans (W4_arg10 m ρ c)
theorem W5_arg11 : W5 m ρ c (Proc.devRef .tc main_arg11) = (m ((c : Thread nD τ).loc main_arg11)) :=
  (W5_of_ne m ρ c main_arg11 (by decide)).trans (W4_arg11 m ρ c)
theorem W5_arg12 : W5 m ρ c (Proc.devRef .tc main_arg12) = (m ((c : Thread nD τ).loc main_arg12)) :=
  (W5_of_ne m ρ c main_arg12 (by decide)).trans (W4_arg12 m ρ c)
theorem W5_v44 : W5 m ρ c (Proc.devRef .tc main_v44) = Cert.ReferenceIdeal.Read.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W5_arr m ρ c 2).trans ((Cert.RegA.region2 (V4 m ρ) c).trans (by
    rw [show V4 m ρ c main_v43 = _ from W4_v43 m ρ c,
      show V4 m ρ c main_arg5 = _ from W4_arg5 m ρ c]
    exact (Cert.RefA.ref_v52 ..).symm))

end Cert.Chain

end
-- ==== Proof.RegA4.lean ====
/-
  The third graph-convolution layer's projection, as a whole array.

  The region runs over twenty grid points; point `t` reads rows `5000·t, …, 5000·t + 4999` of the layer's
  input (a 100000 × 32 matrix, the previous layer's output) and all of the 32 × 32 weights, multiplies them into a
  zero accumulator, and writes the 5000 × 32 result back as rows `5000·t, …` of the output. An entry of a block's
  product is the sum over the shared axis of the products of the entries; a row of the output depends on the same
  row of the input only, so block `t` of the whole product `x·W` is exactly what point `t` writes, and the
  twenty blocks tile the output. Hence the output array ends as `x·W`.
-/
import proofs.«139152_j41120016892602_1_alg».proof.Proof.Gen.KernelIdeal.Frame
import proofs.«139152_j41120016892602_1_alg».proof.Proof.Spec
import proofs.«139152_j41120016892602_1_alg».proof.Proof.LibSoftplus
import Idealize.ShloMosaic.Lib.Pipeline.Value
import Idealize.ShloMosaic.Lib.ValueIdx

noncomputable section

open scoped BigOperators

namespace Cert.RegA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem zero_off4 : (![0, 0] : Fin 2 → Nat) = fun _ => 0 := funext fun a => by fin_cases a <;> rfl

/-- Entry (r, q) of the body's product of a 5000×32 block with the 32×32 weights into a zero accumulator:
    the sum over the shared axis (a reshape to the same shape and the change of format of the operands are
    the identity here). -/
theorem pay4_apply (x0 : Vec Ideal S5000x32 .f32) (x1 : Vec Ideal S32x32 .f32) (r : Fin 5000) (q : Fin 32) :
    k4_pay1 x0 x1 (ix2 r q) = ∑ k : Fin 32, x0 (ix2 r k) * x1 (ix2 k q) := by
  unfold k4_pay1
  refine (Cert.Lib.Softplus.matmul0_plain_apply _ rfl none _ _ r q).trans ?_
  rw [shapeCast_self]
  rfl

/-- When the block `x0` holds rows `5000·b, …, 5000·b + 4999` of `A` and `x1` is all of `W`, the body's
    product at the block entry `y` is `A·W` at the array entry `i` in row `5000·b + y 0`, column `y 1`. -/
theorem block4_apply (A : Spec.Mat 100000 32) (W : Spec.Mat 32 32)
    (x0 : Vec Ideal S5000x32 .f32) (x1 : Vec Ideal S32x32 .f32) (b : Nat)
    (h0 : ∀ (y : S5000x32.Idx) (i : S100000x32.Idx), (i 0).val = b * 5000 + (y 0).val → (i 1).val = (y 1).val → x0 y = A i)
    (h1 : ∀ y : S32x32.Idx, x1 y = W y)
    (y : S5000x32.Idx) (i : S100000x32.Idx) (hi0 : (i 0).val = b * 5000 + (y 0).val) (hi1 : (i 1).val = (y 1).val) :
    k4_pay1 x0 x1 y = Spec.mm A W i := by
  obtain ⟨r, q, rfl⟩ : ∃ (r : Fin 5000) (q : Fin 32), y = ix2 r q := ⟨y 0, y 1, eq_ix2 y⟩
  obtain ⟨p, q', rfl⟩ : ∃ (p : Fin 100000) (q' : Fin 32), i = ix2 p q' := ⟨i 0, i 1, eq_ix2 i⟩
  obtain rfl : q' = q := Fin.ext hi1
  rw [pay4_apply, Spec.mm_ix2]
  unfold Spec.mmAt
  exact Finset.sum_congr rfl fun k _ => by rw [h0 (ix2 r k) (ix2 p k) hi0 rfl, h1]

/-- The printed index maps, decided over the twenty grid points: the row-block window of the left operand moves
    with the output's, both stay in column-block 0, the weights' window stays at block (0, 0). -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the twenty row blocks is some grid point's. -/
theorem idx_onto4 : ∀ q : Fin 20, ∃ t : Fin cfg4.N, win4_2.index t = ![q.val, 0] :=
  (by decide +kernel : ∀ q : Fin 20, ∃ t : Fin grid4.N, win4_2.index t = ![q.val, 0])

/-- What grid point `t` writes back is block `t` of the product of the two arrays as the region finds them. -/
theorem flushed4_eq (c : Dev nD) (t : Fin cfg4.N) :
    (dat4 (F := Ideal) V c).flushed 2 t
      = ((cfg4.win 2).blk t).view.read (Elt Ideal) (Spec.mm (V c main_v74 : Spec.Mat 100000 32) (V c main_arg7 : Spec.Mat 32 32)) := by
  show (cfg4.win 2).cut (grid4.coords t) ((dat4 V c).after 2 t) = _
  rw [after4_2]
  unfold out4_2
  rw [View.canon_unit_zero zero_off4]
  simp only [View.ld_unit_zero (S := S5000x32) zero_off4, View.ld_unit_zero (S := S32x32) zero_off4]
  obtain ⟨e0, e1, e2, e3, e4⟩ := idx_facts4 t
  funext j
  show k4_pay1 (iblk4 V c 0 t) (iblk4 V c 1 t) ((cfg4.win 2).xinj (grid4.coords t) j)
    = Spec.mm (V c main_v74 : Spec.Mat 100000 32) (V c main_arg7 : Spec.Mat 32 32) (((cfg4.win 2).blk t).view.emb j)
  refine block4_apply (V c main_v74) (V c main_arg7) (iblk4 V c 0 t) (iblk4 V c 1 t) (win4_2.index t (0 : Fin 2)) ?_ ?_ _ _ ?_ ?_
  · intro y i hi0 hi1
    show V c main_v74 (((cfg4.win 0).blk t).view.emb y) = V c main_v74 i
    refine congrArg _ (funext fun a => Fin.ext ?_)
    match a with
    | ⟨0, _⟩ => show win4_0.index t (0 : Fin 2) * 5000 + 1 * (y 0).val = (i 0).val; omega
    | ⟨1, _⟩ => show win4_0.index t (1 : Fin 2) * 32 + 1 * (y 1).val = (i 1).val; omega
  · intro y
    show V c main_arg7 (((cfg4.win 1).blk t).view.emb y) = V c main_arg7 y
    refine congrArg _ (funext fun a => Fin.ext ?_)
    match a with
    | ⟨0, _⟩ => show win4_1.index t (0 : Fin 2) * 32 + 1 * (y 0).val = (y 0).val; omega
    | ⟨1, _⟩ => show win4_1.index t (1 : Fin 2) * 32 + 1 * (y 1).val = (y 1).val; omega
  · show win4_2.index t (0 : Fin 2) * 5000 + 1 * (j 0).val = win4_2.index t (0 : Fin 2) * 5000 + (j 0).val
    omega
  · show win4_2.index t (1 : Fin 2) * 32 + 1 * (j 1).val = (j 1).val
    omega

/-- An entry of the output array is in grid point `t`'s block exactly when each coordinate is in the block's range. -/
theorem mem_blk4 (t : Fin cfg4.N) (i : S100000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v75).slice (win4_2.rect t)).set ↔ _
  rw [View.set_slice_whole, Rect.mem_set_unit]
  exact Iff.rfl

/-- The twenty row blocks cover the output array: row `p` lies in block `p / 5000`. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 32 ≤ (i 1).val ∧ (i 1).val < win4_2.index t (1 : Fin 2) * 32 + 32; omega

/-- After the run the third layer's projection array is the layer's input times its weights, entry by entry. -/
theorem region4 (c : Dev nD) :
    (dat4 (F := Ideal) V c).arrAt 2 cfg4.N = Spec.mm (V c main_v74 : Spec.Mat 100000 32) (V c main_arg7 : Spec.Mat 32 32) :=
  (dat4 V c).arrAt_eq_of_cover 2 _ (fun t _ => flushed4_eq V c t) cover4

end Cert.RegA

end
-- ==== Proof.RegB3.lean ====
/-
  The region that closes a graph-convolution layer, read as a whole array: over row blocks of 5000 rows
  the body adds to the aggregated neighbours `agg` the node's own projection `h` weighted by `2·d·d`
  (`d` the degree column) and the bias row.  Each block the body leaves is the
  block of ONE function of the four arrays, and the twenty blocks cover the output, so the output array
  after the run is that function: `Spec.fin`.
-/
import proofs.«139152_j41120016892602_1_alg».proof.Proof.Gen.KernelIdeal.Frame
import proofs.«139152_j41120016892602_1_alg».proof.Proof.Spec
import Idealize.ShloMosaic.Lib.Pipeline.Value
import Idealize.ShloMosaic.Lib.ValueLayout
import Idealize.ShloMosaic.Lib.ValueIdx

noncomputable section

namespace Cert.RegB

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- A column broadcast along its unit axis reads, at `(r, q)`, the column at row `r`. -/
theorem col_bcast3 (v : Vec Ideal S5000x1 .f32) (r : Fin 5000) (q : Fin 32) :
    broadcastTo S5000x32 v broadcasts_S5000x1_S5000x32 (ix2 r q) = v (ix2 r (0 : Fin 1)) := by
  refine broadcastTo_apply v broadcasts_S5000x1_S5000x32 (ix2 r q) (ix2 r (0 : Fin 1)) fun ax => ?_
  match ax with
  | ⟨0, _⟩ => rfl
  | ⟨1, _⟩ => rfl

/-- Entry `(r, q)` of what the body stores, from the four blocks it loads (degree column, projection,
    aggregate, bias row): the layer's sum. -/
theorem pay3_apply (v0 : Vec Ideal S5000x1 .f32) (v5 v9 : Vec Ideal S5000x32 .f32) (v12 : Vec Ideal S1x32 .f32)
    (r : Fin 5000) (q : Fin 32) :
    k3_pay1 (F := Ideal) v0 v5 v9 v12 (ix2 r q)
      = (v9 (ix2 r q) + ((Spec.two * v0 (ix2 r 0)) * v0 (ix2 r 0)) * v5 (ix2 r q)) + v12 (ix2 0 q) := by
  unfold k3_pay1
  simp only [shapeCast_self]
  rw [addf_apply, addf_apply, mulf_apply]
  rw [col_bcast3, broadcastTo_1b_ab_apply]
  rfl

/-- The same entry as the entry `(p, q)` of the whole-array function, when each loaded block holds there
    what its array holds at row `p` (the bias row: at its one row). -/
theorem point3 (x0 x2 : Vec Ideal S5000x32 .f32) (x1 : Vec Ideal S5000x1 .f32) (x3 : Vec Ideal S1x32 .f32)
    (H A : Spec.Mat 100000 32) (D : Spec.Mat 100000 1) (B : Spec.Mat 1 32)
    (r : Fin 5000) (q : Fin 32) (p : Fin 100000)
    (h0 : x0 (ix2 r q) = H (ix2 p q)) (h1 : x1 (ix2 r 0) = D (ix2 p 0))
    (h2 : x2 (ix2 r q) = A (ix2 p q)) (h3 : x3 (ix2 0 q) = B (ix2 0 q)) :
    k3_pay1 (F := Ideal) x1 x0 x2 x3 (ix2 r q) = Spec.fin H D A B (ix2 p q) := by
  rw [pay3_apply, Spec.fin_ix2, h0, h1, h2, h3]; rfl

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The block index maps, decided over the twenty grid points: the projection, the degree column and the
    aggregate move with the output along the rows and stay at column block 0; the bias row stays whole. -/
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) ≤ 19 ∧ win3_4.index t (1 : Fin 2) = 0 :=
  (by decide +kernel : ∀ t : Fin grid3.N, _)

/-- What grid point `t` writes back is block `t` of the whole-array function of the arrays the region finds. -/
theorem flushed3_eq (c : Dev nD) (t : Fin cfg3.N) :
    (dat3 (F := Ideal) V c).flushed 4 t = ((cfg3.win 4).blk t).view.read (Elt Ideal)
      (Spec.fin (V c main_v44) (V c main_v12) (V c main_v72) (V c main_v73)) := by
  show (cfg3.win 4).cut (grid3.coords t) ((dat3 V c).after 4 t) = _
  rw [after3_4]
  unfold out3_4
  rw [View.canon_unit_zero hz3]
  simp only [View.ld_unit_zero (S := S5000x32) hz3, View.ld_unit_zero (S := S5000x1) hz3, View.ld_unit_zero (S := S1x32) hz3]
  funext j
  obtain ⟨e00, e01, e10, e11, e20, e21, e30, e31, e4le, e41⟩ := idx_facts3 t
  have hr : (j 0).val < 5000 := (j 0).isLt
  have hq : (j 1).val < 32 := (j 1).isLt
  have hp : win3_4.index t (0 : Fin 2) * 5000 + (j 0).val < 100000 := by omega
  have hj : (win3 4).xinj (grid3.coords t) j = ix2 (⟨(j 0).val, hr⟩ : Fin 5000) (⟨(j 1).val, hq⟩ : Fin 32) := eq_ix2 _
  -- a block's element sits in the array at block index × block size + its coordinate in the block
  have hemb : ((cfg3.win 4).blk t).view.emb j
      = ix2 (⟨win3_4.index t (0 : Fin 2) * 5000 + (j 0).val, hp⟩ : Fin 100000) (⟨(j 1).val, hq⟩ : Fin 32) := by
    funext a; apply Fin.ext
    match a with
    | ⟨0, _⟩ => show win3_4.index t (0 : Fin 2) * 5000 + 1 * (j 0).val = win3_4.index t (0 : Fin 2) * 5000 + (j 0).val; omega
    | ⟨1, _⟩ => show win3_4.index t (1 : Fin 2) * 32 + 1 * (j 1).val = (j 1).val; omega
  show k3_pay1 (iblk3 V c 1 t) (iblk3 V c 0 t) (iblk3 V c 2 t) (iblk3 V c 3 t) ((win3 4).xinj (grid3.coords t) j)
      = Spec.fin (V c main_v44) (V c main_v12) (V c main_v72) (V c main_v73) (((cfg3.win 4).blk t).view.emb j)
  rw [hj, hemb]
  refine point3 _ _ _ _ _ _ _ _ _ _ _ ?_ ?_ ?_ ?_
  · show V c main_v44 (((cfg3.win 0).blk t).view.emb (ix2 (⟨(j 0).val, hr⟩ : Fin 5000) (⟨(j 1).val, hq⟩ : Fin 32))) = _
    refine congrArg (V c main_v44) ?_
    funext a; apply Fin.ext
    match a with
    | ⟨0, _⟩ => show win3_0.index t (0 : Fin 2) * 5000 + 1 * (j 0).val = win3_4.index t (0 : Fin 2) * 5000 + (j 0).val; omega
    | ⟨1, _⟩ => show win3_0.index t (1 : Fin 2) * 32 + 1 * (j 1).val = (j 1).val; omega
  · show V c main_v12 (((cfg3.win 1).blk t).view.emb (ix2 (⟨(j 0).val, hr⟩ : Fin 5000) (0 : Fin 1))) = _
    refine congrArg (V c main_v12) ?_
    funext a; apply Fin.ext
    match a with
    | ⟨0, _⟩ => show win3_1.index t (0 : Fin 2) * 5000 + 1 * (j 0).val = win3_4.index t (0 : Fin 2) * 5000 + (j 0).val; omega
    | ⟨1, _⟩ => show win3_1.index t (1 : Fin 2) * 1 + 1 * 0 = 0; omega
  · show V c main_v72 (((cfg3.win 2).blk t).view.emb (ix2 (⟨(j 0).val, hr⟩ : Fin 5000) (⟨(j 1).val, hq⟩ : Fin 32))) = _
    refine congrArg (V c main_v72) ?_
    funext a; apply Fin.ext
    match a with
    | ⟨0, _⟩ => show win3_2.index t (0 : Fin 2) * 5000 + 1 * (j 0).val = win3_4.index t (0 : Fin 2) * 5000 + (j 0).val; omega
    | ⟨1, _⟩ => show win3_2.index t (1 : Fin 2) * 32 + 1 * (j 1).val = (j 1).val; omega
  · show V c main_v73 (((cfg3.win 3).blk t).view.emb (ix2 (0 : Fin 1) (⟨(j 1).val, hq⟩ : Fin 32))) = _
    refine congrArg (V c main_v73) ?_
    funext a; apply Fin.ext
    match a with
    | ⟨0, _⟩ => show win3_3.index t (0 : Fin 2) * 1 + 1 * 0 = 0; omega
    | ⟨1, _⟩ => show win3_3.index t (1 : Fin 2) * 32 + 1 * (j 1).val = (j 1).val; omega

/-- An index of the array lies in the block of point `t` iff each coordinate lies in the block's range on its axis. -/
theorem mem_blk3 (t : Fin cfg3.N) (i : S100000x32.Idx) :
    i ∈ ((cfg3.win 4).blk t).view.set ↔ ∀ a : Fin 2, win3_4.index t a * S5000x32.size a ≤ (i a).val
      ∧ (i a).val < win3_4.index t a * S5000x32.size a + S5000x32.size a := by
  show i ∈ ((View.whole main_v74).slice (win3_4.rect t)).set ↔ _
  rw [View.set_slice_whole, Rect.mem_set_unit]
  exact Iff.rfl

/-- Every one of the twenty row blocks is some point's. -/
theorem idx_onto3 : ∀ q0 : Fin 20, ∃ t : Fin cfg3.N, win3_4.index t = ![q0.val, 0] :=
  (by decide +kernel : ∀ q0 : Fin 20, ∃ t : Fin grid3.N, win3_4.index t = ![q0.val, 0])

/-- Row `r` lies in row block `r / 5000`: the blocks cover the array. -/
theorem cover3 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 32 ≤ (i 1).val ∧ (i 1).val < win3_4.index t (1 : Fin 2) * 32 + 32; omega

/-- The region's output array after the run: the layer's sum of the arrays the region finds. -/
theorem region3 (c : Dev nD) : (dat3 (F := Ideal) V c).arrAt 4 cfg3.N
    = Spec.fin (V c main_v44) (V c main_v12) (V c main_v72) (V c main_v73) :=
  (dat3 (F := Ideal) V c).arrAt_eq_of_cover 4 _ (fun t _ => flushed3_eq V c t) cover3

end Cert.RegB

end
-- ==== Proof.RegB5.lean ====
/-
  The region that closes a graph-convolution layer, read as a whole array: over row blocks of 5000 rows
  the body adds to the aggregated neighbours `agg` the node's own projection `h` weighted by `2·d·d`
  (`d` the degree column) and the bias row.  Each block the body leaves is the
  block of ONE function of the four arrays, and the twenty blocks cover the output, so the output array
  after the run is that function: `Spec.fin`.
-/
import proofs.«139152_j41120016892602_1_alg».proof.Proof.Gen.KernelIdeal.Frame
import proofs.«139152_j41120016892602_1_alg».proof.Proof.Spec
import Idealize.ShloMosaic.Lib.Pipeline.Value
import Idealize.ShloMosaic.Lib.ValueLayout
import Idealize.ShloMosaic.Lib.ValueIdx

noncomputable section

namespace Cert.RegB

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- A column broadcast along its unit axis reads, at `(r, q)`, the column at row `r`. -/
theorem col_bcast5 (v : Vec Ideal S5000x1 .f32) (r : Fin 5000) (q : Fin 32) :
    broadcastTo S5000x32 v broadcasts_S5000x1_S5000x32 (ix2 r q) = v (ix2 r (0 : Fin 1)) := by
  refine broadcastTo_apply v broadcasts_S5000x1_S5000x32 (ix2 r q) (ix2 r (0 : Fin 1)) fun ax => ?_
  match ax with
  | ⟨0, _⟩ => rfl
  | ⟨1, _⟩ => rfl

/-- Entry `(r, q)` of what the body stores, from the four blocks it loads (degree column, projection,
    aggregate, bias row): the layer's sum. -/
theorem pay5_apply (v0 : Vec Ideal S5000x1 .f32) (v5 v9 : Vec Ideal S5000x32 .f32) (v12 : Vec Ideal S1x32 .f32)
    (r : Fin 5000) (q : Fin 32) :
    k5_pay1 (F := Ideal) v0 v5 v9 v12 (ix2 r q)
      = (v9 (ix2 r q) + ((Spec.two * v0 (ix2 r 0)) * v0 (ix2 r 0)) * v5 (ix2 r q)) + v12 (ix2 0 q) := by
  unfold k5_pay1
  simp only [shapeCast_self]
  rw [addf_apply, addf_apply, mulf_apply]
  rw [col_bcast5, broadcastTo_1b_ab_apply]
  rfl

/-- The same entry as the entry `(p, q)` of the whole-array function, when each loaded block holds there
    what its array holds at row `p` (the bias row: at its one row). -/
theorem point5 (x0 x2 : Vec Ideal S5000x32 .f32) (x1 : Vec Ideal S5000x1 .f32) (x3 : Vec Ideal S1x32 .f32)
    (H A : Spec.Mat 100000 32) (D : Spec.Mat 100000 1) (B : Spec.Mat 1 32)
    (r : Fin 5000) (q : Fin 32) (p : Fin 100000)
    (h0 : x0 (ix2 r q) = H (ix2 p q)) (h1 : x1 (ix2 r 0) = D (ix2 p 0))
    (h2 : x2 (ix2 r q) = A (ix2 p q)) (h3 : x3 (ix2 0 q) = B (ix2 0 q)) :
    k5_pay1 (F := Ideal) x1 x0 x2 x3 (ix2 r q) = Spec.fin H D A B (ix2 p q) := by
  rw [pay5_apply, Spec.fin_ix2, h0, h1, h2, h3]; rfl

/-! ## From blocks to the array -/

variable (V : (c : Dev nD) → (b : Ref sig .tc) → Buf (Elt Ideal) ((c : Thread nD τ).loc b))

theorem hz5 : (![0, 0] : Fin 2 → Nat) = fun _ => 0 := funext fun a => by fin_cases a <;> rfl

/-- The block index maps, decided over the twenty grid points: the projection, the degree column and the
    aggregate move with the output along the rows and stay at column block 0; the bias row stays whole. -/
theorem idx_facts5 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) ≤ 19 ∧ win5_4.index t (1 : Fin 2) = 0 :=
  (by decide +kernel : ∀ t : Fin grid5.N, _)

/-- What grid point `t` writes back is block `t` of the whole-array function of the arrays the region finds. -/
theorem flushed5_eq (c : Dev nD) (t : Fin cfg5.N) :
    (dat5 (F := Ideal) V c).flushed 4 t = ((cfg5.win 4).blk t).view.read (Elt Ideal)
      (Spec.fin (V c main_v75) (V c main_v12) (V c main_v103) (V c main_v104)) := by
  show (cfg5.win 4).cut (grid5.coords t) ((dat5 V c).after 4 t) = _
  rw [after5_4]
  unfold out5_4
  rw [View.canon_unit_zero hz5]
  simp only [View.ld_unit_zero (S := S5000x32) hz5, View.ld_unit_zero (S := S5000x1) hz5, View.ld_unit_zero (S := S1x32) hz5]
  funext j
  obtain ⟨e00, e01, e10, e11, e20, e21, e30, e31, e4le, e41⟩ := idx_facts5 t
  have hr : (j 0).val < 5000 := (j 0).isLt
  have hq : (j 1).val < 32 := (j 1).isLt
  have hp : win5_4.index t (0 : Fin 2) * 5000 + (j 0).val < 100000 := by omega
  have hj : (win5 4).xinj (grid5.coords t) j = ix2 (⟨(j 0).val, hr⟩ : Fin 5000) (⟨(j 1).val, hq⟩ : Fin 32) := eq_ix2 _
  -- a block's element sits in the array at block index × block size + its coordinate in the block
  have hemb : ((cfg5.win 4).blk t).view.emb j
      = ix2 (⟨win5_4.index t (0 : Fin 2) * 5000 + (j 0).val, hp⟩ : Fin 100000) (⟨(j 1).val, hq⟩ : Fin 32) := by
    funext a; apply Fin.ext
    match a with
    | ⟨0, _⟩ => show win5_4.index t (0 : Fin 2) * 5000 + 1 * (j 0).val = win5_4.index t (0 : Fin 2) * 5000 + (j 0).val; omega
    | ⟨1, _⟩ => show win5_4.index t (1 : Fin 2) * 32 + 1 * (j 1).val = (j 1).val; omega
  show k5_pay1 (iblk5 V c 1 t) (iblk5 V c 0 t) (iblk5 V c 2 t) (iblk5 V c 3 t) ((win5 4).xinj (grid5.coords t) j)
      = Spec.fin (V c main_v75) (V c main_v12) (V c main_v103) (V c main_v104) (((cfg5.win 4).blk t).view.emb j)
  rw [hj, hemb]
  refine point5 _ _ _ _ _ _ _ _ _ _ _ ?_ ?_ ?_ ?_
  · show V c main_v75 (((cfg5.win 0).blk t).view.emb (ix2 (⟨(j 0).val, hr⟩ : Fin 5000) (⟨(j 1).val, hq⟩ : Fin 32))) = _
    refine congrArg (V c main_v75) ?_
    funext a; apply Fin.ext
    match a with
    | ⟨0, _⟩ => show win5_0.index t (0 : Fin 2) * 5000 + 1 * (j 0).val = win5_4.index t (0 : Fin 2) * 5000 + (j 0).val; omega
    | ⟨1, _⟩ => show win5_0.index t (1 : Fin 2) * 32 + 1 * (j 1).val = (j 1).val; omega
  · show V c main_v12 (((cfg5.win 1).blk t).view.emb (ix2 (⟨(j 0).val, hr⟩ : Fin 5000) (0 : Fin 1))) = _
    refine congrArg (V c main_v12) ?_
    funext a; apply Fin.ext
    match a with
    | ⟨0, _⟩ => show win5_1.index t (0 : Fin 2) * 5000 + 1 * (j 0).val = win5_4.index t (0 : Fin 2) * 5000 + (j 0).val; omega
    | ⟨1, _⟩ => show win5_1.index t (1 : Fin 2) * 1 + 1 * 0 = 0; omega
  · show V c main_v103 (((cfg5.win 2).blk t).view.emb (ix2 (⟨(j 0).val, hr⟩ : Fin 5000) (⟨(j 1).val, hq⟩ : Fin 32))) = _
    refine congrArg (V c main_v103) ?_
    funext a; apply Fin.ext
    match a with
    | ⟨0, _⟩ => show win5_2.index t (0 : Fin 2) * 5000 + 1 * (j 0).val = win5_4.index t (0 : Fin 2) * 5000 + (j 0).val; omega
    | ⟨1, _⟩ => show win5_2.index t (1 : Fin 2) * 32 + 1 * (j 1).val = (j 1).val; omega
  · show V c main_v104 (((cfg5.win 3).blk t).view.emb (ix2 (0 : Fin 1) (⟨(j 1).val, hq⟩ : Fin 32))) = _
    refine congrArg (V c main_v104) ?_
    funext a; apply Fin.ext
    match a with
    | ⟨0, _⟩ => show win5_3.index t (0 : Fin 2) * 1 + 1 * 0 = 0; omega
    | ⟨1, _⟩ => show win5_3.index t (1 : Fin 2) * 32 + 1 * (j 1).val = (j 1).val; omega

/-- An index of the array lies in the block of point `t` iff each coordinate lies in the block's range on its axis. -/
theorem mem_blk5 (t : Fin cfg5.N) (i : S100000x32.Idx) :
    i ∈ ((cfg5.win 4).blk t).view.set ↔ ∀ a : Fin 2, win5_4.index t a * S5000x32.size a ≤ (i a).val
      ∧ (i a).val < win5_4.index t a * S5000x32.size a + S5000x32.size a := by
  show i ∈ ((View.whole main_v105).slice (win5_4.rect t)).set ↔ _
  rw [View.set_slice_whole, Rect.mem_set_unit]
  exact Iff.rfl

/-- Every one of the twenty row blocks is some point's. -/
theorem idx_onto5 : ∀ q0 : Fin 20, ∃ t : Fin cfg5.N, win5_4.index t = ![q0.val, 0] :=
  (by decide +kernel : ∀ q0 : Fin 20, ∃ t : Fin grid5.N, win5_4.index t = ![q0.val, 0])

/-- Row `r` lies in row block `r / 5000`: the blocks cover the array. -/
theorem cover5 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  obtain ⟨t, ht⟩ := idx_onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 32 ≤ (i 1).val ∧ (i 1).val < win5_4.index t (1 : Fin 2) * 32 + 32; omega

/-- The region's output array after the run: the layer's sum of the arrays the region finds. -/
theorem region5 (c : Dev nD) : (dat5 (F := Ideal) V c).arrAt 4 cfg5.N
    = Spec.fin (V c main_v75) (V c main_v12) (V c main_v103) (V c main_v104) :=
  (dat5 (F := Ideal) V c).arrAt_eq_of_cover 4 _ (fun t _ => flushed5_eq V c t) cover5

end Cert.RegB

end
-- ==== Proof.Chain2.lean ====
/-
  The contents of the idealized kernel program's buffers at the boundaries between its segments,
  boundaries 6 to 10: every buffer a later segment reads holds the value the reference computes
  for it (a host stretch's result by the stretch's own operations, a pipeline's output array by the
  pipeline's whole-array value, and a buffer no segment in between writes keeps what it held).
-/
import proofs.«139152_j41120016892602_1_alg».proof.Proof.Chain1
import proofs.«139152_j41120016892602_1_alg».proof.Proof.RegA4
import proofs.«139152_j41120016892602_1_alg».proof.Proof.RegB3
import proofs.«139152_j41120016892602_1_alg».proof.Proof.RegB5

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 6: after the host stretch hostOps3 -/

theorem W6_v1 : W6 m ρ c (Proc.devRef .tc main_v1) = Cert.ReferenceIdeal.Read.val_main_v1 (F := Ideal) (m ((c : Thread nD τ).loc main_arg1)) :=
  (show W6 m ρ c (Proc.devRef .tc main_v1) = W5 m ρ c (Proc.devRef .tc main_v1) by host_keep hostOps3).trans (W5_v1 m ρ c)
theorem W6_v3 : W6 m ρ c (Proc.devRef .tc main_v3) = Cert.ReferenceIdeal.Read.val_main_v3 (F := Ideal) (m ((c : Thread nD τ).loc main_arg1)) :=
  (show W6 m ρ c (Proc.devRef .tc main_v3) = W5 m ρ c (Proc.devRef .tc main_v3) by host_keep hostOps3).trans (W5_v3 m ρ c)
theorem W6_v11 : W6 m ρ c (Proc.devRef .tc main_v11) = Cert.ReferenceIdeal.Read.val_main_v11 (F := Ideal) (m ((c : Thread nD τ).loc main_arg1)) :=
  (show W6 m ρ c (Proc.devRef .tc main_v11) = W5 m ρ c (Proc.devRef .tc main_v11) by host_keep hostOps3).trans (W5_v11 m ρ c)
theorem W6_v12 : W6 m ρ c (Proc.devRef .tc main_v12) = shapeCast S100000x1 (Cert.ReferenceIdeal.Read.val_main_v11 (F := Ideal) (m ((c : Thread nD τ).loc main_arg1))) shapeCasts_S100000_S100000x1 :=
  (show W6 m ρ c (Proc.devRef .tc main_v12) = W5 m ρ c (Proc.devRef .tc main_v12) by host_keep hostOps3).trans (W5_v12 m ρ c)
theorem W6_v43 : W6 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (show W6 m ρ c (Proc.devRef .tc main_v43) = W5 m ρ c (Proc.devRef .tc main_v43) by host_keep hostOps3).trans (W5_v43 m ρ c)
theorem W6_v44 : W6 m ρ c (Proc.devRef .tc main_v44) = Cert.ReferenceIdeal.Read.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (show W6 m ρ c (Proc.devRef .tc main_v44) = W5 m ρ c (Proc.devRef .tc main_v44) by host_keep hostOps3).trans (W5_v44 m ρ c)
theorem W6_arg2 : W6 m ρ c (Proc.devRef .tc main_arg2) = (m ((c : Thread nD τ).loc main_arg2)) :=
  (show W6 m ρ c (Proc.devRef .tc main_arg2) = W5 m ρ c (Proc.devRef .tc main_arg2) by host_keep hostOps3).trans (W5_arg2 m ρ c)
theorem W6_arg7 : W6 m ρ c (Proc.devRef .tc main_arg7) = (m ((c : Thread nD τ).loc main_arg7)) :=
  (show W6 m ρ c (Proc.devRef .tc main_arg7) = W5 m ρ c (Proc.devRef .tc main_arg7) by host_keep hostOps3).trans (W5_arg7 m ρ c)
theorem W6_arg8 : W6 m ρ c (Proc.devRef .tc main_arg8) = (m ((c : Thread nD τ).loc main_arg8)) :=
  (show W6 m ρ c (Proc.devRef .tc main_arg8) = W5 m ρ c (Proc.devRef .tc main_arg8) by host_keep hostOps3).trans (W5_arg8 m ρ c)
theorem W6_arg9 : W6 m ρ c (Proc.devRef .tc main_arg9) = (m ((c : Thread nD τ).loc main_arg9)) :=
  (show W6 m ρ c (Proc.devRef .tc main_arg9) = W5 m ρ c (Proc.devRef .tc main_arg9) by host_keep hostOps3).trans (W5_arg9 m ρ c)
theorem W6_arg10 : W6 m ρ c (Proc.devRef .tc main_arg10) = (m ((c : Thread nD τ).loc main_arg10)) :=
  (show W6 m ρ c (Proc.devRef .tc main_arg10) = W5 m ρ c (Proc.devRef .tc main_arg10) by host_keep hostOps3).trans (W5_arg10 m ρ c)
theorem W6_arg11 : W6 m ρ c (Proc.devRef .tc main_arg11) = (m ((c : Thread nD τ).loc main_arg11)) :=
  (show W6 m ρ c (Proc.devRef .tc main_arg11) = W5 m ρ c (Proc.devRef .tc main_arg11) by host_keep hostOps3).trans (W5_arg11 m ρ c)
theorem W6_arg12 : W6 m ρ c (Proc.devRef .tc main_arg12) = (m ((c : Thread nD τ).loc main_arg12)) :=
  (show W6 m ρ c (Proc.devRef .tc main_arg12) = W5 m ρ c (Proc.devRef .tc main_arg12) by host_keep hostOps3).trans (W5_arg12 m ρ c)
theorem W6_v72 : W6 m ρ c (Proc.devRef .tc main_v72) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Cert.HostK.h3_v72 (Wv := W5 m ρ c) (e44 := W5_v44 m ρ c) (e11 := W5_v11 m ρ c) (e1 := W5_v1 m ρ c) (e3 := W5_v3 m ρ c)
theorem W6_v73 : W6 m ρ c (Proc.devRef .tc main_v73) = shapeCast S1x32 (m ((c : Thread nD τ).loc main_arg6)) shapeCasts_S32_S1x32 :=
  Cert.HostK.h3_v73 (Wv := W5 m ρ c) (e6 := W5_arg6 m ρ c)

/-! ## Boundary 7: after pipeline 3 -/

theorem W7_v1 : W7 m ρ c (Proc.devRef .tc main_v1) = Cert.ReferenceIdeal.Read.val_main_v1 (F := Ideal) (m ((c : Thread nD τ).loc main_arg1)) :=
  (W7_of_ne m ρ c main_v1 (by decide)).trans (W6_v1 m ρ c)
theorem W7_v3 : W7 m ρ c (Proc.devRef .tc main_v3) = Cert.ReferenceIdeal.Read.val_main_v3 (F := Ideal) (m ((c : Thread nD τ).loc main_arg1)) :=
  (W7_of_ne m ρ c main_v3 (by decide)).trans (W6_v3 m ρ c)
theorem W7_v11 : W7 m ρ c (Proc.devRef .tc main_v11) = Cert.ReferenceIdeal.Read.val_main_v11 (F := Ideal) (m ((c : Thread nD τ).loc main_arg1)) :=
  (W7_of_ne m ρ c main_v11 (by decide)).trans (W6_v11 m ρ c)
theorem W7_v12 : W7 m ρ c (Proc.devRef .tc main_v12) = shapeCast S100000x1 (Cert.ReferenceIdeal.Read.val_main_v11 (F := Ideal) (m ((c : Thread nD τ).loc main_arg1))) shapeCasts_S100000_S100000x1 :=
  (W7_arr m ρ c 1).trans (((dat3 (V6 m ρ) c).arrAt_in 1 rfl _).trans ((A_eq3 (V6 m ρ) c 1).trans (W6_v12 m ρ c)))
theorem W7_v43 : W7 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (W7_of_ne m ρ c main_v43 (by decide)).trans (W6_v43 m ρ c)
theorem W7_arg2 : W7 m ρ c (Proc.devRef .tc main_arg2) = (m ((c : Thread nD τ).loc main_arg2)) :=
  (W7_of_ne m ρ c main_arg2 (by decide)).trans (W6_arg2 m ρ c)
theorem W7_arg7 : W7 m ρ c (Proc.devRef .tc main_arg7) = (m ((c : Thread nD τ).loc main_arg7)) :=
  (W7_of_ne m ρ c main_arg7 (by decide)).trans (W6_arg7 m ρ c)
theorem W7_arg8 : W7 m ρ c (Proc.devRef .tc main_arg8) = (m ((c : Thread nD τ).loc main_arg8)) :=
  (W7_of_ne m ρ c main_arg8 (by decide)).trans (W6_arg8 m ρ c)
theorem W7_arg9 : W7 m ρ c (Proc.devRef .tc main_arg9) = (m ((c : Thread nD τ).loc main_arg9)) :=
  (W7_of_ne m ρ c main_arg9 (by decide)).trans (W6_arg9 m ρ c)
theorem W7_arg10 : W7 m ρ c (Proc.devRef .tc main_arg10) = (m ((c : Thread nD τ).loc main_arg10)) :=
  (W7_of_ne m ρ c main_arg10 (by decide)).trans (W6_arg10 m ρ c)
theorem W7_arg11 : W7 m ρ c (Proc.devRef .tc main_arg11) = (m ((c : Thread nD τ).loc main_arg11)) :=
  (W7_of_ne m ρ c main_arg11 (by decide)).trans (W6_arg11 m ρ c)
theorem W7_arg12 : W7 m ρ c (Proc.devRef .tc main_arg12) = (m ((c : Thread nD τ).loc main_arg12)) :=
  (W7_of_ne m ρ c main_arg12 (by decide)).trans (W6_arg12 m ρ c)
theorem W7_v74 : W7 m ρ c (Proc.devRef .tc main_v74) = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W7_arr m ρ c 4).trans ((Cert.RegB.region3 (V6 m ρ) c).trans (by
    rw [show V6 m ρ c main_v44 = _ from W6_v44 m ρ c,
      show V6 m ρ c main_v12 = _ from W6_v12 m ρ c,
      show V6 m ρ c main_v72 = _ from W6_v72 m ρ c,
      show V6 m ρ c main_v73 = _ from W6_v73 m ρ c]
    exact (Cert.RefA.ref_v90 ..).symm))

/-! ## Boundary 8: after pipeline 4 -/

theorem W8_v1 : W8 m ρ c (Proc.devRef .tc main_v1) = Cert.ReferenceIdeal.Read.val_main_v1 (F := Ideal) (m ((c : Thread nD τ).loc main_arg1)) :=
  (W8_of_ne m ρ c main_v1 (by decide)).trans (W7_v1 m ρ c)
theorem W8_v3 : W8 m ρ c (Proc.devRef .tc main_v3) = Cert.ReferenceIdeal.Read.val_main_v3 (F := Ideal) (m ((c : Thread nD τ).loc main_arg1)) :=
  (W8_of_ne m ρ c main_v3 (by decide)).trans (W7_v3 m ρ c)
theorem W8_v11 : W8 m ρ c (Proc.devRef .tc main_v11) = Cert.ReferenceIdeal.Read.val_main_v11 (F := Ideal) (m ((c : Thread nD τ).loc main_arg1)) :=
  (W8_of_ne m ρ c main_v11 (by decide)).trans (W7_v11 m ρ c)
theorem W8_v12 : W8 m ρ c (Proc.devRef .tc main_v12) = shapeCast S100000x1 (Cert.ReferenceIdeal.Read.val_main_v11 (F := Ideal) (m ((c : Thread nD τ).loc main_arg1))) shapeCasts_S100000_S100000x1 :=
  (W8_of_ne m ρ c main_v12 (by decide)).trans (W7_v12 m ρ c)
theorem W8_v43 : W8 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (W8_of_ne m ρ c main_v43 (by decide)).trans (W7_v43 m ρ c)
theorem W8_v74 : W8 m ρ c (Proc.devRef .tc main_v74) = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 0).trans (((dat4 (V7 m ρ) c).arrAt_in 0 rfl _).trans ((A_eq4 (V7 m ρ) c 0).trans (W7_v74 m ρ c)))
theorem W8_arg2 : W8 m ρ c (Proc.devRef .tc main_arg2) = (m ((c : Thread nD τ).loc main_arg2)) :=
  (W8_of_ne m ρ c main_arg2 (by decide)).trans (W7_arg2 m ρ c)
theorem W8_arg8 : W8 m ρ c (Proc.devRef .tc main_arg8) = (m ((c : Thread nD τ).loc main_arg8)) :=
  (W8_of_ne m ρ c main_arg8 (by decide)).trans (W7_arg8 m ρ c)
theorem W8_arg9 : W8 m ρ c (Proc.devRef .tc main_arg9) = (m ((c : Thread nD τ).loc main_arg9)) :=
  (W8_of_ne m ρ c main_arg9 (by decide)).trans (W7_arg9 m ρ c)
theorem W8_arg10 : W8 m ρ c (Proc.devRef .tc main_arg10) = (m ((c : Thread nD τ).loc main_arg10)) :=
  (W8_of_ne m ρ c main_arg10 (by decide)).trans (W7_arg10 m ρ c)
theorem W8_arg11 : W8 m ρ c (Proc.devRef .tc main_arg11) = (m ((c : Thread nD τ).loc main_arg11)) :=
  (W8_of_ne m ρ c main_arg11 (by decide)).trans (W7_arg11 m ρ c)
theorem W8_arg12 : W8 m ρ c (Proc.devRef .tc main_arg12) = (m ((c : Thread nD τ).loc main_arg12)) :=
  (W8_of_ne m ρ c main_arg12 (by decide)).trans (W7_arg12 m ρ c)
theorem W8_v75 : W8 m ρ c (Proc.devRef .tc main_v75) = Cert.ReferenceIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 2).trans ((Cert.RegA.region4 (V7 m ρ) c).trans (by
    rw [show V7 m ρ c main_v74 = _ from W7_v74 m ρ c,
      show V7 m ρ c main_arg7 = _ from W7_arg7 m ρ c]
    exact (Cert.RefA.ref_v91 ..).symm))

/-! ## Boundary 9: after the host stretch hostOps5 -/

theorem W9_v12 : W9 m ρ c (Proc.devRef .tc main_v12) = shapeCast S100000x1 (Cert.ReferenceIdeal.Read.val_main_v11 (F := Ideal) (m ((c : Thread nD τ).loc main_arg1))) shapeCasts_S100000_S100000x1 :=
  (show W9 m ρ c (Proc.devRef .tc main_v12) = W8 m ρ c (Proc.devRef .tc main_v12) by host_keep hostOps5).trans (W8_v12 m ρ c)
theorem W9_v43 : W9 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (show W9 m ρ c (Proc.devRef .tc main_v43) = W8 m ρ c (Proc.devRef .tc main_v43) by host_keep hostOps5).trans (W8_v43 m ρ c)
theorem W9_v74 : W9 m ρ c (Proc.devRef .tc main_v74) = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show W9 m ρ c (Proc.devRef .tc main_v74) = W8 m ρ c (Proc.devRef .tc main_v74) by host_keep hostOps5).trans (W8_v74 m ρ c)
theorem W9_v75 : W9 m ρ c (Proc.devRef .tc main_v75) = Cert.ReferenceIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (show W9 m ρ c (Proc.devRef .tc main_v75) = W8 m ρ c (Proc.devRef .tc main_v75) by host_keep hostOps5).trans (W8_v75 m ρ c)
theorem W9_arg2 : W9 m ρ c (Proc.devRef .tc main_arg2) = (m ((c : Thread nD τ).loc main_arg2)) :=
  (show W9 m ρ c (Proc.devRef .tc main_arg2) = W8 m ρ c (Proc.devRef .tc main_arg2) by host_keep hostOps5).trans (W8_arg2 m ρ c)
theorem W9_arg9 : W9 m ρ c (Proc.devRef .tc main_arg9) = (m ((c : Thread nD τ).loc main_arg9)) :=
  (show W9 m ρ c (Proc.devRef .tc main_arg9) = W8 m ρ c (Proc.devRef .tc main_arg9) by host_keep hostOps5).trans (W8_arg9 m ρ c)
theorem W9_arg10 : W9 m ρ c (Proc.devRef .tc main_arg10) = (m ((c : Thread nD τ).loc main_arg10)) :=
  (show W9 m ρ c (Proc.devRef .tc main_arg10) = W8 m ρ c (Proc.devRef .tc main_arg10) by host_keep hostOps5).trans (W8_arg10 m ρ c)
theorem W9_arg11 : W9 m ρ c (Proc.devRef .tc main_arg11) = (m ((c : Thread nD τ).loc main_arg11)) :=
  (show W9 m ρ c (Proc.devRef .tc main_arg11) = W8 m ρ c (Proc.devRef .tc main_arg11) by host_keep hostOps5).trans (W8_arg11 m ρ c)
theorem W9_arg12 : W9 m ρ c (Proc.devRef .tc main_arg12) = (m ((c : Thread nD τ).loc main_arg12)) :=
  (show W9 m ρ c (Proc.devRef .tc main_arg12) = W8 m ρ c (Proc.devRef .tc main_arg12) by host_keep hostOps5).trans (W8_arg12 m ρ c)
theorem W9_v103 : W9 m ρ c (Proc.devRef .tc main_v103) = Cert.ReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  Cert.HostK.h5_v103 (Wv := W8 m ρ c) (e75 := W8_v75 m ρ c) (e11 := W8_v11 m ρ c) (e1 := W8_v1 m ρ c) (e3 := W8_v3 m ρ c)
theorem W9_v104 : W9 m ρ c (Proc.devRef .tc main_v104) = shapeCast S1x32 (m ((c : Thread nD τ).loc main_arg8)) shapeCasts_S32_S1x32 :=
  Cert.HostK.h5_v104 (Wv := W8 m ρ c) (e8 := W8_arg8 m ρ c)

/-! ## Boundary 10: after pipeline 5 -/

theorem W10_v43 : W10 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (W10_of_ne m ρ c main_v43 (by decide)).trans (W9_v43 m ρ c)
theorem W10_v74 : W10 m ρ c (Proc.devRef .tc main_v74) = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_of_ne m ρ c main_v74 (by decide)).trans (W9_v74 m ρ c)
theorem W10_arg2 : W10 m ρ c (Proc.devRef .tc main_arg2) = (m ((c : Thread nD τ).loc main_arg2)) :=
  (W10_of_ne m ρ c main_arg2 (by decide)).trans (W9_arg2 m ρ c)
theorem W10_arg9 : W10 m ρ c (Proc.devRef .tc main_arg9) = (m ((c : Thread nD τ).loc main_arg9)) :=
  (W10_of_ne m ρ c main_arg9 (by decide)).trans (W9_arg9 m ρ c)
theorem W10_arg10 : W10 m ρ c (Proc.devRef .tc main_arg10) = (m ((c : Thread nD τ).loc main_arg10)) :=
  (W10_of_ne m ρ c main_arg10 (by decide)).trans (W9_arg10 m ρ c)
theorem W10_arg11 : W10 m ρ c (Proc.devRef .tc main_arg11) = (m ((c : Thread nD τ).loc main_arg11)) :=
  (W10_of_ne m ρ c main_arg11 (by decide)).trans (W9_arg11 m ρ c)
theorem W10_arg12 : W10 m ρ c (Proc.devRef .tc main_arg12) = (m ((c : Thread nD τ).loc main_arg12)) :=
  (W10_of_ne m ρ c main_arg12 (by decide)).trans (W9_arg12 m ρ c)
theorem W10_v105 : W10 m ρ c (Proc.devRef .tc main_v105) = Cert.ReferenceIdeal.Read.val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 4).trans ((Cert.RegB.region5 (V9 m ρ) c).trans (by
    rw [show V9 m ρ c main_v75 = _ from W9_v75 m ρ c,
      show V9 m ρ c main_v12 = _ from W9_v12 m ρ c,
      show V9 m ρ c main_v103 = _ from W9_v103 m ρ c,
      show V9 m ρ c main_v104 = _ from W9_v104 m ρ c]
    exact (Cert.RefA.ref_v129 ..).symm))

end Cert.Chain

end
-- ==== Proof.RegA6.lean ====
/-
  The dense layer over the three graph-convolution layers' outputs, as a whole array.

  The region runs over twenty grid points; point `t` reads rows `5000·t, …, 5000·t + 4999` of each of the three
  layers' outputs (100000 × 32 matrices), all of the three 32 × 128 weight matrices and the 1 × 128 bias row,
  multiplies each block with its weights into a zero accumulator, adds the three products left to right, adds the
  bias to every row, clamps at zero from below, and writes the 5000 × 128 result back as rows `5000·t, …` of the
  output. An entry of a block's product is the sum over the shared axis of the products of the entries, and a row
  of the output depends on the same row of the three inputs only, so block `t` of the whole-array function
  `max (x₁·w₁ + x₂·w₂ + x₃·w₃ + b) 0` is exactly what point `t` writes, and the twenty blocks tile the output.
  Hence the output array ends as that function of the seven arrays.
-/
import proofs.«139152_j41120016892602_1_alg».proof.Proof.Gen.KernelIdeal.Frame
import proofs.«139152_j41120016892602_1_alg».proof.Proof.Spec
import proofs.«139152_j41120016892602_1_alg».proof.Proof.LibSoftplus
import Idealize.ShloMosaic.Lib.Pipeline.Value
import Idealize.ShloMosaic.Lib.ValueIdx
import Idealize.ShloMosaic.Lib.ValueLayout

noncomputable section

open scoped BigOperators

namespace Cert.RegA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem zero_off6 : (![0, 0] : Fin 2 → Nat) = fun _ => 0 := funext fun a => by fin_cases a <;> rfl

/-- Entry (r, q) of the body's value: the three products of a 5000×32 block with 32×128 weights, each into a
    zero accumulator, added left to right, plus the bias row, clamped at zero from below (a reshape to the same
    shape and the change of format of the operands are the identity here). -/
theorem pay6_apply (x0 x1 x2 : Vec Ideal S5000x32 .f32) (w0 w1 w2 : Vec Ideal S32x128 .f32) (bb : Vec Ideal S1x128 .f32)
    (r : Fin 5000) (q : Fin 128) :
    k6_pay1 x0 x1 x2 w0 w1 w2 bb (ix2 r q)
      = max ((((∑ k : Fin 32, x0 (ix2 r k) * w0 (ix2 k q)) + ∑ k : Fin 32, x1 (ix2 r k) * w1 (ix2 k q))
          + ∑ k : Fin 32, x2 (ix2 r k) * w2 (ix2 k q)) + bb (ix2 (0 : Fin 1) q)) Spec.zero := by
  have m0 := Cert.Lib.Softplus.matmul0_plain_apply dot_S5000x32_S32x128_S5000x128_1_0_0_1_n_n rfl none
    (truncf .bf16 x0 bitsLt_bf16_f32 : FVec Ideal S5000x32 .bf16) (truncf .bf16 w0 bitsLt_bf16_f32 : FVec Ideal S32x128 .bf16) r q
  have m1 := Cert.Lib.Softplus.matmul0_plain_apply dot_S5000x32_S32x128_S5000x128_1_0_0_1_n_n rfl none
    (truncf .bf16 x1 bitsLt_bf16_f32 : FVec Ideal S5000x32 .bf16) (truncf .bf16 w1 bitsLt_bf16_f32 : FVec Ideal S32x128 .bf16) r q
  have m2 := Cert.Lib.Softplus.matmul0_plain_apply dot_S5000x32_S32x128_S5000x128_1_0_0_1_n_n rfl none
    (truncf .bf16 x2 bitsLt_bf16_f32 : FVec Ideal S5000x32 .bf16) (truncf .bf16 w2 bitsLt_bf16_f32 : FVec Ideal S32x128 .bf16) r q
  have mb := broadcastTo_1b_ab_apply bb broadcasts_S1x128_S5000x128 r q
  unfold k6_pay1
  simp only [shapeCast_self]
  exact congrArg₂ max (congrArg₂ (· + ·) (congrArg₂ (· + ·) (congrArg₂ (· + ·) m0 m1) m2) mb) rfl

/-- When the blocks `x0 x1 x2` hold rows `5000·b, …, 5000·b + 4999` of `A1 A2 A3` and the small operands are all
    of `W1 W2 W3` and `B`, the body's value at the block entry `y` is the dense layer at the array entry `i` in
    row `5000·b + y 0`, column `y 1`. -/
theorem block6_apply (A1 A2 A3 : Spec.Mat 100000 32) (W1 W2 W3 : Spec.Mat 32 128) (B : Spec.Mat 1 128)
    (x0 x1 x2 : Vec Ideal S5000x32 .f32) (w0 w1 w2 : Vec Ideal S32x128 .f32) (bb : Vec Ideal S1x128 .f32) (b : Nat)
    (h0 : ∀ (y : S5000x32.Idx) (i : S100000x32.Idx), (i 0).val = b * 5000 + (y 0).val → (i 1).val = (y 1).val → x0 y = A1 i)
    (h1 : ∀ (y : S5000x32.Idx) (i : S100000x32.Idx), (i 0).val = b * 5000 + (y 0).val → (i 1).val = (y 1).val → x1 y = A2 i)
    (h2 : ∀ (y : S5000x32.Idx) (i : S100000x32.Idx), (i 0).val = b * 5000 + (y 0).val → (i 1).val = (y 1).val → x2 y = A3 i)
    (h3 : ∀ y : S32x128.Idx, w0 y = W1 y) (h4 : ∀ y : S32x128.Idx, w1 y = W2 y) (h5 : ∀ y : S32x128.Idx, w2 y = W3 y)
    (h6 : ∀ y : S1x128.Idx, bb y = B y)
    (y : S5000x128.Idx) (i : S100000x128.Idx) (hi0 : (i 0).val = b * 5000 + (y 0).val) (hi1 : (i 1).val = (y 1).val) :
    k6_pay1 x0 x1 x2 w0 w1 w2 bb y = Spec.fc1 A1 A2 A3 W1 W2 W3 B i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q' = q := Fin.ext hi1
  have e0 : ∀ k : Fin 32, x0 (ix2 r k) = A1 (ix2 p k) := fun k => h0 (ix2 r k) (ix2 p k) hi0 rfl
  have e1 : ∀ k : Fin 32, x1 (ix2 r k) = A2 (ix2 p k) := fun k => h1 (ix2 r k) (ix2 p k) hi0 rfl
  have e2 : ∀ k : Fin 32, x2 (ix2 r k) = A3 (ix2 p k) := fun k => h2 (ix2 r k) (ix2 p k) hi0 rfl
  have s0 : ∀ c : Fin 128, ∑ k : Fin 32, x0 (ix2 r k) * w0 (ix2 k c) = ∑ k : Fin 32, A1 (ix2 p k) * W1 (ix2 k c) :=
    fun c => Finset.sum_congr rfl fun k _ => by rw [e0 k, h3]
  have s1 : ∀ c : Fin 128, ∑ k : Fin 32, x1 (ix2 r k) * w1 (ix2 k c) = ∑ k : Fin 32, A2 (ix2 p k) * W2 (ix2 k c) :=
    fun c => Finset.sum_congr rfl fun k _ => by rw [e1 k, h4]
  have s2 : ∀ c : Fin 128, ∑ k : Fin 32, x2 (ix2 r k) * w2 (ix2 k c) = ∑ k : Fin 32, A3 (ix2 p k) * W3 (ix2 k c) :=
    fun c => Finset.sum_congr rfl fun k _ => by rw [e2 k, h5]
  rw [pay6_apply, Spec.fc1_ix2]
  unfold Spec.fc1At Spec.mmAt
  rw [s0, s1, s2, h6]

/-- The printed index maps, decided over the twenty grid points: the three row-block windows move with the
    output's and stay in column-block 0; the weights' and the bias's windows stay at block (0, 0). -/
theorem idx_facts6 : ∀ t : Fin cfg6.N, win6_0.index t (0 : Fin 2) = win6_7.index t (0 : Fin 2)
    ∧ win6_0.index t (1 : Fin 2) = 0
    ∧ win6_1.index t (0 : Fin 2) = win6_7.index t (0 : Fin 2)
    ∧ win6_1.index t (1 : Fin 2) = 0
    ∧ win6_2.index t (0 : Fin 2) = win6_7.index t (0 : Fin 2)
    ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (1 : Fin 2) = 0 :=
  (by decide +kernel : ∀ t : Fin grid6.N, _)

/-- Every one of the twenty row blocks is some grid point's. -/
theorem idx_onto6 : ∀ q : Fin 20, ∃ t : Fin cfg6.N, win6_7.index t = ![q.val, 0] :=
  (by decide +kernel : ∀ q : Fin 20, ∃ t : Fin grid6.N, win6_7.index t = ![q.val, 0])

/-- A row-block window's block at point `t` holds the rows of its array from `5000` times the output's block index. -/
theorem rows6_0 (c : Dev nD) (t : Fin cfg6.N) (y : S5000x32.Idx) (i : S100000x32.Idx)
    (hi0 : (i 0).val = win6_7.index t (0 : Fin 2) * 5000 + (y 0).val) (hi1 : (i 1).val = (y 1).val) :
    iblk6 V c 0 t y = V c main_v43 i := by
  obtain ⟨e0, e1, -⟩ := idx_facts6 t
  show V c main_v43 (((cfg6.win 0).blk t).view.emb y) = V c main_v43 i
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 32 + 1 * (y 1).val = (i 1).val; omega

theorem rows6_1 (c : Dev nD) (t : Fin cfg6.N) (y : S5000x32.Idx) (i : S100000x32.Idx)
    (hi0 : (i 0).val = win6_7.index t (0 : Fin 2) * 5000 + (y 0).val) (hi1 : (i 1).val = (y 1).val) :
    iblk6 V c 1 t y = V c main_v74 i := by
  obtain ⟨-, -, e0, e1, -⟩ := idx_facts6 t
  show V c main_v74 (((cfg6.win 1).blk t).view.emb y) = V c main_v74 i
  refine congrArg _ (funext fun a => Fin.ext ?_)
  match a with
  | ⟨0, _⟩ => show win6_1.index t (0 : Fin 2) * 5000 + 1 * (y 0).val = (i 0).val; omega
  | ⟨1, _⟩ => show win6_1.index t (1 : Fin 2) * 32 + 1 * (y 1).val = (i 1).val; omega

theorem rows6_2 (c : Dev nD) (t : Fin cfg6.N) (y : S5000x32.Idx) (i : S100000x32.Idx)
    (hi0 : (i 0).val = win6_7.index t (0 : Fin 2) * 5000 + (y 0).val) (hi1 : (i 1).val = (y 1).val) :
    iblk6 V c 2 t y = V c main_v105 i := by
  obtain ⟨-, -, -, -, e0, e1, -⟩ := idx_facts6 t
  show V c main_v105 (((cfg6.win 2).blk t).view.emb y) = V c main_v105 i
  refine congrArg _ (funext fun a => Fin.ext ?_)
  match a with
  | ⟨0, _⟩ => show win6_2.index t (0 : Fin 2) * 5000 + 1 * (y 0).val = (i 0).val; omega
  | ⟨1, _⟩ => show win6_2.index t (1 : Fin 2) * 32 + 1 * (y 1).val = (i 1).val; omega

/-- A whole-array window's block is its array. -/
theorem whole6_3 (c : Dev nD) (t : Fin cfg6.N) (y : S32x128.Idx) : iblk6 V c 3 t y = V c main_v106 y := by
  obtain ⟨-, -, -, -, -, -, e0, e1, -⟩ := idx_facts6 t
  show V c main_v106 (((cfg6.win 3).blk t).view.emb y) = V c main_v106 y
  refine congrArg _ (funext fun a => Fin.ext ?_)
  match a with
  | ⟨0, _⟩ => show win6_3.index t (0 : Fin 2) * 32 + 1 * (y 0).val = (y 0).val; omega
  | ⟨1, _⟩ => show win6_3.index t (1 : Fin 2) * 128 + 1 * (y 1).val = (y 1).val; omega

theorem whole6_4 (c : Dev nD) (t : Fin cfg6.N) (y : S32x128.Idx) : iblk6 V c 4 t y = V c main_v107 y := by
  obtain ⟨-, -, -, -, -, -, -, -, e0, e1, -⟩ := idx_facts6 t
  show V c main_v107 (((cfg6.win 4).blk t).view.emb y) = V c main_v107 y
  refine congrArg _ (funext fun a => Fin.ext ?_)
  match a with
  | ⟨0, _⟩ => show win6_4.index t (0 : Fin 2) * 32 + 1 * (y 0).val = (y 0).val; omega
  | ⟨1, _⟩ => show win6_4.index t (1 : Fin 2) * 128 + 1 * (y 1).val = (y 1).val; omega

theorem whole6_5 (c : Dev nD) (t : Fin cfg6.N) (y : S32x128.Idx) : iblk6 V c 5 t y = V c main_v108 y := by
  obtain ⟨-, -, -, -, -, -, -, -, -, -, e0, e1, -⟩ := idx_facts6 t
  show V c main_v108 (((cfg6.win 5).blk t).view.emb y) = V c main_v108 y
  refine congrArg _ (funext fun a => Fin.ext ?_)
  match a with
  | ⟨0, _⟩ => show win6_5.index t (0 : Fin 2) * 32 + 1 * (y 0).val = (y 0).val; omega
  | ⟨1, _⟩ => show win6_5.index t (1 : Fin 2) * 128 + 1 * (y 1).val = (y 1).val; omega

theorem whole6_6 (c : Dev nD) (t : Fin cfg6.N) (y : S1x128.Idx) : iblk6 V c 6 t y = V c main_v109 y := by
  obtain ⟨-, -, -, -, -, -, -, -, -, -, -, -, e0, e1, -⟩ := idx_facts6 t
  show V c main_v109 (((cfg6.win 6).blk t).view.emb y) = V c main_v109 y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 128 + 1 * (y 1).val = (y 1).val; omega

/-- What grid point `t` writes back is block `t` of the dense layer of the arrays as the region finds them. -/
theorem flushed6_eq (c : Dev nD) (t : Fin cfg6.N) :
    (dat6 (F := Ideal) V c).flushed 7 t
      = ((cfg6.win 7).blk t).view.read (Elt Ideal)
          (Spec.fc1 (V c main_v43 : Spec.Mat 100000 32) (V c main_v74 : Spec.Mat 100000 32) (V c main_v105 : Spec.Mat 100000 32)
            (V c main_v106 : Spec.Mat 32 128) (V c main_v107 : Spec.Mat 32 128) (V c main_v108 : Spec.Mat 32 128)
            (V c main_v109 : Spec.Mat 1 128)) := by
  show (cfg6.win 7).cut (grid6.coords t) ((dat6 V c).after 7 t) = _
  rw [after6_7]
  unfold out6_7
  rw [View.canon_unit_zero zero_off6]
  simp only [View.ld_unit_zero (S := S5000x32) zero_off6, View.ld_unit_zero (S := S32x128) zero_off6,
    View.ld_unit_zero (S := S1x128) zero_off6]
  have e7 : win6_7.index t (1 : Fin 2) = 0 := (idx_facts6 t).2.2.2.2.2.2.2.2.2.2.2.2.2.2
  funext j
  show k6_pay1 (iblk6 V c 0 t) (iblk6 V c 1 t) (iblk6 V c 2 t) (iblk6 V c 3 t) (iblk6 V c 4 t) (iblk6 V c 5 t) (iblk6 V c 6 t)
      ((cfg6.win 7).xinj (grid6.coords t) j)
    = Spec.fc1 (V c main_v43 : Spec.Mat 100000 32) (V c main_v74 : Spec.Mat 100000 32) (V c main_v105 : Spec.Mat 100000 32)
        (V c main_v106 : Spec.Mat 32 128) (V c main_v107 : Spec.Mat 32 128) (V c main_v108 : Spec.Mat 32 128)
        (V c main_v109 : Spec.Mat 1 128) (((cfg6.win 7).blk t).view.emb j)
  refine block6_apply (V c main_v43) (V c main_v74) (V c main_v105) (V c main_v106) (V c main_v107) (V c main_v108) (V c main_v109)
    (iblk6 V c 0 t) (iblk6 V c 1 t) (iblk6 V c 2 t) (iblk6 V c 3 t) (iblk6 V c 4 t) (iblk6 V c 5 t) (iblk6 V c 6 t)
    (win6_7.index t (0 : Fin 2)) (rows6_0 V c t) (rows6_1 V c t) (rows6_2 V c t) (whole6_3 V c t) (whole6_4 V c t) (whole6_5 V c t)
    (whole6_6 V c t) _ _ ?_ ?_
  · show win6_7.index t (0 : Fin 2) * 5000 + 1 * (j 0).val = win6_7.index t (0 : Fin 2) * 5000 + (j 0).val
    omega
  · show win6_7.index t (1 : Fin 2) * 128 + 1 * (j 1).val = (j 1).val
    omega

/-- An entry of the output array is in grid point `t`'s block exactly when each coordinate is in the block's range. -/
theorem mem_blk6 (t : Fin cfg6.N) (i : S100000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole main_v110).slice (win6_7.rect t)).set ↔ _
  rw [View.set_slice_whole, Rect.mem_set_unit]
  exact Iff.rfl

/-- The twenty row blocks cover the output array: row `p` lies in block `p / 5000`. -/
theorem cover6 (i : S100000x128.Idx) :
    ∃ t : Fin cfg6.N, (cfg6.win 7).flush t = true ∧ i ∈ ((cfg6.win 7).blk t).view.set := by
  have hi0 : (i 0).val < 100000 := (i 0).isLt
  have hi1 : (i 1).val < 128 := (i 1).isLt
  obtain ⟨t, ht⟩ := idx_onto6 ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 128 ≤ (i 1).val ∧ (i 1).val < win6_7.index t (1 : Fin 2) * 128 + 128; omega

/-- After the run the dense layer's array is `max (x₁·w₁ + x₂·w₂ + x₃·w₃ + b) 0`, entry by entry. -/
theorem region6 (c : Dev nD) :
    (dat6 (F := Ideal) V c).arrAt 7 cfg6.N
      = Spec.fc1 (V c main_v43 : Spec.Mat 100000 32) (V c main_v74 : Spec.Mat 100000 32) (V c main_v105 : Spec.Mat 100000 32)
          (V c main_v106 : Spec.Mat 32 128) (V c main_v107 : Spec.Mat 32 128) (V c main_v108 : Spec.Mat 32 128)
          (V c main_v109 : Spec.Mat 1 128) :=
  (dat6 V c).arrAt_eq_of_cover 7 _ (fun t _ => flushed6_eq V c t) cover6

end Cert.RegA

end
-- ==== Proof.RegB7.lean ====
/-
  The last region, read as a whole array: on its one block the body multiplies the pooled features [2000, 128] by the
  weights [128, 2] into a zero accumulator, adds the bias row, and takes the log-softmax over the two lanes — the row's
  maximum from `-∞`, the difference, its exponential, the sum over the lanes, the logarithm on the column, and the
  difference again.  The one block is the whole array, so the output array after the run is `Spec.fc3` of the three arrays.
-/
import proofs.«139152_j41120016892602_1_alg».proof.Proof.Gen.KernelIdeal.Frame
import proofs.«139152_j41120016892602_1_alg».proof.Proof.Spec
import proofs.«139152_j41120016892602_1_alg».proof.Proof.LibColumnLayout
import proofs.«139152_j41120016892602_1_alg».proof.Proof.LibSoftplus
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.RegB

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

/-- In a [2000, 2] array reduced over its two lanes, the reduced index `p` with lane `q` put back is `(p, q)`. -/
theorem lift_lane7 (p : Fin 2000) (q : Fin (S2000x2.size 1)) :
    reduces_S2000x2_S2000.lift (ix1 p) q = ix2 p (⟨q.val, q.isLt⟩ : Fin 2) := by
  funext d; apply Fin.ext
  fin_cases d <;> rfl

/-- The maximum over the two lanes of row `p`, taken from the word of `-∞`: the fold of `max` from `-∞`. -/
theorem rowmax7 (l : FVec Ideal S2000x2 .f32) (hacc : (0xFF800000#32 : BitVec 32) = 0xFF800000#32) (p : Fin 2000) :
    multiReduction (F := Ideal) .maximumf [1] S2000 l 0xFF800000#32 reduces_S2000x2_S2000 (.inl rfl) hacc (ix1 p)
      = Spec.rowMax fun q => l (ix2 p q) := by
  refine (Ideal.multiReduction_maximumf_single l 0xFF800000#32 reduces_S2000x2_S2000 (.inl rfl) hacc (ix1 p)).trans ?_
  unfold Spec.rowMax
  refine congrArg (fun f => Finset.fold max Spec.ninf f (Finset.univ : Finset (Fin 2))) ?_
  funext q
  exact congrArg l (lift_lane7 p q)

/-- The sum over the two lanes of row `p`. -/
theorem rowsum7 (l : FVec Ideal S2000x2 .f32) (hacc : (0x00000000#32 : BitVec 32) = 0x00000000#32) (p : Fin 2000) :
    multiReduction (F := Ideal) .add [1] S2000 l 0x00000000#32 reduces_S2000x2_S2000 (.inl rfl) hacc (ix1 p)
      = ∑ q : Fin 2, l (ix2 p q) := by
  refine (Ideal.multiReduction_add_single l 0x00000000#32 reduces_S2000x2_S2000 (.inl rfl) hacc (ix1 p)).trans ?_
  refine Finset.sum_congr rfl fun q _ => ?_
  exact congrArg l (lift_lane7 p q)

/-- A per-row value, stood up as a column and spread over the two lanes, reads the row's value. -/
theorem col7 (x : FVec Ideal S2000 .f32) (p : Fin 2000) (q : Fin 2) :
    broadcastTo S2000x2 (shapeCast S2000x1 x shapeCasts_S2000_S2000x1) broadcasts_S2000x1_S2000x2 (ix2 p q) = x (ix1 p) := by
  rw [PhysLoss.broadcastTo_a1_ab_apply, PhysLoss.shapeCast_a_a1_apply]

/-- The same through a logarithm taken on the column. -/
theorem logcol7 (x : FVec Ideal S2000 .f32) (p : Fin 2000) (q : Fin 2) :
    broadcastTo S2000x2 (log (shapeCast S2000x1 x shapeCasts_S2000_S2000x1)) broadcasts_S2000x1_S2000x2 (ix2 p q)
      = Ideal.log (x (ix1 p)) := by
  rw [PhysLoss.broadcastTo_a1_ab_apply]
  show Ideal.log (shapeCast S2000x1 x shapeCasts_S2000_S2000x1 (ix2 p (0 : Fin 1))) = _
  rw [PhysLoss.shapeCast_a_a1_apply]

/-- The logits at `(p, q)`: the product into the zero accumulator (a change of format is the identity) plus the bias row. -/
theorem logits7 (v0 : Vec Ideal S2000x128 .f32) (v3 : Vec Ideal S128x2 .f32) (v6 : Vec Ideal S1x2 .f32) (p : Fin 2000) (q : Fin 2) :
    addf (matmul dot_S2000x128_S128x2_S2000x2_1_0_0_1_n_n none (truncf .bf16 v0 bitsLt_bf16_f32 : FVec Ideal S2000x128 .bf16)
        (truncf .bf16 v3 bitsLt_bf16_f32 : FVec Ideal S128x2 .bf16) (constant S2000x2 .f32 0x00000000#32))
      (broadcastTo S2000x2 v6 broadcasts_S1x2_S2000x2) (ix2 p q) = Spec.logitAt v0 v3 v6 p q := by
  rw [addf_apply, broadcastTo_1b_ab_apply]
  refine congrArg (· + v6 (ix2 0 q)) ?_
  exact Cert.Lib.Softplus.matmul0_plain_apply dot_S2000x128_S128x2_S2000x2_1_0_0_1_n_n rfl none _ _ p q

/-- The log-softmax over the two lanes as the body computes it from a logits array `l`, at `(p, q)`, in terms of the
    row's two logits `g`. -/
theorem lsm7 (l : FVec Ideal S2000x2 .f32) (p : Fin 2000) (g : Fin 2 → EReal) (hg : ∀ q, l (ix2 p q) = g q) (q : Fin 2)
    (hm : (0xFF800000#32 : BitVec 32) = 0xFF800000#32) (hs : (0x00000000#32 : BitVec 32) = 0x00000000#32) :
    subf (subf l (broadcastTo S2000x2 (shapeCast S2000x1
            (multiReduction (F := Ideal) .maximumf [1] S2000 l 0xFF800000#32 reduces_S2000x2_S2000 (.inl rfl) hm)
            shapeCasts_S2000_S2000x1) broadcasts_S2000x1_S2000x2))
        (broadcastTo S2000x2 (log (shapeCast S2000x1
            (multiReduction (F := Ideal) .add [1] S2000
              (exp (subf l (broadcastTo S2000x2 (shapeCast S2000x1
                (multiReduction (F := Ideal) .maximumf [1] S2000 l 0xFF800000#32 reduces_S2000x2_S2000 (.inl rfl) hm)
                shapeCasts_S2000_S2000x1) broadcasts_S2000x1_S2000x2)))
              0x00000000#32 reduces_S2000x2_S2000 (.inl rfl) hs)
            shapeCasts_S2000_S2000x1)) broadcasts_S2000x1_S2000x2) (ix2 p q)
      = (g q - Spec.rowMax g) - Ideal.log (∑ q' : Fin 2, Ideal.exp (g q' - Spec.rowMax g)) := by
  have eg : (fun q => l (ix2 p q)) = g := funext hg
  rw [subf_apply, logcol7, rowsum7, subf_apply, col7, rowmax7, eg, hg]
  refine congrArg (fun s => (g q - Spec.rowMax g) - Ideal.log s) ?_
  refine Finset.sum_congr rfl fun q' _ => ?_
  show Ideal.exp (l (ix2 p q') - broadcastTo S2000x2 (shapeCast S2000x1
      (multiReduction (F := Ideal) .maximumf [1] S2000 l 0xFF800000#32 reduces_S2000x2_S2000 (.inl rfl) hm)
      shapeCasts_S2000_S2000x1) broadcasts_S2000x1_S2000x2 (ix2 p q')) = _
  rw [col7, rowmax7, eg, hg]

/-- Entry `(p, q)` of what the body stores, from the three blocks it loads: the log-softmax of the logits. -/
theorem pay7_apply (v0 : Vec Ideal S2000x128 .f32) (v3 : Vec Ideal S128x2 .f32) (v6 : Vec Ideal S1x2 .f32) (p : Fin 2000) (q : Fin 2) :
    k7_pay1 (F := Ideal) v0 v3 v6 (ix2 p q) = Spec.fc3At v0 v3 v6 p q := by
  unfold k7_pay1
  simp only [shapeCast_self]
  exact lsm7 _ p (Spec.logitAt v0 v3 v6 p) (fun q' => logits7 v0 v3 v6 p q') q rfl rfl

/-- The stored entry as the entry of the whole-array function, when each loaded block is its whole array. -/
theorem point7 (x0 : Vec Ideal S2000x128 .f32) (x1 : Vec Ideal S128x2 .f32) (x2 : Vec Ideal S1x2 .f32)
    (P : Spec.Mat 2000 128) (W : Spec.Mat 128 2) (B : Spec.Mat 1 2) (p : Fin 2000) (q : Fin 2)
    (h0 : x0 = P) (h1 : x1 = W) (h2 : x2 = B) :
    k7_pay1 (F := Ideal) x0 x1 x2 (ix2 p q) = Spec.fc3 P W B (ix2 p q) := by
  rw [pay7_apply, Spec.fc3_ix2, h0, h1, h2]

/-! ## From the one block to the array -/

variable (V : (c : Dev nD) → (b : Ref sig .tc) → Buf (Elt Ideal) ((c : Thread nD τ).loc b))

theorem hz7 : (![0, 0] : Fin 2 → Nat) = fun _ => 0 := funext fun a => by fin_cases a <;> rfl

/-- The block index maps, decided over the one grid point: every window sits at block (0, 0). -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- What the grid's point writes back is the whole-array function of the arrays the region finds, read through the block. -/
theorem flushed7_eq (c : Dev nD) (t : Fin cfg7.N) :
    (dat7 (F := Ideal) V c).flushed 3 t = ((cfg7.win 3).blk t).view.read (Elt Ideal)
      (Spec.fc3 (V c main_v113) (V c main_arg11) (V c main_v114)) := by
  show (cfg7.win 3).cut (grid7.coords t) ((dat7 V c).after 3 t) = _
  rw [after7_3]
  unfold out7_3
  rw [View.canon_unit_zero hz7]
  simp only [View.ld_unit_zero (S := S2000x128) hz7, View.ld_unit_zero (S := S128x2) hz7, View.ld_unit_zero (S := S1x2) hz7]
  funext j
  obtain ⟨e00, e01, e10, e11, e20, e21, e30, e31⟩ := idx_facts7 t
  have hr : (j 0).val < 2000 := (j 0).isLt
  have hq : (j 1).val < 2 := (j 1).isLt
  have hj : (win7 3).xinj (grid7.coords t) j = ix2 (⟨(j 0).val, hr⟩ : Fin 2000) (⟨(j 1).val, hq⟩ : Fin 2) := eq_ix2 _
  -- a block's element sits in the array at block index × block size + its coordinate in the block
  have hemb : ((cfg7.win 3).blk t).view.emb j = ix2 (⟨(j 0).val, hr⟩ : Fin 2000) (⟨(j 1).val, hq⟩ : Fin 2) := by
    funext a; apply Fin.ext
    match a with
    | ⟨0, _⟩ => show win7_3.index t (0 : Fin 2) * 2000 + 1 * (j 0).val = (j 0).val; omega
    | ⟨1, _⟩ => show win7_3.index t (1 : Fin 2) * 2 + 1 * (j 1).val = (j 1).val; omega
  show k7_pay1 (iblk7 V c 0 t) (iblk7 V c 1 t) (iblk7 V c 2 t) ((win7 3).xinj (grid7.coords t) j)
      = Spec.fc3 (V c main_v113) (V c main_arg11) (V c main_v114) (((cfg7.win 3).blk t).view.emb j)
  rw [hj, hemb]
  refine point7 _ _ _ _ _ _ _ _ ?_ ?_ ?_
  · funext y
    show V c main_v113 (((cfg7.win 0).blk t).view.emb y) = V c main_v113 y
    refine congrArg (V c main_v113) ?_
    funext a; apply Fin.ext
    match a with
    | ⟨0, _⟩ => show win7_0.index t (0 : Fin 2) * 2000 + 1 * (y 0).val = (y 0).val; omega
    | ⟨1, _⟩ => show win7_0.index t (1 : Fin 2) * 128 + 1 * (y 1).val = (y 1).val; omega
  · funext y
    show V c main_arg11 (((cfg7.win 1).blk t).view.emb y) = V c main_arg11 y
    refine congrArg (V c main_arg11) ?_
    funext a; apply Fin.ext
    match a with
    | ⟨0, _⟩ => show win7_1.index t (0 : Fin 2) * 128 + 1 * (y 0).val = (y 0).val; omega
    | ⟨1, _⟩ => show win7_1.index t (1 : Fin 2) * 2 + 1 * (y 1).val = (y 1).val; omega
  · funext y
    show V c main_v114 (((cfg7.win 2).blk t).view.emb y) = V c main_v114 y
    refine congrArg (V c main_v114) ?_
    funext a; apply Fin.ext
    match a with
    | ⟨0, _⟩ => show win7_2.index t (0 : Fin 2) * 1 + 1 * (y 0).val = (y 0).val; omega
    | ⟨1, _⟩ => show win7_2.index t (1 : Fin 2) * 2 + 1 * (y 1).val = (y 1).val; omega

/-- An index of the array lies in the block of point `t` iff each coordinate lies in the block's range on its axis. -/
theorem mem_blk7 (t : Fin cfg7.N) (i : S2000x2.Idx) :
    i ∈ ((cfg7.win 3).blk t).view.set ↔ ∀ a : Fin 2, win7_3.index t a * S2000x2.size a ≤ (i a).val
      ∧ (i a).val < win7_3.index t a * S2000x2.size a + S2000x2.size a := by
  show i ∈ ((View.whole main_v115).slice (win7_3.rect t)).set ↔ _
  rw [View.set_slice_whole, Rect.mem_set_unit]
  exact Iff.rfl

/-- The one block is the whole array: it covers every index. -/
theorem cover7 (i : S2000x2.Idx) :
    ∃ t : Fin cfg7.N, (cfg7.win 3).flush t = true ∧ i ∈ ((cfg7.win 3).blk t).view.set := by
  have hi0 : (i 0).val < 2000 := (i 0).isLt
  have hi1 : (i 1).val < 2 := (i 1).isLt
  have hN : 0 < cfg7.N := (by decide : 0 < grid7.N)
  obtain ⟨e00, e01, e10, e11, e20, e21, e30, e31⟩ := idx_facts7 ⟨0, hN⟩
  refine ⟨⟨0, hN⟩, flush7_3 _, ?_⟩
  rw [mem_blk7]
  intro a
  match a with
  | ⟨0, _⟩ => show win7_3.index ⟨0, hN⟩ (0 : Fin 2) * 2000 ≤ (i 0).val ∧ (i 0).val < win7_3.index ⟨0, hN⟩ (0 : Fin 2) * 2000 + 2000; omega
  | ⟨1, _⟩ => show win7_3.index ⟨0, hN⟩ (1 : Fin 2) * 2 ≤ (i 1).val ∧ (i 1).val < win7_3.index ⟨0, hN⟩ (1 : Fin 2) * 2 + 2; omega

/-- The last region's output array after the run: the log-softmax of the last dense layer of the arrays the region finds. -/
theorem region7 (c : Dev nD) : (dat7 (F := Ideal) V c).arrAt 3 cfg7.N
    = Spec.fc3 (V c main_v113) (V c main_arg11) (V c main_v114) :=
  (dat7 (F := Ideal) V c).arrAt_eq_of_cover 3 _ (fun t _ => flushed7_eq V c t) cover7

end Cert.RegB

end
-- ==== Proof.RefB1.lean ====
/-
  The reference's dense layer over the three graph-convolution outputs, read at an entry. The
  program joins the three 32-column outputs side by side into 96 columns, multiplies by the
  96 × 128 weight, adds the bias row and clamps at zero. A sum over the 96 joined columns is the
  sum over the first 32, plus the sum over the next 32, plus the sum over the last 32; on each
  stretch the joined row is one of the three outputs and the weight is one of its three row
  blocks. Entry by entry that is `Spec.fc1At`.
-/
import proofs.«139152_j41120016892602_1_alg».proof.Proof.RefRead
import proofs.«139152_j41120016892602_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefB

open Cert.ReferenceIdeal Cert.ReferenceIdeal.Gen Cert.ReferenceIdeal.Read Idealize.ShloMosaic Idealize.ShloMosaic.ValueIdx
  Idealize.ShloMosaic.StableHlo

/-! ## The three outputs joined along the columns, read at an entry -/

section Join
variable (y1 y2 y3 : (⟨S100000x32, .f32⟩ : BufTy).Contents (Elt Ideal))

/-- A column below 32 reads the first output. -/
theorem join_apply0 (p : Fin 100000) (k : Fin 32) :
    concatenate S100000x96 1 [⟨S100000x32, y1⟩, ⟨S100000x32, y2⟩, ⟨S100000x32, y3⟩]
      concatenates_S100000x32_S100000x32_S100000x32_S100000x96_d1 (ix2 p (⟨k.val, by omega⟩ : Fin 96)) = y1 (ix2 p k) :=
  concatenate_apply_piece (t := S100000x96) 1 [⟨S100000x32, y1⟩, ⟨S100000x32, y2⟩, ⟨S100000x32, y3⟩] concatenates_S100000x32_S100000x32_S100000x32_S100000x96_d1
    (ix2 p (⟨k.val, by omega⟩ : Fin 96)) 0 (by show 0 < 3; omega) S100000x32 y1 rfl rfl 0 rfl (ix2 p k)
    (fun b => match b with
      | ⟨0, _⟩ => fun _ => rfl
      | ⟨1, _⟩ => fun hne => absurd rfl hne)
    (by show 0 + k.val = k.val; omega)

/-- A column from 32 to 63 reads the second output, 32 columns to the left. -/
theorem join_apply1 (p : Fin 100000) (k : Fin 32) :
    concatenate S100000x96 1 [⟨S100000x32, y1⟩, ⟨S100000x32, y2⟩, ⟨S100000x32, y3⟩]
      concatenates_S100000x32_S100000x32_S100000x32_S100000x96_d1 (ix2 p (⟨32 + k.val, by omega⟩ : Fin 96)) = y2 (ix2 p k) :=
  concatenate_apply_piece (t := S100000x96) 1 [⟨S100000x32, y1⟩, ⟨S100000x32, y2⟩, ⟨S100000x32, y3⟩] concatenates_S100000x32_S100000x32_S100000x32_S100000x96_d1
    (ix2 p (⟨32 + k.val, by omega⟩ : Fin 96)) 1 (by show 1 < 3; omega) S100000x32 y2 rfl rfl 32 rfl (ix2 p k)
    (fun b => match b with
      | ⟨0, _⟩ => fun _ => rfl
      | ⟨1, _⟩ => fun hne => absurd rfl hne)
    rfl

/-- A column from 64 on reads the third output, 64 columns to the left. -/
theorem join_apply2 (p : Fin 100000) (k : Fin 32) :
    concatenate S100000x96 1 [⟨S100000x32, y1⟩, ⟨S100000x32, y2⟩, ⟨S100000x32, y3⟩]
      concatenates_S100000x32_S100000x32_S100000x32_S100000x96_d1 (ix2 p (⟨64 + k.val, by omega⟩ : Fin 96)) = y3 (ix2 p k) :=
  concatenate_apply_piece (t := S100000x96) 1 [⟨S100000x32, y1⟩, ⟨S100000x32, y2⟩, ⟨S100000x32, y3⟩] concatenates_S100000x32_S100000x32_S100000x32_S100000x96_d1
    (ix2 p (⟨64 + k.val, by omega⟩ : Fin 96)) 2 (by show 2 < 3; omega) S100000x32 y3 rfl rfl 64 rfl (ix2 p k)
    (fun b => match b with
      | ⟨0, _⟩ => fun _ => rfl
      | ⟨1, _⟩ => fun hne => absurd rfl hne)
    rfl

end Join

/-! ## A sum over 96 columns in three stretches of 32 -/

theorem sum96_split (f : Fin 96 → EReal) :
    ∑ k : Fin 96, f k
      = (∑ k : Fin 32, f ⟨k.val, by omega⟩ + ∑ k : Fin 32, f ⟨32 + k.val, by omega⟩)
          + ∑ k : Fin 32, f ⟨64 + k.val, by omega⟩ := by
  have h1 := Fin.sum_univ_add (M := EReal) (a := 32 + 32) (b := 32) (fun k => f k)
  have h2 := Fin.sum_univ_add (M := EReal) (a := 32) (b := 32) (fun k : Fin (32 + 32) => f (Fin.castAdd 32 k))
  rw [h2] at h1
  refine h1.trans ?_
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext (by show 32 + 32 + k.val = 64 + k.val; omega))

/-! ## The weight's three row blocks and the bias row -/

section Weights
variable (x9 : (⟨S96x128, .f32⟩ : BufTy).Contents (Elt Ideal)) (x10 : (⟨S128, .f32⟩ : BufTy).Contents (Elt Ideal))

theorem block0_apply (h0 : S96x128.Slices ![0, 0] ⟨2, ![32, 128]⟩) (k : Fin 32) (q : Fin 128) :
    extractStridedSlice ⟨2, ![32, 128]⟩ ![0, 0] x9 h0 (ix2 k q) = x9 (ix2 (⟨k.val, by omega⟩ : Fin 96) q) :=
  extractStridedSlice_apply ![0, 0] x9 h0 (ix2 k q) (ix2 (⟨k.val, by omega⟩ : Fin 96) q) (fun a => match a with
    | ⟨0, _⟩ => by show k.val = 0 + k.val; omega
    | ⟨1, _⟩ => by show q.val = 0 + q.val; omega)

theorem block1_apply (h1 : S96x128.Slices ![32, 0] ⟨2, ![32, 128]⟩) (k : Fin 32) (q : Fin 128) :
    extractStridedSlice ⟨2, ![32, 128]⟩ ![32, 0] x9 h1 (ix2 k q) = x9 (ix2 (⟨32 + k.val, by omega⟩ : Fin 96) q) :=
  extractStridedSlice_apply ![32, 0] x9 h1 (ix2 k q) (ix2 (⟨32 + k.val, by omega⟩ : Fin 96) q) (fun a => match a with
    | ⟨0, _⟩ => by show 32 + k.val = 32 + k.val; rfl
    | ⟨1, _⟩ => by show q.val = 0 + q.val; omega)

theorem block2_apply (h2 : S96x128.Slices ![64, 0] ⟨2, ![32, 128]⟩) (k : Fin 32) (q : Fin 128) :
    extractStridedSlice ⟨2, ![32, 128]⟩ ![64, 0] x9 h2 (ix2 k q) = x9 (ix2 (⟨64 + k.val, by omega⟩ : Fin 96) q) :=
  extractStridedSlice_apply ![64, 0] x9 h2 (ix2 k q) (ix2 (⟨64 + k.val, by omega⟩ : Fin 96) q) (fun a => match a with
    | ⟨0, _⟩ => by show 64 + k.val = 64 + k.val; rfl
    | ⟨1, _⟩ => by show q.val = 0 + q.val; omega)

/-- The bias reshaped to a row, read at `(0, q)`, is the bias at `q`. -/
theorem biasRow128_apply (hb : S128.ShapeCasts ⟨2, ![1, 128]⟩) (q : Fin 128) :
    shapeCast ⟨2, ![1, 128]⟩ x10 hb (ix2 (0 : Fin 1) q) = x10 (ix1 q) :=
  (shapeCast_addUnit_apply ![128] x10 hb (ix2 (0 : Fin 1) q)).trans
    (congrArg x10 (funext fun a => by match a with | ⟨0, _⟩ => rfl))

end Weights

/-! ## The stage -/

variable (x0 : (⟨S100000x37, .f32⟩ : BufTy).Contents (Elt Ideal)) (x1 : (⟨S2x3200000, .i32⟩ : BufTy).Contents (Elt Ideal))
  (x3 : (⟨S37x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal)) (x7 : (⟨S32x32, .f32⟩ : BufTy).Contents (Elt Ideal))
  (x8 : (⟨S32, .f32⟩ : BufTy).Contents (Elt Ideal)) (x9 : (⟨S96x128, .f32⟩ : BufTy).Contents (Elt Ideal))
  (x10 : (⟨S128, .f32⟩ : BufTy).Contents (Elt Ideal))

theorem ref_v135 (h0 : S96x128.Slices ![0, 0] ⟨2, ![32, 128]⟩) (h1 : S96x128.Slices ![32, 0] ⟨2, ![32, 128]⟩)
    (h2 : S96x128.Slices ![64, 0] ⟨2, ![32, 128]⟩) (hb : S128.ShapeCasts ⟨2, ![1, 128]⟩) :
    val_main_v135 (F := Ideal) x0 x1 x3 x4 x5 x6 x7 x8 x9 x10
      = Spec.fc1 (val_main_v51 (F := Ideal) x0 x1 x3 x4) (val_main_v90 (F := Ideal) x0 x1 x3 x4 x5 x6) (val_main_v129 (F := Ideal) x0 x1 x3 x4 x5 x6 x7 x8)
          (extractStridedSlice ⟨2, ![32, 128]⟩ ![0, 0] x9 h0) (extractStridedSlice ⟨2, ![32, 128]⟩ ![32, 0] x9 h1) (extractStridedSlice ⟨2, ![32, 128]⟩ ![64, 0] x9 h2) (shapeCast ⟨2, ![1, 128]⟩ x10 hb) := by
  funext i
  obtain ⟨p, q, rfl⟩ : ∃ (p : Fin 100000) (q : Fin 128), i = ix2 p q := ⟨i 0, i 1, eq_ix2 i⟩
  rw [Spec.fc1_ix2, val_main_v135_apply, val_main_v134_apply, val_main_v131_apply, val_main_v133_apply, val_main_v132_apply,
    val_main_call1_v0_apply, val_main_call1_cst_apply, Ideal.maximumf_def, Ideal.addf_def, Ideal.ofBits_def]
  unfold val_main_v130 Spec.fc1At Spec.mmAt
  generalize val_main_v51 (F := Ideal) x0 x1 x3 x4 = y1
  generalize val_main_v90 (F := Ideal) x0 x1 x3 x4 x5 x6 = y2
  generalize val_main_v129 (F := Ideal) x0 x1 x3 x4 x5 x6 x7 x8 = y3
  have eb : idx_main_v132 (idx_main_v133 (ix2 p q)) = ix1 q :=
    funext fun a => Fin.ext (by match a with | ⟨0, _⟩ => rfl)
  have el : ∀ k : Fin 96, lidx_main_v131 (ix2 p q) k = ix2 p k := fun k =>
    funext fun a => Fin.ext (by match a with | ⟨0, _⟩ => rfl | ⟨1, _⟩ => rfl)
  have er : ∀ k : Fin 96, ridx_main_v131 (ix2 p q) k = ix2 k q := fun k =>
    funext fun a => Fin.ext (by match a with | ⟨0, _⟩ => rfl | ⟨1, _⟩ => rfl)
  rw [eb, biasRow128_apply x10 hb q, Finset.sum_congr rfl fun k _ => (by rw [el k, er k] :
    (concatenate S100000x96 1 [⟨S100000x32, y1⟩, ⟨S100000x32, y2⟩, ⟨S100000x32, y3⟩]
      concatenates_S100000x32_S100000x32_S100000x32_S100000x96_d1) (lidx_main_v131 (ix2 p q) k) * x9 (ridx_main_v131 (ix2 p q) k)
      = (concatenate S100000x96 1 [⟨S100000x32, y1⟩, ⟨S100000x32, y2⟩, ⟨S100000x32, y3⟩]
      concatenates_S100000x32_S100000x32_S100000x32_S100000x96_d1) (ix2 p k) * x9 (ix2 k q))]
  rw [sum96_split]
  refine congrArg (max · Spec.zero) (congrArg (· + x10 (ix1 q)) (congrArg₂ (· + ·) (congrArg₂ (· + ·) ?_ ?_) ?_))
  · exact Finset.sum_congr rfl fun k _ => congrArg₂ (· * ·) (join_apply0 y1 y2 y3 p k) (block0_apply x9 h0 k q).symm
  · exact Finset.sum_congr rfl fun k _ => congrArg₂ (· * ·) (join_apply1 y1 y2 y3 p k) (block1_apply x9 h1 k q).symm
  · exact Finset.sum_congr rfl fun k _ => congrArg₂ (· * ·) (join_apply2 y1 y2 y3 p k) (block2_apply x9 h2 k q).symm

end Cert.RefB

end
-- ==== Proof.RefB2.lean ====
/-
  The reference's last stage, read at an entry: the last dense layer (the pooled features times a
  128 × 2 weight, plus a bias row) followed by the log-softmax over the two columns. The program
  computes the row's maximum as a fold of `max` from `-∞`, takes one more `max` with `-∞`
  (which changes nothing), subtracts it, exponentiates, sums the two columns from `0`, takes the
  logarithm and subtracts again. Entry by entry that is `Spec.fc3At`.
-/
import proofs.«139152_j41120016892602_1_alg».proof.Proof.RefRead
import proofs.«139152_j41120016892602_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefB

open Cert.ReferenceIdeal Cert.ReferenceIdeal.Gen Cert.ReferenceIdeal.Read Idealize.ShloMosaic Idealize.ShloMosaic.ValueIdx
  Idealize.ShloMosaic.StableHlo

variable (x0 : (⟨S100000x37, .f32⟩ : BufTy).Contents (Elt Ideal)) (x1 : (⟨S2x3200000, .i32⟩ : BufTy).Contents (Elt Ideal))
  (x2 : (⟨S100000, .i32⟩ : BufTy).Contents (Elt Ideal)) (x3 : (⟨S37x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal)) (x7 : (⟨S32x32, .f32⟩ : BufTy).Contents (Elt Ideal))
  (x8 : (⟨S32, .f32⟩ : BufTy).Contents (Elt Ideal)) (x9 : (⟨S96x128, .f32⟩ : BufTy).Contents (Elt Ideal))
  (x10 : (⟨S128, .f32⟩ : BufTy).Contents (Elt Ideal)) (x11 : (⟨S128x2, .f32⟩ : BufTy).Contents (Elt Ideal))
  (x12 : (⟨S2, .f32⟩ : BufTy).Contents (Elt Ideal))

/-- `max` with `-∞` on the left is the identity. -/
theorem max_ninf_left (y : EReal) : max (Ideal.ofBits .f32 0xFF800000#32) y = y := by
  simp [Ideal.ofBits, Ideal.ieee]

/-- The bias reshaped to a row, read at `(0, q)`, is the bias at `q`. -/
theorem biasRow_apply (hb : S2.ShapeCasts ⟨2, ![1, 2]⟩) (q : Fin 2) :
    shapeCast ⟨2, ![1, 2]⟩ x12 hb (ix2 (0 : Fin 1) q) = x12 (ix1 q) :=
  (shapeCast_addUnit_apply ![2] x12 hb (ix2 (0 : Fin 1) q)).trans
    (congrArg x12 (funext fun a => by match a with | ⟨0, _⟩ => rfl))

/-- The logits: the dense product plus the bias row. -/
theorem logit_apply (hb : S2.ShapeCasts ⟨2, ![1, 2]⟩) (p : Fin 2000) (q : Fin 2) :
    val_main_v142 (F := Ideal) x0 x1 x2 x3 x4 x5 x6 x7 x8 x9 x10 x11 x12 (ix2 p q) = Spec.logitAt (val_main_v138 (F := Ideal) x0 x1 x2 x3 x4 x5 x6 x7 x8 x9 x10) x11 (shapeCast ⟨2, ![1, 2]⟩ x12 hb) p q := by
  rw [val_main_v142_apply, val_main_v139_apply, val_main_v141_apply, val_main_v140_apply, Ideal.addf_def]
  unfold Spec.logitAt Spec.mmAt
  rw [biasRow_apply x12 hb q]
  have el : ∀ k : Fin 128, lidx_main_v139 (ix2 p q) k = ix2 p k := fun k =>
    funext fun a => Fin.ext (by match a with | ⟨0, _⟩ => rfl | ⟨1, _⟩ => rfl)
  have er : ∀ k : Fin 128, ridx_main_v139 (ix2 p q) k = ix2 k q := fun k =>
    funext fun a => Fin.ext (by match a with | ⟨0, _⟩ => rfl | ⟨1, _⟩ => rfl)
  have eb : idx_main_v140 (idx_main_v141 (ix2 p q)) = ix1 q :=
    funext fun a => Fin.ext (by match a with | ⟨0, _⟩ => rfl)
  rw [eb]
  refine congrArg (· + x12 (ix1 q)) (Finset.sum_congr rfl fun k _ => ?_)
  rw [el k, er k]

/-- The reduced index `p` with column `k` put back is `(p, k)`. -/
theorem lift_col (h : S2000x2.Reduces [1] S2000) (p : Fin 2000) (k : Fin (S2000x2.size 1)) :
    h.lift (ix1 p) k = ix2 p (⟨k.val, k.isLt⟩ : Fin 2) := by
  funext c; apply Fin.ext
  match c with
  | ⟨0, _⟩ => rfl
  | ⟨1, _⟩ => rfl

/-- The row's maximum: the fold of `max` from `-∞` over the two logits, then one more `max` with `-∞`. -/
theorem rowMax_apply (hb : S2.ShapeCasts ⟨2, ![1, 2]⟩) (p : Fin 2000) :
    val_main_call2_v2 (F := Ideal) x0 x1 x2 x3 x4 x5 x6 x7 x8 x9 x10 x11 x12 (ix1 p) = Spec.rowMax (Spec.logitAt (val_main_v138 (F := Ideal) x0 x1 x2 x3 x4 x5 x6 x7 x8 x9 x10) x11 (shapeCast ⟨2, ![1, 2]⟩ x12 hb) p) := by
  rw [val_main_call2_v2_apply, val_main_call2_v1_apply, val_main_call2_cst_0_apply]
  unfold val_main_call2_v0
  have h : S2000x2.Reduces [1] S2000 := by decide
  have hr := Host.reduce_eq_fold_single (FloatOps.maximumf (F := Ideal) (φ := .f32))
    (val_main_v142 (F := Ideal) x0 x1 x2 x3 x4 x5 x6 x7 x8 x9 x10 x11 x12) (val_main_call2_cst (F := Ideal)) reducesTo_S2000x2_S2000_d1 h h_S_ (ix1 p)
  have hf : (val_main_v142 (F := Ideal) x0 x1 x2 x3 x4 x5 x6 x7 x8 x9 x10 x11 x12 ∘ h.lift (ix1 p))
      = fun k : Fin 2 => Spec.logitAt (val_main_v138 (F := Ideal) x0 x1 x2 x3 x4 x5 x6 x7 x8 x9 x10) x11 (shapeCast ⟨2, ![1, 2]⟩ x12 hb) p k :=
    funext fun k => (congrArg (val_main_v142 (F := Ideal) x0 x1 x2 x3 x4 x5 x6 x7 x8 x9 x10 x11 x12) (lift_col h p k)).trans (logit_apply x0 x1 x2 x3 x4 x5 x6 x7 x8 x9 x10 x11 x12 hb p _)
  refine (congrArg (FloatOps.maximumf (F := Ideal) (φ := .f32) (FloatOps.ofBits .f32 0xFF800000#32)) (hr.trans ?_)).trans
    (max_ninf_left _)
  exact congrArg (fun f => Finset.fold max (Ideal.ofBits .f32 0xFF800000#32) f (Finset.univ : Finset (Fin 2))) hf

/-- The logits less their row's maximum. -/
theorem shifted_apply (hb : S2.ShapeCasts ⟨2, ![1, 2]⟩) (p : Fin 2000) (q : Fin 2) :
    val_main_call2_v5 (F := Ideal) x0 x1 x2 x3 x4 x5 x6 x7 x8 x9 x10 x11 x12 (ix2 p q)
      = Spec.logitAt (val_main_v138 (F := Ideal) x0 x1 x2 x3 x4 x5 x6 x7 x8 x9 x10) x11 (shapeCast ⟨2, ![1, 2]⟩ x12 hb) p q - Spec.rowMax (Spec.logitAt (val_main_v138 (F := Ideal) x0 x1 x2 x3 x4 x5 x6 x7 x8 x9 x10) x11 (shapeCast ⟨2, ![1, 2]⟩ x12 hb) p) := by
  rw [val_main_call2_v5_apply, val_main_call2_v4_apply, val_main_call2_v3_apply, Ideal.subf_def, logit_apply x0 x1 x2 x3 x4 x5 x6 x7 x8 x9 x10 x11 x12 hb p q]
  have e : idx_main_call2_v3 (idx_main_call2_v4 (ix2 p q)) = ix1 p :=
    funext fun a => Fin.ext (by match a with | ⟨0, _⟩ => rfl)
  rw [e, rowMax_apply x0 x1 x2 x3 x4 x5 x6 x7 x8 x9 x10 x11 x12 hb p]

/-- The reference's result is the log-softmax of the logits. -/
theorem ref_v143 (hb : S2.ShapeCasts ⟨2, ![1, 2]⟩) :
    val_main_v143 (F := Ideal) x0 x1 x2 x3 x4 x5 x6 x7 x8 x9 x10 x11 x12 = Spec.fc3 (val_main_v138 (F := Ideal) x0 x1 x2 x3 x4 x5 x6 x7 x8 x9 x10) x11 (shapeCast ⟨2, ![1, 2]⟩ x12 hb) := by
  funext i
  obtain ⟨p, q, rfl⟩ : ∃ (p : Fin 2000) (q : Fin 2), i = ix2 p q := ⟨i 0, i 1, eq_ix2 i⟩
  rw [Spec.fc3_ix2, val_main_v143_apply, val_main_call2_v10_apply, val_main_call2_v9_apply, val_main_call2_v8_apply,
    Ideal.subf_def, Ideal.hostUnary_log_def]
  have e : idx_main_call2_v8 (idx_main_call2_v10 (ix2 p q)) = ix1 p :=
    funext fun a => Fin.ext (by match a with | ⟨0, _⟩ => rfl)
  rw [e, val_main_call2_v7_apply, val_main_call2_cst_1_apply, shifted_apply x0 x1 x2 x3 x4 x5 x6 x7 x8 x9 x10 x11 x12 hb p q, Ideal.ofBits_def,
    Ideal.ofBits_zero_f32, zero_add]
  unfold Spec.fc3At
  have es : ∀ k : Fin 2, val_main_call2_v6 (F := Ideal) x0 x1 x2 x3 x4 x5 x6 x7 x8 x9 x10 x11 x12 (idx_main_call2_v7 (ix1 p) k)
      = Ideal.exp (Spec.logitAt (val_main_v138 (F := Ideal) x0 x1 x2 x3 x4 x5 x6 x7 x8 x9 x10) x11 (shapeCast ⟨2, ![1, 2]⟩ x12 hb) p k - Spec.rowMax (Spec.logitAt (val_main_v138 (F := Ideal) x0 x1 x2 x3 x4 x5 x6 x7 x8 x9 x10) x11 (shapeCast ⟨2, ![1, 2]⟩ x12 hb) p)) := fun k => by
    have e7 : idx_main_call2_v7 (ix1 p) k = ix2 p k :=
      funext fun a => Fin.ext (by match a with | ⟨0, _⟩ => rfl | ⟨1, _⟩ => rfl)
    rw [val_main_call2_v6_apply, Ideal.hostUnary_exp_def, e7, shifted_apply x0 x1 x2 x3 x4 x5 x6 x7 x8 x9 x10 x11 x12 hb p k]
  rw [Finset.sum_congr rfl fun k _ => es k]

end Cert.RefB

end
-- ==== Proof.Chain3.lean ====
/-
  The contents of the idealized kernel program's buffers at the boundaries between its segments,
  boundaries 11 to 14: every buffer a later segment reads holds the value the reference computes
  for it (a host stretch's result by the stretch's own operations, a pipeline's output array by the
  pipeline's whole-array value, and a buffer no segment in between writes keeps what it held).
-/
import proofs.«139152_j41120016892602_1_alg».proof.Proof.Chain2
import proofs.«139152_j41120016892602_1_alg».proof.Proof.RegA6
import proofs.«139152_j41120016892602_1_alg».proof.Proof.RegB7
import proofs.«139152_j41120016892602_1_alg».proof.Proof.RefB1
import proofs.«139152_j41120016892602_1_alg».proof.Proof.RefB2

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 11: after the host stretch hostOps6 -/

theorem W11_v43 : W11 m ρ c (Proc.devRef .tc main_v43) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) :=
  (show W11 m ρ c (Proc.devRef .tc main_v43) = W10 m ρ c (Proc.devRef .tc main_v43) by host_keep hostOps6).trans (W10_v43 m ρ c)
theorem W11_v74 : W11 m ρ c (Proc.devRef .tc main_v74) = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show W11 m ρ c (Proc.devRef .tc main_v74) = W10 m ρ c (Proc.devRef .tc main_v74) by host_keep hostOps6).trans (W10_v74 m ρ c)
theorem W11_v105 : W11 m ρ c (Proc.devRef .tc main_v105) = Cert.ReferenceIdeal.Read.val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show W11 m ρ c (Proc.devRef .tc main_v105) = W10 m ρ c (Proc.devRef .tc main_v105) by host_keep hostOps6).trans (W10_v105 m ρ c)
theorem W11_arg2 : W11 m ρ c (Proc.devRef .tc main_arg2) = (m ((c : Thread nD τ).loc main_arg2)) :=
  (show W11 m ρ c (Proc.devRef .tc main_arg2) = W10 m ρ c (Proc.devRef .tc main_arg2) by host_keep hostOps6).trans (W10_arg2 m ρ c)
theorem W11_arg11 : W11 m ρ c (Proc.devRef .tc main_arg11) = (m ((c : Thread nD τ).loc main_arg11)) :=
  (show W11 m ρ c (Proc.devRef .tc main_arg11) = W10 m ρ c (Proc.devRef .tc main_arg11) by host_keep hostOps6).trans (W10_arg11 m ρ c)
theorem W11_arg12 : W11 m ρ c (Proc.devRef .tc main_arg12) = (m ((c : Thread nD τ).loc main_arg12)) :=
  (show W11 m ρ c (Proc.devRef .tc main_arg12) = W10 m ρ c (Proc.devRef .tc main_arg12) by host_keep hostOps6).trans (W10_arg12 m ρ c)
theorem W11_v106 : W11 m ρ c (Proc.devRef .tc main_v106) = extractStridedSlice S32x128 ![0, 0] (m ((c : Thread nD τ).loc main_arg9)) slices_S96x128_S32x128_0_0 :=
  Cert.HostK.h6_v106 (Wv := W10 m ρ c) (e9 := W10_arg9 m ρ c)
theorem W11_v107 : W11 m ρ c (Proc.devRef .tc main_v107) = extractStridedSlice S32x128 ![32, 0] (m ((c : Thread nD τ).loc main_arg9)) slices_S96x128_S32x128_32_0 :=
  Cert.HostK.h6_v107 (Wv := W10 m ρ c) (e9 := W10_arg9 m ρ c)
theorem W11_v108 : W11 m ρ c (Proc.devRef .tc main_v108) = extractStridedSlice S32x128 ![64, 0] (m ((c : Thread nD τ).loc main_arg9)) slices_S96x128_S32x128_64_0 :=
  Cert.HostK.h6_v108 (Wv := W10 m ρ c) (e9 := W10_arg9 m ρ c)
theorem W11_v109 : W11 m ρ c (Proc.devRef .tc main_v109) = shapeCast S1x128 (m ((c : Thread nD τ).loc main_arg10)) shapeCasts_S128_S1x128 :=
  Cert.HostK.h6_v109 (Wv := W10 m ρ c) (e10 := W10_arg10 m ρ c)

/-! ## Boundary 12: after pipeline 6 -/

theorem W12_arg2 : W12 m ρ c (Proc.devRef .tc main_arg2) = (m ((c : Thread nD τ).loc main_arg2)) :=
  (W12_of_ne m ρ c main_arg2 (by decide)).trans (W11_arg2 m ρ c)
theorem W12_arg11 : W12 m ρ c (Proc.devRef .tc main_arg11) = (m ((c : Thread nD τ).loc main_arg11)) :=
  (W12_of_ne m ρ c main_arg11 (by decide)).trans (W11_arg11 m ρ c)
theorem W12_arg12 : W12 m ρ c (Proc.devRef .tc main_arg12) = (m ((c : Thread nD τ).loc main_arg12)) :=
  (W12_of_ne m ρ c main_arg12 (by decide)).trans (W11_arg12 m ρ c)
theorem W12_v110 : W12 m ρ c (Proc.devRef .tc main_v110) = Cert.ReferenceIdeal.Read.val_main_v135 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 7).trans ((Cert.RegA.region6 (V11 m ρ) c).trans (by
    rw [show V11 m ρ c main_v43 = _ from W11_v43 m ρ c,
      show V11 m ρ c main_v74 = _ from W11_v74 m ρ c,
      show V11 m ρ c main_v105 = _ from W11_v105 m ρ c,
      show V11 m ρ c main_v106 = _ from W11_v106 m ρ c,
      show V11 m ρ c main_v107 = _ from W11_v107 m ρ c,
      show V11 m ρ c main_v108 = _ from W11_v108 m ρ c,
      show V11 m ρ c main_v109 = _ from W11_v109 m ρ c]
    exact (Cert.RefB.ref_v135 ..).symm))

/-! ## Boundary 13: after the host stretch hostOps7 -/

theorem W13_arg11 : W13 m ρ c (Proc.devRef .tc main_arg11) = (m ((c : Thread nD τ).loc main_arg11)) :=
  (show W13 m ρ c (Proc.devRef .tc main_arg11) = W12 m ρ c (Proc.devRef .tc main_arg11) by host_keep hostOps7).trans (W12_arg11 m ρ c)
theorem W13_v113 : W13 m ρ c (Proc.devRef .tc main_v113) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.HostK.h7_v113 (Wv := W12 m ρ c) (e110 := W12_v110 m ρ c) (e2 := W12_arg2 m ρ c)
theorem W13_v114 : W13 m ρ c (Proc.devRef .tc main_v114) = shapeCast S1x2 (m ((c : Thread nD τ).loc main_arg12)) shapeCasts_S2_S1x2 :=
  Cert.HostK.h7_v114 (Wv := W12 m ρ c) (e12 := W12_arg12 m ρ c)

/-! ## Boundary 14: after pipeline 7 -/

theorem W14_v115 : W14 m ρ c (Proc.devRef .tc main_v115) = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W14_arr m ρ c 3).trans ((Cert.RegB.region7 (V13 m ρ) c).trans (by
    rw [show V13 m ρ c main_v113 = _ from W13_v113 m ρ c,
      show V13 m ρ c main_arg11 = _ from W13_arg11 m ρ c,
      show V13 m ρ c main_v114 = _ from W13_v114 m ρ c]
    exact (Cert.RefB.ref_v143 ..).symm))

end Cert.Chain

end
-- ==== Proof.LibNary3Result.lean ====
/-
  A host operation over a LITERAL family of THREE operand buffers (a three-way concatenate), read at
  its own result buffer: its function of each operand's contents at that operand's own reference —
  the three-operand form of the library's `nary4_result` / `nary4_result'` — and the one-pass reading
  of a line of host operations (`after_results_simp3`) that uses it, so that the operands' contents under
  the family go on being rewritten to what the earlier operations left there.
-/
import Idealize.ShloMosaic.Lib.StableHlo.Run

namespace Idealize.ShloMosaic.StableHlo

open Idealize.ShloMosaic Idealize.SL.Sem

variable {τ : Topo} {sig : RefSig} {Val : EltTy → Type} {x a b y : Ref sig .tc}

/-- `nary` over three literal references: the result is the operation's function of the three operands'
    contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A line of host operations read at a buffer in one `simp` pass, a three-operand operation by `nary3_result'`. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefStretch.lean ====
/-
  The reference's host program cut into nine stretches (the degree factor and the first projection; each layer's
  sum over the neighbours; each layer's closing and the next projection; the joining of the three layers' outputs and the dense layer over
  them; the per-graph sum, the last dense layer and the log-softmax), each read from ANY contents `Wv` of the
  buffers it starts from: once its operands hold their stage values, so do its results.
-/
import proofs.«139152_j41120016892602_1_alg».proof.Proof.RefRunBase
import proofs.«139152_j41120016892602_1_alg».proof.Proof.RefRead
import proofs.«139152_j41120016892602_1_alg».proof.Proof.LibNary3Result

set_option maxRecDepth 16384

noncomputable section

namespace Cert.RefStretch

open Cert.ReferenceIdeal Cert.ReferenceIdeal.Gen Idealize.ShloMosaic Idealize.ShloMosaic.TcCoe Idealize.SL.Sem Idealize.ShloMosaic.StableHlo

section Ops
variable {F : FTy → Type} [FloatOps F]

/-- Operations 0 to 16 of the reference's @main. -/
abbrev ops1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x40000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v9 main_v10 main_v11 (Host.powf : (⟨S100000, .f32⟩ : BufTy).Contents (Elt F) → (⟨S100000, .f32⟩ : BufTy).Contents (Elt F) → (⟨S100000, .f32⟩ : BufTy).Contents (Elt F)),
    binary main_arg0 main_arg3 main_v12 ((fun l r => Host.dotGeneral dot_S100000x37_S37x32_S100000x32_1_0_0_1_n_n none l r) : (⟨S100000x37, .f32⟩ : BufTy).Contents (Elt F) → (⟨S37x32, .f32⟩ : BufTy).Contents (Elt F) → (⟨S100000x32, .f32⟩ : BufTy).Contents (Elt F)) ]

/-- Operations 17 to 51 of the reference's @main. -/
abbrev ops2 : List (HloOp τ sig (Elt F)) :=
  [ nullary main_c (constantI S_ 32 0#32),
    unary main_c main_v13 (broadcastInDim S3200000 ![] bcast_S_S3200000 : (⟨S_, .i32⟩ : BufTy).Contents (Elt F) → (⟨S3200000, .i32⟩ : BufTy).Contents (Elt F)),
    binary main_v1 main_v13 main_v14 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v15 (broadcastInDim S3200000 ![] bcast_S_S3200000 : (⟨S_, .i32⟩ : BufTy).Contents (Elt F) → (⟨S3200000, .i32⟩ : BufTy).Contents (Elt F)),
    binary main_v1 main_v15 main_v16 (addi : (⟨S3200000, .i32⟩ : BufTy).Contents (Elt F) → (⟨S3200000, .i32⟩ : BufTy).Contents (Elt F) → (⟨S3200000, .i32⟩ : BufTy).Contents (Elt F)),
    ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v17 main_v18 (broadcastInDim S3200000x1 ![0] bcast_S3200000_S3200000x1_0 : (⟨S3200000, .i32⟩ : BufTy).Contents (Elt F) → (⟨S3200000x1, .i32⟩ : BufTy).Contents (Elt F)),
    binary main_v11 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_4 (constantI S_ 32 0#32),
    unary main_c_4 main_v20 (broadcastInDim S3200000 ![] bcast_S_S3200000 : (⟨S_, .i32⟩ : BufTy).Contents (Elt F) → (⟨S3200000, .i32⟩ : BufTy).Contents (Elt F)),
    binary main_v3 main_v20 main_v21 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v22 (broadcastInDim S3200000 ![] bcast_S_S3200000 : (⟨S_, .i32⟩ : BufTy).Contents (Elt F) → (⟨S3200000, .i32⟩ : BufTy).Contents (Elt F)),
    binary main_v3 main_v22 main_v23 (addi : (⟨S3200000, .i32⟩ : BufTy).Contents (Elt F) → (⟨S3200000, .i32⟩ : BufTy).Contents (Elt F) → (⟨S3200000, .i32⟩ : BufTy).Contents (Elt F)),
    ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v24 main_v25 (broadcastInDim S3200000x1 ![0] bcast_S3200000_S3200000x1_0 : (⟨S3200000, .i32⟩ : BufTy).Contents (Elt F) → (⟨S3200000x1, .i32⟩ : BufTy).Contents (Elt F)),
    binary main_v11 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v19 main_v26 main_v27 (mulf : (⟨S3200000, .f32⟩ : BufTy).Contents (Elt F) → (⟨S3200000, .f32⟩ : BufTy).Contents (Elt F) → (⟨S3200000, .f32⟩ : BufTy).Contents (Elt F)),
    nullary main_c_6 (constantI S_ 32 0#32),
    unary main_c_6 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_7 (constantI S_ 32 100000#32),
    unary main_c_7 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v12 main_v33 main_v34 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v27 main_v35 (broadcastInDim S3200000x1 ![0] bcast_S3200000_S3200000x1_0 : (⟨S3200000, .f32⟩ : BufTy).Contents (Elt F) → (⟨S3200000x1, .f32⟩ : BufTy).Contents (Elt F)),
    unary main_v35 main_v36 (broadcastInDim S3200000x32 ![0, 1] bcast_S3200000x1_S3200000x32_0_1 : (⟨S3200000x1, .f32⟩ : BufTy).Contents (Elt F) → (⟨S3200000x32, .f32⟩ : BufTy).Contents (Elt F)),
    binary main_v34 main_v36 main_v37 (mulf : (⟨S3200000x32, .f32⟩ : BufTy).Contents (Elt F) → (⟨S3200000x32, .f32⟩ : BufTy).Contents (Elt F) → (⟨S3200000x32, .f32⟩ : BufTy).Contents (Elt F)),
    nullary main_cst_8 (constant S_ .f32 0x00000000#32),
    unary main_cst_8 main_v38 (broadcastInDim S100000x32 ![] bcast_S_S100000x32 : (⟨S_, .f32⟩ : BufTy).Contents (Elt F) → (⟨S100000x32, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 52 to 66 of the reference's @main. -/
abbrev ops3 : List (HloOp τ sig (Elt F)) :=
  [ nullary main_cst_9 (constant S_ .f32 0x40000000#32),
    unary main_cst_9 main_v41 (broadcastInDim S100000 ![] bcast_S_S100000 : (⟨S_, .f32⟩ : BufTy).Contents (Elt F) → (⟨S100000, .f32⟩ : BufTy).Contents (Elt F)),
    binary main_v41 main_v11 main_v42 (mulf : (⟨S100000, .f32⟩ : BufTy).Contents (Elt F) → (⟨S100000, .f32⟩ : BufTy).Contents (Elt F) → (⟨S100000, .f32⟩ : BufTy).Contents (Elt F)),
    binary main_v42 main_v11 main_v43 (mulf : (⟨S100000, .f32⟩ : BufTy).Contents (Elt F) → (⟨S100000, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x32 ![0, 1] bcast_S100000x1_S100000x32_0_1 : (⟨S100000x1, .f32⟩ : BufTy).Contents (Elt F) → (⟨S100000x32, .f32⟩ : BufTy).Contents (Elt F)),
    binary main_v45 main_v12 main_v46 (mulf : (⟨S100000x32, .f32⟩ : BufTy).Contents (Elt F) → (⟨S100000x32, .f32⟩ : BufTy).Contents (Elt F) → (⟨S100000x32, .f32⟩ : BufTy).Contents (Elt F)),
    binary main_v40 main_v46 main_v47 (addf : (⟨S100000x32, .f32⟩ : BufTy).Contents (Elt F) → (⟨S100000x32, .f32⟩ : BufTy).Contents (Elt F) → (⟨S100000x32, .f32⟩ : BufTy).Contents (Elt F)),
    unary main_arg4 main_v48 (broadcastInDim S1x32 ![1] bcast_S32_S1x32_1 : (⟨S32, .f32⟩ : BufTy).Contents (Elt F) → (⟨S1x32, .f32⟩ : BufTy).Contents (Elt F)),
    unary main_v48 main_v49 (broadcastInDim S100000x32 ![0, 1] bcast_S1x32_S100000x32_0_1 : (⟨S1x32, .f32⟩ : BufTy).Contents (Elt F) → (⟨S100000x32, .f32⟩ : BufTy).Contents (Elt F)),
    binary main_v47 main_v49 main_v50 (addf : (⟨S100000x32, .f32⟩ : BufTy).Contents (Elt F) → (⟨S100000x32, .f32⟩ : BufTy).Contents (Elt F) → (⟨S100000x32, .f32⟩ : BufTy).Contents (Elt F)),
    nullary main_call0_cst ((constant S_ .f32 0x00000000#32) : (⟨S_, .f32⟩ : BufTy).Contents (Elt F)),
    unary main_call0_cst main_call0_v0 (((broadcastInDim S100000x32 ![] bcast_S_S100000x32)) : (⟨S_, .f32⟩ : BufTy).Contents (Elt F) → (⟨S100000x32, .f32⟩ : BufTy).Contents (Elt F)),
    binary main_v50 main_call0_v0 main_v51 ((maximumf) : (⟨S100000x32, .f32⟩ : BufTy).Contents (Elt F) → (⟨S100000x32, .f32⟩ : BufTy).Contents (Elt F) → (⟨S100000x32, .f32⟩ : BufTy).Contents (Elt F)),
    binary main_v51 main_arg5 main_v52 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Operations 67 to 101 of the reference's @main. -/
abbrev ops4 : List (HloOp τ sig (Elt F)) :=
  [ nullary main_c_10 (constantI S_ 32 0#32),
    unary main_c_10 main_v53 (broadcastInDim S3200000 ![] bcast_S_S3200000 : (⟨S_, .i32⟩ : BufTy).Contents (Elt F) → (⟨S3200000, .i32⟩ : BufTy).Contents (Elt F)),
    binary main_v1 main_v53 main_v54 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v55 (broadcastInDim S3200000 ![] bcast_S_S3200000 : (⟨S_, .i32⟩ : BufTy).Contents (Elt F) → (⟨S3200000, .i32⟩ : BufTy).Contents (Elt F)),
    binary main_v1 main_v55 main_v56 (addi : (⟨S3200000, .i32⟩ : BufTy).Contents (Elt F) → (⟨S3200000, .i32⟩ : BufTy).Contents (Elt F) → (⟨S3200000, .i32⟩ : BufTy).Contents (Elt F)),
    ternary main_v54 main_v56 main_v1 main_v57 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v57 main_v58 (broadcastInDim S3200000x1 ![0] bcast_S3200000_S3200000x1_0 : (⟨S3200000, .i32⟩ : BufTy).Contents (Elt F) → (⟨S3200000x1, .i32⟩ : BufTy).Contents (Elt F)),
    binary main_v11 main_v58 main_v59 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_12 (constantI S_ 32 0#32),
    unary main_c_12 main_v60 (broadcastInDim S3200000 ![] bcast_S_S3200000 : (⟨S_, .i32⟩ : BufTy).Contents (Elt F) → (⟨S3200000, .i32⟩ : BufTy).Contents (Elt F)),
    binary main_v3 main_v60 main_v61 (cmpi .slt : (⟨S3200000, .i32⟩ : BufTy).Contents (Elt F) → (⟨S3200000, .i32⟩ : BufTy).Contents (Elt F) → (⟨S3200000, .i1⟩ : BufTy).Contents (Elt F)),
    nullary main_c_13 (constantI S_ 32 100000#32),
    unary main_c_13 main_v62 (broadcastInDim S3200000 ![] bcast_S_S3200000 : (⟨S_, .i32⟩ : BufTy).Contents (Elt F) → (⟨S3200000, .i32⟩ : BufTy).Contents (Elt F)),
    binary main_v3 main_v62 main_v63 (addi : (⟨S3200000, .i32⟩ : BufTy).Contents (Elt F) → (⟨S3200000, .i32⟩ : BufTy).Contents (Elt F) → (⟨S3200000, .i32⟩ : BufTy).Contents (Elt F)),
    ternary main_v61 main_v63 main_v3 main_v64 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v64 main_v65 (broadcastInDim S3200000x1 ![0] bcast_S3200000_S3200000x1_0 : (⟨S3200000, .i32⟩ : BufTy).Contents (Elt F) → (⟨S3200000x1, .i32⟩ : BufTy).Contents (Elt F)),
    binary main_v11 main_v65 main_v66 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v59 main_v66 main_v67 (mulf : (⟨S3200000, .f32⟩ : BufTy).Contents (Elt F) → (⟨S3200000, .f32⟩ : BufTy).Contents (Elt F) → (⟨S3200000, .f32⟩ : BufTy).Contents (Elt F)),
    nullary main_c_14 (constantI S_ 32 0#32),
    unary main_c_14 main_v68 (broadcastInDim S3200000 ![] bcast_S_S3200000 : (⟨S_, .i32⟩ : BufTy).Contents (Elt F) → (⟨S3200000, .i32⟩ : BufTy).Contents (Elt F)),
    binary main_v1 main_v68 main_v69 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v70 (broadcastInDim S3200000 ![] bcast_S_S3200000 : (⟨S_, .i32⟩ : BufTy).Contents (Elt F) → (⟨S3200000, .i32⟩ : BufTy).Contents (Elt F)),
    binary main_v1 main_v70 main_v71 (addi : (⟨S3200000, .i32⟩ : BufTy).Contents (Elt F) → (⟨S3200000, .i32⟩ : BufTy).Contents (Elt F) → (⟨S3200000, .i32⟩ : BufTy).Contents (Elt F)),
    ternary main_v69 main_v71 main_v1 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v72 main_v73 (broadcastInDim S3200000x1 ![0] bcast_S3200000_S3200000x1_0 : (⟨S3200000, .i32⟩ : BufTy).Contents (Elt F) → (⟨S3200000x1, .i32⟩ : BufTy).Contents (Elt F)),
    binary main_v52 main_v73 main_v74 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v67 main_v75 (broadcastInDim S3200000x1 ![0] bcast_S3200000_S3200000x1_0 : (⟨S3200000, .f32⟩ : BufTy).Contents (Elt F) → (⟨S3200000x1, .f32⟩ : BufTy).Contents (Elt F)),
    unary main_v75 main_v76 (broadcastInDim S3200000x32 ![0, 1] bcast_S3200000x1_S3200000x32_0_1 : (⟨S3200000x1, .f32⟩ : BufTy).Contents (Elt F) → (⟨S3200000x32, .f32⟩ : BufTy).Contents (Elt F)),
    binary main_v74 main_v76 main_v77 (mulf : (⟨S3200000x32, .f32⟩ : BufTy).Contents (Elt F) → (⟨S3200000x32, .f32⟩ : BufTy).Contents (Elt F) → (⟨S3200000x32, .f32⟩ : BufTy).Contents (Elt F)),
    nullary main_cst_16 (constant S_ .f32 0x00000000#32),
    unary main_cst_16 main_v78 (broadcastInDim S100000x32 ![] bcast_S_S100000x32 : (⟨S_, .f32⟩ : BufTy).Contents (Elt F) → (⟨S100000x32, .f32⟩ : BufTy).Contents (Elt F)),
    unary main_v3 main_v79 (broadcastInDim S3200000x1 ![0] bcast_S3200000_S3200000x1_0 : (⟨S3200000, .i32⟩ : BufTy).Contents (Elt F) → (⟨S3200000x1, .i32⟩ : BufTy).Contents (Elt F)),
    ternary main_v78 main_v79 main_v77 main_v80 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 102 to 113 of the reference's @main. -/
abbrev ops5 : List (HloOp τ sig (Elt F)) :=
  [ nullary main_cst_17 (constant S_ .f32 0x40000000#32),
    unary main_cst_17 main_v81 (broadcastInDim S100000 ![] bcast_S_S100000 : (⟨S_, .f32⟩ : BufTy).Contents (Elt F) → (⟨S100000, .f32⟩ : BufTy).Contents (Elt F)),
    binary main_v81 main_v11 main_v82 (mulf : (⟨S100000, .f32⟩ : BufTy).Contents (Elt F) → (⟨S100000, .f32⟩ : BufTy).Contents (Elt F) → (⟨S100000, .f32⟩ : BufTy).Contents (Elt F)),
    binary main_v82 main_v11 main_v83 (mulf : (⟨S100000, .f32⟩ : BufTy).Contents (Elt F) → (⟨S100000, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x32 ![0, 1] bcast_S100000x1_S100000x32_0_1 : (⟨S100000x1, .f32⟩ : BufTy).Contents (Elt F) → (⟨S100000x32, .f32⟩ : BufTy).Contents (Elt F)),
    binary main_v85 main_v52 main_v86 (mulf : (⟨S100000x32, .f32⟩ : BufTy).Contents (Elt F) → (⟨S100000x32, .f32⟩ : BufTy).Contents (Elt F) → (⟨S100000x32, .f32⟩ : BufTy).Contents (Elt F)),
    binary main_v80 main_v86 main_v87 (addf : (⟨S100000x32, .f32⟩ : BufTy).Contents (Elt F) → (⟨S100000x32, .f32⟩ : BufTy).Contents (Elt F) → (⟨S100000x32, .f32⟩ : BufTy).Contents (Elt F)),
    unary main_arg6 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    binary main_v90 main_arg7 main_v91 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Operations 114 to 148 of the reference's @main. -/
abbrev ops6 : List (HloOp τ sig (Elt F)) :=
  [ nullary main_c_18 (constantI S_ 32 0#32),
    unary main_c_18 main_v92 (broadcastInDim S3200000 ![] bcast_S_S3200000 : (⟨S_, .i32⟩ : BufTy).Contents (Elt F) → (⟨S3200000, .i32⟩ : BufTy).Contents (Elt F)),
    binary main_v1 main_v92 main_v93 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 100000#32),
    unary main_c_19 main_v94 (broadcastInDim S3200000 ![] bcast_S_S3200000 : (⟨S_, .i32⟩ : BufTy).Contents (Elt F) → (⟨S3200000, .i32⟩ : BufTy).Contents (Elt F)),
    binary main_v1 main_v94 main_v95 (addi : (⟨S3200000, .i32⟩ : BufTy).Contents (Elt F) → (⟨S3200000, .i32⟩ : BufTy).Contents (Elt F) → (⟨S3200000, .i32⟩ : BufTy).Contents (Elt F)),
    ternary main_v93 main_v95 main_v1 main_v96 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v96 main_v97 (broadcastInDim S3200000x1 ![0] bcast_S3200000_S3200000x1_0 : (⟨S3200000, .i32⟩ : BufTy).Contents (Elt F) → (⟨S3200000x1, .i32⟩ : BufTy).Contents (Elt F)),
    binary main_v11 main_v97 main_v98 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_20 (constantI S_ 32 0#32),
    unary main_c_20 main_v99 (broadcastInDim S3200000 ![] bcast_S_S3200000 : (⟨S_, .i32⟩ : BufTy).Contents (Elt F) → (⟨S3200000, .i32⟩ : BufTy).Contents (Elt F)),
    binary main_v3 main_v99 main_v100 (cmpi .slt : (⟨S3200000, .i32⟩ : BufTy).Contents (Elt F) → (⟨S3200000, .i32⟩ : BufTy).Contents (Elt F) → (⟨S3200000, .i1⟩ : BufTy).Contents (Elt F)),
    nullary main_c_21 (constantI S_ 32 100000#32),
    unary main_c_21 main_v101 (broadcastInDim S3200000 ![] bcast_S_S3200000 : (⟨S_, .i32⟩ : BufTy).Contents (Elt F) → (⟨S3200000, .i32⟩ : BufTy).Contents (Elt F)),
    binary main_v3 main_v101 main_v102 (addi : (⟨S3200000, .i32⟩ : BufTy).Contents (Elt F) → (⟨S3200000, .i32⟩ : BufTy).Contents (Elt F) → (⟨S3200000, .i32⟩ : BufTy).Contents (Elt F)),
    ternary main_v100 main_v102 main_v3 main_v103 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v103 main_v104 (broadcastInDim S3200000x1 ![0] bcast_S3200000_S3200000x1_0 : (⟨S3200000, .i32⟩ : BufTy).Contents (Elt F) → (⟨S3200000x1, .i32⟩ : BufTy).Contents (Elt F)),
    binary main_v11 main_v104 main_v105 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v98 main_v105 main_v106 (mulf : (⟨S3200000, .f32⟩ : BufTy).Contents (Elt F) → (⟨S3200000, .f32⟩ : BufTy).Contents (Elt F) → (⟨S3200000, .f32⟩ : BufTy).Contents (Elt F)),
    nullary main_c_22 (constantI S_ 32 0#32),
    unary main_c_22 main_v107 (broadcastInDim S3200000 ![] bcast_S_S3200000 : (⟨S_, .i32⟩ : BufTy).Contents (Elt F) → (⟨S3200000, .i32⟩ : BufTy).Contents (Elt F)),
    binary main_v1 main_v107 main_v108 (cmpi .slt : (⟨S3200000, .i32⟩ : BufTy).Contents (Elt F) → (⟨S3200000, .i32⟩ : BufTy).Contents (Elt F) → (⟨S3200000, .i1⟩ : BufTy).Contents (Elt F)),
    nullary main_c_23 (constantI S_ 32 100000#32),
    unary main_c_23 main_v109 (broadcastInDim S3200000 ![] bcast_S_S3200000 : (⟨S_, .i32⟩ : BufTy).Contents (Elt F) → (⟨S3200000, .i32⟩ : BufTy).Contents (Elt F)),
    binary main_v1 main_v109 main_v110 (addi : (⟨S3200000, .i32⟩ : BufTy).Contents (Elt F) → (⟨S3200000, .i32⟩ : BufTy).Contents (Elt F) → (⟨S3200000, .i32⟩ : BufTy).Contents (Elt F)),
    ternary main_v108 main_v110 main_v1 main_v111 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v111 main_v112 (broadcastInDim S3200000x1 ![0] bcast_S3200000_S3200000x1_0 : (⟨S3200000, .i32⟩ : BufTy).Contents (Elt F) → (⟨S3200000x1, .i32⟩ : BufTy).Contents (Elt F)),
    binary main_v91 main_v112 main_v113 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v106 main_v114 (broadcastInDim S3200000x1 ![0] bcast_S3200000_S3200000x1_0 : (⟨S3200000, .f32⟩ : BufTy).Contents (Elt F) → (⟨S3200000x1, .f32⟩ : BufTy).Contents (Elt F)),
    unary main_v114 main_v115 (broadcastInDim S3200000x32 ![0, 1] bcast_S3200000x1_S3200000x32_0_1 : (⟨S3200000x1, .f32⟩ : BufTy).Contents (Elt F) → (⟨S3200000x32, .f32⟩ : BufTy).Contents (Elt F)),
    binary main_v113 main_v115 main_v116 (mulf : (⟨S3200000x32, .f32⟩ : BufTy).Contents (Elt F) → (⟨S3200000x32, .f32⟩ : BufTy).Contents (Elt F) → (⟨S3200000x32, .f32⟩ : BufTy).Contents (Elt F)),
    nullary main_cst_24 (constant S_ .f32 0x00000000#32),
    unary main_cst_24 main_v117 (broadcastInDim S100000x32 ![] bcast_S_S100000x32 : (⟨S_, .f32⟩ : BufTy).Contents (Elt F) → (⟨S100000x32, .f32⟩ : BufTy).Contents (Elt F)),
    unary main_v3 main_v118 (broadcastInDim S3200000x1 ![0] bcast_S3200000_S3200000x1_0 : (⟨S3200000, .i32⟩ : BufTy).Contents (Elt F) → (⟨S3200000x1, .i32⟩ : BufTy).Contents (Elt F)),
    ternary main_v117 main_v118 main_v116 main_v119 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 149 to 159 of the reference's @main. -/
abbrev ops7 : List (HloOp τ sig (Elt F)) :=
  [ nullary main_cst_25 (constant S_ .f32 0x40000000#32),
    unary main_cst_25 main_v120 (broadcastInDim S100000 ![] bcast_S_S100000 : (⟨S_, .f32⟩ : BufTy).Contents (Elt F) → (⟨S100000, .f32⟩ : BufTy).Contents (Elt F)),
    binary main_v120 main_v11 main_v121 (mulf : (⟨S100000, .f32⟩ : BufTy).Contents (Elt F) → (⟨S100000, .f32⟩ : BufTy).Contents (Elt F) → (⟨S100000, .f32⟩ : BufTy).Contents (Elt F)),
    binary main_v121 main_v11 main_v122 (mulf : (⟨S100000, .f32⟩ : BufTy).Contents (Elt F) → (⟨S100000, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x32 ![0, 1] bcast_S100000x1_S100000x32_0_1 : (⟨S100000x1, .f32⟩ : BufTy).Contents (Elt F) → (⟨S100000x32, .f32⟩ : BufTy).Contents (Elt F)),
    binary main_v124 main_v91 main_v125 (mulf : (⟨S100000x32, .f32⟩ : BufTy).Contents (Elt F) → (⟨S100000x32, .f32⟩ : BufTy).Contents (Elt F) → (⟨S100000x32, .f32⟩ : BufTy).Contents (Elt F)),
    binary main_v119 main_v125 main_v126 (addf : (⟨S100000x32, .f32⟩ : BufTy).Contents (Elt F) → (⟨S100000x32, .f32⟩ : BufTy).Contents (Elt F) → (⟨S100000x32, .f32⟩ : BufTy).Contents (Elt F)),
    unary main_arg8 main_v127 (broadcastInDim S1x32 ![1] bcast_S32_S1x32_1 : (⟨S32, .f32⟩ : BufTy).Contents (Elt F) → (⟨S1x32, .f32⟩ : BufTy).Contents (Elt F)),
    unary main_v127 main_v128 (broadcastInDim S100000x32 ![0, 1] bcast_S1x32_S100000x32_0_1 : (⟨S1x32, .f32⟩ : BufTy).Contents (Elt F) → (⟨S100000x32, .f32⟩ : BufTy).Contents (Elt F)),
    binary main_v126 main_v128 main_v129 (addf : (⟨S100000x32, .f32⟩ : BufTy).Contents (Elt F) → (⟨S100000x32, .f32⟩ : BufTy).Contents (Elt F) → (⟨S100000x32, .f32⟩ : BufTy).Contents (Elt F)) ]

/-- Operations 160 to 167 of the reference's @main. -/
abbrev ops8 : List (HloOp τ sig (Elt F)) :=
  [ nary ![main_v51, main_v90, main_v129] main_v130 (fun u => concatenate S100000x96 1 [⟨S100000x32, u 0⟩, ⟨S100000x32, u 1⟩, ⟨S100000x32, u 2⟩] concatenates_S100000x32_S100000x32_S100000x32_S100000x96_d1),
    binary main_v130 main_arg9 main_v131 ((fun l r => Host.dotGeneral dot_S100000x96_S96x128_S100000x128_1_0_0_1_n_n none l r) : (⟨S100000x96, .f32⟩ : BufTy).Contents (Elt F) → (⟨S96x128, .f32⟩ : BufTy).Contents (Elt F) → (⟨S100000x128, .f32⟩ : BufTy).Contents (Elt F)),
    unary main_arg10 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)),
    nullary main_call1_cst ((constant S_ .f32 0x00000000#32) : (⟨S_, .f32⟩ : BufTy).Contents (Elt F)),
    unary main_call1_cst main_call1_v0 (((broadcastInDim S100000x128 ![] bcast_S_S100000x128)) : (⟨S_, .f32⟩ : BufTy).Contents (Elt F) → (⟨S100000x128, .f32⟩ : BufTy).Contents (Elt F)),
    binary main_v134 main_call1_v0 main_v135 ((maximumf) : (⟨S100000x128, .f32⟩ : BufTy).Contents (Elt F) → (⟨S100000x128, .f32⟩ : BufTy).Contents (Elt F) → (⟨S100000x128, .f32⟩ : BufTy).Contents (Elt F)) ]

/-- Operations 168 to 190 of the reference's @main. -/
abbrev ops9 : List (HloOp τ sig (Elt F)) :=
  [ nullary main_cst_26 (constant S_ .f32 0x00000000#32),
    unary main_cst_26 main_v136 (broadcastInDim S2000x128 ![] bcast_S_S2000x128 : (⟨S_, .f32⟩ : BufTy).Contents (Elt F) → (⟨S2000x128, .f32⟩ : BufTy).Contents (Elt F)),
    unary main_arg2 main_v137 (broadcastInDim S100000x1 ![0] bcast_S100000_S100000x1_0 : (⟨S100000, .i32⟩ : BufTy).Contents (Elt F) → (⟨S100000x1, .i32⟩ : BufTy).Contents (Elt F)),
    ternary main_v136 main_v137 main_v135 main_v138 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    binary main_v138 main_arg11 main_v139 ((fun l r => Host.dotGeneral dot_S2000x128_S128x2_S2000x2_1_0_0_1_n_n none l r) : (⟨S2000x128, .f32⟩ : BufTy).Contents (Elt F) → (⟨S128x2, .f32⟩ : BufTy).Contents (Elt F) → (⟨S2000x2, .f32⟩ : BufTy).Contents (Elt F)),
    unary main_arg12 main_v140 (broadcastInDim S1x2 ![1] bcast_S2_S1x2_1 : (⟨S2, .f32⟩ : BufTy).Contents (Elt F) → (⟨S1x2, .f32⟩ : BufTy).Contents (Elt F)),
    unary main_v140 main_v141 (broadcastInDim S2000x2 ![0, 1] bcast_S1x2_S2000x2_0_1 : (⟨S1x2, .f32⟩ : BufTy).Contents (Elt F) → (⟨S2000x2, .f32⟩ : BufTy).Contents (Elt F)),
    binary main_v139 main_v141 main_v142 (addf : (⟨S2000x2, .f32⟩ : BufTy).Contents (Elt F) → (⟨S2000x2, .f32⟩ : BufTy).Contents (Elt F) → (⟨S2000x2, .f32⟩ : BufTy).Contents (Elt F)),
    nullary main_call2_cst ((constant S_ .f32 0xFF800000#32) : (⟨S_, .f32⟩ : BufTy).Contents (Elt F)),
    binary main_v142 main_call2_cst main_call2_v0 (((fun x v => Host.reduce FloatOps.maximumf x v reducesTo_S2000x2_S2000_d1 h_S_)) : (⟨S2000x2, .f32⟩ : BufTy).Contents (Elt F) → (⟨S_, .f32⟩ : BufTy).Contents (Elt F) → (⟨S2000, .f32⟩ : BufTy).Contents (Elt F)),
    nullary main_call2_cst_0 ((constant S_ .f32 0xFF800000#32) : (⟨S_, .f32⟩ : BufTy).Contents (Elt F)),
    unary main_call2_cst_0 main_call2_v1 (((broadcastInDim S2000 ![] bcast_S_S2000)) : (⟨S_, .f32⟩ : BufTy).Contents (Elt F) → (⟨S2000, .f32⟩ : BufTy).Contents (Elt F)),
    binary main_call2_v1 main_call2_v0 main_call2_v2 ((maximumf) : (⟨S2000, .f32⟩ : BufTy).Contents (Elt F) → (⟨S2000, .f32⟩ : BufTy).Contents (Elt F) → (⟨S2000, .f32⟩ : BufTy).Contents (Elt F)),
    unary main_call2_v2 main_call2_v3 (((broadcastInDim S2000x1 ![0] bcast_S2000_S2000x1_0)) : (⟨S2000, .f32⟩ : BufTy).Contents (Elt F) → (⟨S2000x1, .f32⟩ : BufTy).Contents (Elt F)),
    unary main_call2_v3 main_call2_v4 (((broadcastInDim S2000x2 ![0, 1] bcast_S2000x1_S2000x2_0_1)) : (⟨S2000x1, .f32⟩ : BufTy).Contents (Elt F) → (⟨S2000x2, .f32⟩ : BufTy).Contents (Elt F)),
    binary main_v142 main_call2_v4 main_call2_v5 ((subf) : (⟨S2000x2, .f32⟩ : BufTy).Contents (Elt F) → (⟨S2000x2, .f32⟩ : BufTy).Contents (Elt F) → (⟨S2000x2, .f32⟩ : BufTy).Contents (Elt F)),
    unary main_call2_v5 main_call2_v6 ((Host.exp) : (⟨S2000x2, .f32⟩ : BufTy).Contents (Elt F) → (⟨S2000x2, .f32⟩ : BufTy).Contents (Elt F)),
    nullary main_call2_cst_1 ((constant S_ .f32 0x00000000#32) : (⟨S_, .f32⟩ : BufTy).Contents (Elt F)),
    binary main_call2_v6 main_call2_cst_1 main_call2_v7 (((fun x v => Host.reduceAdd x v reducesTo_S2000x2_S2000_d1 h_S_)) : (⟨S2000x2, .f32⟩ : BufTy).Contents (Elt F) → (⟨S_, .f32⟩ : BufTy).Contents (Elt F) → (⟨S2000, .f32⟩ : BufTy).Contents (Elt F)),
    unary main_call2_v7 main_call2_v8 (((broadcastInDim S2000x1 ![0] bcast_S2000_S2000x1_0)) : (⟨S2000, .f32⟩ : BufTy).Contents (Elt F) → (⟨S2000x1, .f32⟩ : BufTy).Contents (Elt F)),
    unary main_call2_v8 main_call2_v9 ((Host.log) : (⟨S2000x1, .f32⟩ : BufTy).Contents (Elt F) → (⟨S2000x1, .f32⟩ : BufTy).Contents (Elt F)),
    unary main_call2_v9 main_call2_v10 (((broadcastInDim S2000x2 ![0, 1] bcast_S2000x1_S2000x2_0_1)) : (⟨S2000x1, .f32⟩ : BufTy).Contents (Elt F) → (⟨S2000x2, .f32⟩ : BufTy).Contents (Elt F)),
    binary main_call2_v5 main_call2_v10 main_v143 ((subf) : (⟨S2000x2, .f32⟩ : BufTy).Contents (Elt F) → (⟨S2000x2, .f32⟩ : BufTy).Contents (Elt F) → (⟨S2000x2, .f32⟩ : BufTy).Contents (Elt F)) ]

/-- The program's operation list is the nine stretches in order. -/
theorem ops_split : (Cert.ReferenceIdeal.Value.ops : List (HloOp τ sig (Elt F))) = ops1 ++ (ops2 ++ (ops3 ++ (ops4 ++ (ops5 ++ (ops6 ++ (ops7 ++ (ops8 ++ ops9))))))) := rfl

end Ops

variable (Wv : Valuation τ sig (Elt Ideal))
variable (a0 : (⟨S100000x37, .f32⟩ : BufTy).Contents (Elt Ideal))
  (a1 : (⟨S2x3200000, .i32⟩ : BufTy).Contents (Elt Ideal))
  (a2 : (⟨S100000, .i32⟩ : BufTy).Contents (Elt Ideal))
  (a3 : (⟨S37x32, .f32⟩ : BufTy).Contents (Elt Ideal))
  (a4 : (⟨S32, .f32⟩ : BufTy).Contents (Elt Ideal))
  (a5 : (⟨S32x32, .f32⟩ : BufTy).Contents (Elt Ideal))
  (a6 : (⟨S32, .f32⟩ : BufTy).Contents (Elt Ideal))
  (a7 : (⟨S32x32, .f32⟩ : BufTy).Contents (Elt Ideal))
  (a8 : (⟨S32, .f32⟩ : BufTy).Contents (Elt Ideal))
  (a9 : (⟨S96x128, .f32⟩ : BufTy).Contents (Elt Ideal))
  (a10 : (⟨S128, .f32⟩ : BufTy).Contents (Elt Ideal))
  (a11 : (⟨S128x2, .f32⟩ : BufTy).Contents (Elt Ideal))
  (a12 : (⟨S2, .f32⟩ : BufTy).Contents (Elt Ideal))

theorem s1_v1 (e_arg1 : Wv (Proc.devRef .tc main_arg1) = a1) :
    after (ops1 (F := Ideal)) Wv (Proc.devRef .tc main_v1) = Cert.ReferenceIdeal.Read.val_main_v1 (F := Ideal) a1 := by
  after_results_simp; rw [e_arg1]; rfl
theorem s1_v3 (e_arg1 : Wv (Proc.devRef .tc main_arg1) = a1) :
    after (ops1 (F := Ideal)) Wv (Proc.devRef .tc main_v3) = Cert.ReferenceIdeal.Read.val_main_v3 (F := Ideal) a1 := by
  after_results_simp; rw [e_arg1]; rfl
theorem s1_v11 (e_arg1 : Wv (Proc.devRef .tc main_arg1) = a1) :
    after (ops1 (F := Ideal)) Wv (Proc.devRef .tc main_v11) = Cert.ReferenceIdeal.Read.val_main_v11 (F := Ideal) a1 := by
  after_results_simp; rw [e_arg1]; rfl
theorem s1_v12 (e_arg0 : Wv (Proc.devRef .tc main_arg0) = a0) (e_arg3 : Wv (Proc.devRef .tc main_arg3) = a3) :
    after (ops1 (F := Ideal)) Wv (Proc.devRef .tc main_v12) = Cert.ReferenceIdeal.Read.val_main_v12 (F := Ideal) a0 a3 := by
  after_results_simp; rw [e_arg0, e_arg3]; rfl
theorem s2_v40 (e_v1 : Wv (Proc.devRef .tc main_v1) = Cert.ReferenceIdeal.Read.val_main_v1 (F := Ideal) a1) (e_v3 : Wv (Proc.devRef .tc main_v3) = Cert.ReferenceIdeal.Read.val_main_v3 (F := Ideal) a1) (e_v11 : Wv (Proc.devRef .tc main_v11) = Cert.ReferenceIdeal.Read.val_main_v11 (F := Ideal) a1) (e_v12 : Wv (Proc.devRef .tc main_v12) = Cert.ReferenceIdeal.Read.val_main_v12 (F := Ideal) a0 a3) :
    after (ops2 (F := Ideal)) Wv (Proc.devRef .tc main_v40) = Cert.ReferenceIdeal.Read.val_main_v40 (F := Ideal) a0 a1 a3 := by
  after_results_simp; rw [e_v1, e_v3, e_v11, e_v12]; rfl
theorem s3_v51 (e_v40 : Wv (Proc.devRef .tc main_v40) = Cert.ReferenceIdeal.Read.val_main_v40 (F := Ideal) a0 a1 a3) (e_v11 : Wv (Proc.devRef .tc main_v11) = Cert.ReferenceIdeal.Read.val_main_v11 (F := Ideal) a1) (e_v12 : Wv (Proc.devRef .tc main_v12) = Cert.ReferenceIdeal.Read.val_main_v12 (F := Ideal) a0 a3) (e_arg4 : Wv (Proc.devRef .tc main_arg4) = a4) :
    after (ops3 (F := Ideal)) Wv (Proc.devRef .tc main_v51) = Cert.ReferenceIdeal.Read.val_main_v51 (F := Ideal) a0 a1 a3 a4 := by
  after_results_simp; rw [e_v40, e_v11, e_v12, e_arg4]; rfl
theorem s3_v52 (e_v40 : Wv (Proc.devRef .tc main_v40) = Cert.ReferenceIdeal.Read.val_main_v40 (F := Ideal) a0 a1 a3) (e_v11 : Wv (Proc.devRef .tc main_v11) = Cert.ReferenceIdeal.Read.val_main_v11 (F := Ideal) a1) (e_v12 : Wv (Proc.devRef .tc main_v12) = Cert.ReferenceIdeal.Read.val_main_v12 (F := Ideal) a0 a3) (e_arg4 : Wv (Proc.devRef .tc main_arg4) = a4) (e_arg5 : Wv (Proc.devRef .tc main_arg5) = a5) :
    after (ops3 (F := Ideal)) Wv (Proc.devRef .tc main_v52) = Cert.ReferenceIdeal.Read.val_main_v52 (F := Ideal) a0 a1 a3 a4 a5 := by
  after_results_simp; rw [e_v40, e_v11, e_v12, e_arg4, e_arg5]; rfl
theorem s4_v80 (e_v1 : Wv (Proc.devRef .tc main_v1) = Cert.ReferenceIdeal.Read.val_main_v1 (F := Ideal) a1) (e_v3 : Wv (Proc.devRef .tc main_v3) = Cert.ReferenceIdeal.Read.val_main_v3 (F := Ideal) a1) (e_v11 : Wv (Proc.devRef .tc main_v11) = Cert.ReferenceIdeal.Read.val_main_v11 (F := Ideal) a1) (e_v52 : Wv (Proc.devRef .tc main_v52) = Cert.ReferenceIdeal.Read.val_main_v52 (F := Ideal) a0 a1 a3 a4 a5) :
    after (ops4 (F := Ideal)) Wv (Proc.devRef .tc main_v80) = Cert.ReferenceIdeal.Read.val_main_v80 (F := Ideal) a0 a1 a3 a4 a5 := by
  after_results_simp; rw [e_v1, e_v3, e_v11, e_v52]; rfl
theorem s5_v90 (e_v80 : Wv (Proc.devRef .tc main_v80) = Cert.ReferenceIdeal.Read.val_main_v80 (F := Ideal) a0 a1 a3 a4 a5) (e_v11 : Wv (Proc.devRef .tc main_v11) = Cert.ReferenceIdeal.Read.val_main_v11 (F := Ideal) a1) (e_v52 : Wv (Proc.devRef .tc main_v52) = Cert.ReferenceIdeal.Read.val_main_v52 (F := Ideal) a0 a1 a3 a4 a5) (e_arg6 : Wv (Proc.devRef .tc main_arg6) = a6) :
    after (ops5 (F := Ideal)) Wv (Proc.devRef .tc main_v90) = Cert.ReferenceIdeal.Read.val_main_v90 (F := Ideal) a0 a1 a3 a4 a5 a6 := by
  after_results_simp; rw [e_v80, e_v11, e_v52, e_arg6]; rfl
theorem s5_v91 (e_v80 : Wv (Proc.devRef .tc main_v80) = Cert.ReferenceIdeal.Read.val_main_v80 (F := Ideal) a0 a1 a3 a4 a5) (e_v11 : Wv (Proc.devRef .tc main_v11) = Cert.ReferenceIdeal.Read.val_main_v11 (F := Ideal) a1) (e_v52 : Wv (Proc.devRef .tc main_v52) = Cert.ReferenceIdeal.Read.val_main_v52 (F := Ideal) a0 a1 a3 a4 a5) (e_arg6 : Wv (Proc.devRef .tc main_arg6) = a6) (e_arg7 : Wv (Proc.devRef .tc main_arg7) = a7) :
    after (ops5 (F := Ideal)) Wv (Proc.devRef .tc main_v91) = Cert.ReferenceIdeal.Read.val_main_v91 (F := Ideal) a0 a1 a3 a4 a5 a6 a7 := by
  after_results_simp; rw [e_v80, e_v11, e_v52, e_arg6, e_arg7]; rfl
theorem s6_v119 (e_v1 : Wv (Proc.devRef .tc main_v1) = Cert.ReferenceIdeal.Read.val_main_v1 (F := Ideal) a1) (e_v3 : Wv (Proc.devRef .tc main_v3) = Cert.ReferenceIdeal.Read.val_main_v3 (F := Ideal) a1) (e_v11 : Wv (Proc.devRef .tc main_v11) = Cert.ReferenceIdeal.Read.val_main_v11 (F := Ideal) a1) (e_v91 : Wv (Proc.devRef .tc main_v91) = Cert.ReferenceIdeal.Read.val_main_v91 (F := Ideal) a0 a1 a3 a4 a5 a6 a7) :
    after (ops6 (F := Ideal)) Wv (Proc.devRef .tc main_v119) = Cert.ReferenceIdeal.Read.val_main_v119 (F := Ideal) a0 a1 a3 a4 a5 a6 a7 := by
  after_results_simp; rw [e_v1, e_v3, e_v11, e_v91]; rfl
theorem s7_v129 (e_v119 : Wv (Proc.devRef .tc main_v119) = Cert.ReferenceIdeal.Read.val_main_v119 (F := Ideal) a0 a1 a3 a4 a5 a6 a7) (e_v11 : Wv (Proc.devRef .tc main_v11) = Cert.ReferenceIdeal.Read.val_main_v11 (F := Ideal) a1) (e_v91 : Wv (Proc.devRef .tc main_v91) = Cert.ReferenceIdeal.Read.val_main_v91 (F := Ideal) a0 a1 a3 a4 a5 a6 a7) (e_arg8 : Wv (Proc.devRef .tc main_arg8) = a8) :
    after (ops7 (F := Ideal)) Wv (Proc.devRef .tc main_v129) = Cert.ReferenceIdeal.Read.val_main_v129 (F := Ideal) a0 a1 a3 a4 a5 a6 a7 a8 := by
  after_results_simp; rw [e_v119, e_v11, e_v91, e_arg8]; rfl
theorem s8_v135 (e_v51 : Wv (Proc.devRef .tc main_v51) = Cert.ReferenceIdeal.Read.val_main_v51 (F := Ideal) a0 a1 a3 a4) (e_v90 : Wv (Proc.devRef .tc main_v90) = Cert.ReferenceIdeal.Read.val_main_v90 (F := Ideal) a0 a1 a3 a4 a5 a6) (e_v129 : Wv (Proc.devRef .tc main_v129) = Cert.ReferenceIdeal.Read.val_main_v129 (F := Ideal) a0 a1 a3 a4 a5 a6 a7 a8) (e_arg9 : Wv (Proc.devRef .tc main_arg9) = a9) (e_arg10 : Wv (Proc.devRef .tc main_arg10) = a10) :
    after (ops8 (F := Ideal)) Wv (Proc.devRef .tc main_v135) = Cert.ReferenceIdeal.Read.val_main_v135 (F := Ideal) a0 a1 a3 a4 a5 a6 a7 a8 a9 a10 := by
  after_results_simp3; rw [e_v51, e_v90, e_v129, e_arg9, e_arg10]; rfl
theorem s9_v143 (e_v135 : Wv (Proc.devRef .tc main_v135) = Cert.ReferenceIdeal.Read.val_main_v135 (F := Ideal) a0 a1 a3 a4 a5 a6 a7 a8 a9 a10) (e_arg2 : Wv (Proc.devRef .tc main_arg2) = a2) (e_arg11 : Wv (Proc.devRef .tc main_arg11) = a11) (e_arg12 : Wv (Proc.devRef .tc main_arg12) = a12) :
    after (ops9 (F := Ideal)) Wv (Proc.devRef .tc main_v143) = Cert.ReferenceIdeal.Read.val_main_v143 (F := Ideal) a0 a1 a2 a3 a4 a5 a6 a7 a8 a9 a10 a11 a12 := by
  after_results_simp; rw [e_v135, e_arg2, e_arg11, e_arg12]; rfl

end Cert.RefStretch

end
-- ==== Proof.RefChain.lean ====
/-
  The reference's run read back: from ANY launch contents `V`, after its whole operation list the result buffer
  holds the last stage of the read-at-an-index module at the argument arrays (boundary by boundary over the
  nine stretches: a stretch's result by its own operations, a buffer no operation in between writes kept), and so
  every weakly fair execution of the reference terminates with that result and its arguments unchanged.
-/
import proofs.«139152_j41120016892602_1_alg».proof.Proof.RefStretch

set_option maxRecDepth 16384

noncomputable section

namespace Cert.RefChain

open Cert.ReferenceIdeal Cert.ReferenceIdeal.Gen Idealize.ShloMosaic Idealize.ShloMosaic.TcCoe Idealize.SL.Sem Idealize.ShloMosaic.StableHlo

open Cert.RefStretch

/-- The fold over a concatenation is the fold over the second list from the fold over the first. -/
theorem after_app {Val : EltTy → Type} : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A buffer no operation of a stretch writes keeps its contents through the stretch. -/
macro "stretch_keep" ops:ident : tactic => `(tactic| exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

variable (V : Valuation τ sig (Elt Ideal))

/-- The buffers' contents after the first `k` stretches. -/
abbrev U0 : Valuation τ sig (Elt Ideal) := V
abbrev U1 : Valuation τ sig (Elt Ideal) := after (ops1 (F := Ideal)) (U0 V)
abbrev U2 : Valuation τ sig (Elt Ideal) := after (ops2 (F := Ideal)) (U1 V)
abbrev U3 : Valuation τ sig (Elt Ideal) := after (ops3 (F := Ideal)) (U2 V)
abbrev U4 : Valuation τ sig (Elt Ideal) := after (ops4 (F := Ideal)) (U3 V)
abbrev U5 : Valuation τ sig (Elt Ideal) := after (ops5 (F := Ideal)) (U4 V)
abbrev U6 : Valuation τ sig (Elt Ideal) := after (ops6 (F := Ideal)) (U5 V)
abbrev U7 : Valuation τ sig (Elt Ideal) := after (ops7 (F := Ideal)) (U6 V)
abbrev U8 : Valuation τ sig (Elt Ideal) := after (ops8 (F := Ideal)) (U7 V)
abbrev U9 : Valuation τ sig (Elt Ideal) := after (ops9 (F := Ideal)) (U8 V)

theorem U0_arg0 : U0 V (Proc.devRef .tc main_arg0) = (V (Proc.devRef .tc main_arg0)) := rfl
theorem U0_arg1 : U0 V (Proc.devRef .tc main_arg1) = (V (Proc.devRef .tc main_arg1)) := rfl
theorem U0_arg2 : U0 V (Proc.devRef .tc main_arg2) = (V (Proc.devRef .tc main_arg2)) := rfl
theorem U0_arg3 : U0 V (Proc.devRef .tc main_arg3) = (V (Proc.devRef .tc main_arg3)) := rfl
theorem U0_arg4 : U0 V (Proc.devRef .tc main_arg4) = (V (Proc.devRef .tc main_arg4)) := rfl
theorem U0_arg5 : U0 V (Proc.devRef .tc main_arg5) = (V (Proc.devRef .tc main_arg5)) := rfl
theorem U0_arg6 : U0 V (Proc.devRef .tc main_arg6) = (V (Proc.devRef .tc main_arg6)) := rfl
theorem U0_arg7 : U0 V (Proc.devRef .tc main_arg7) = (V (Proc.devRef .tc main_arg7)) := rfl
theorem U0_arg8 : U0 V (Proc.devRef .tc main_arg8) = (V (Proc.devRef .tc main_arg8)) := rfl
theorem U0_arg9 : U0 V (Proc.devRef .tc main_arg9) = (V (Proc.devRef .tc main_arg9)) := rfl
theorem U0_arg10 : U0 V (Proc.devRef .tc main_arg10) = (V (Proc.devRef .tc main_arg10)) := rfl
theorem U0_arg11 : U0 V (Proc.devRef .tc main_arg11) = (V (Proc.devRef .tc main_arg11)) := rfl
theorem U0_arg12 : U0 V (Proc.devRef .tc main_arg12) = (V (Proc.devRef .tc main_arg12)) := rfl

/-! ## After stretch 1 -/

theorem U1_arg2 : U1 V (Proc.devRef .tc main_arg2) = (V (Proc.devRef .tc main_arg2)) :=
  (show U1 V (Proc.devRef .tc main_arg2) = U0 V (Proc.devRef .tc main_arg2) by stretch_keep ops1).trans (U0_arg2 V)
theorem U1_arg4 : U1 V (Proc.devRef .tc main_arg4) = (V (Proc.devRef .tc main_arg4)) :=
  (show U1 V (Proc.devRef .tc main_arg4) = U0 V (Proc.devRef .tc main_arg4) by stretch_keep ops1).trans (U0_arg4 V)
theorem U1_arg5 : U1 V (Proc.devRef .tc main_arg5) = (V (Proc.devRef .tc main_arg5)) :=
  (show U1 V (Proc.devRef .tc main_arg5) = U0 V (Proc.devRef .tc main_arg5) by stretch_keep ops1).trans (U0_arg5 V)
theorem U1_arg6 : U1 V (Proc.devRef .tc main_arg6) = (V (Proc.devRef .tc main_arg6)) :=
  (show U1 V (Proc.devRef .tc main_arg6) = U0 V (Proc.devRef .tc main_arg6) by stretch_keep ops1).trans (U0_arg6 V)
theorem U1_arg7 : U1 V (Proc.devRef .tc main_arg7) = (V (Proc.devRef .tc main_arg7)) :=
  (show U1 V (Proc.devRef .tc main_arg7) = U0 V (Proc.devRef .tc main_arg7) by stretch_keep ops1).trans (U0_arg7 V)
theorem U1_arg8 : U1 V (Proc.devRef .tc main_arg8) = (V (Proc.devRef .tc main_arg8)) :=
  (show U1 V (Proc.devRef .tc main_arg8) = U0 V (Proc.devRef .tc main_arg8) by stretch_keep ops1).trans (U0_arg8 V)
theorem U1_arg9 : U1 V (Proc.devRef .tc main_arg9) = (V (Proc.devRef .tc main_arg9)) :=
  (show U1 V (Proc.devRef .tc main_arg9) = U0 V (Proc.devRef .tc main_arg9) by stretch_keep ops1).trans (U0_arg9 V)
theorem U1_arg10 : U1 V (Proc.devRef .tc main_arg10) = (V (Proc.devRef .tc main_arg10)) :=
  (show U1 V (Proc.devRef .tc main_arg10) = U0 V (Proc.devRef .tc main_arg10) by stretch_keep ops1).trans (U0_arg10 V)
theorem U1_arg11 : U1 V (Proc.devRef .tc main_arg11) = (V (Proc.devRef .tc main_arg11)) :=
  (show U1 V (Proc.devRef .tc main_arg11) = U0 V (Proc.devRef .tc main_arg11) by stretch_keep ops1).trans (U0_arg11 V)
theorem U1_arg12 : U1 V (Proc.devRef .tc main_arg12) = (V (Proc.devRef .tc main_arg12)) :=
  (show U1 V (Proc.devRef .tc main_arg12) = U0 V (Proc.devRef .tc main_arg12) by stretch_keep ops1).trans (U0_arg12 V)
theorem U1_v1 : U1 V (Proc.devRef .tc main_v1) = Cert.ReferenceIdeal.Read.val_main_v1 (F := Ideal) (V (Proc.devRef .tc main_arg1)) :=
  Cert.RefStretch.s1_v1 (Wv := U0 V) (e_arg1 := U0_arg1 V)
theorem U1_v3 : U1 V (Proc.devRef .tc main_v3) = Cert.ReferenceIdeal.Read.val_main_v3 (F := Ideal) (V (Proc.devRef .tc main_arg1)) :=
  Cert.RefStretch.s1_v3 (Wv := U0 V) (e_arg1 := U0_arg1 V)
theorem U1_v11 : U1 V (Proc.devRef .tc main_v11) = Cert.ReferenceIdeal.Read.val_main_v11 (F := Ideal) (V (Proc.devRef .tc main_arg1)) :=
  Cert.RefStretch.s1_v11 (Wv := U0 V) (e_arg1 := U0_arg1 V)
theorem U1_v12 : U1 V (Proc.devRef .tc main_v12) = Cert.ReferenceIdeal.Read.val_main_v12 (F := Ideal) (V (Proc.devRef .tc main_arg0)) (V (Proc.devRef .tc main_arg3)) :=
  Cert.RefStretch.s1_v12 (Wv := U0 V) (e_arg0 := U0_arg0 V) (e_arg3 := U0_arg3 V)

/-! ## After stretch 2 -/

theorem U2_v1 : U2 V (Proc.devRef .tc main_v1) = Cert.ReferenceIdeal.Read.val_main_v1 (F := Ideal) (V (Proc.devRef .tc main_arg1)) :=
  (show U2 V (Proc.devRef .tc main_v1) = U1 V (Proc.devRef .tc main_v1) by stretch_keep ops2).trans (U1_v1 V)
theorem U2_v3 : U2 V (Proc.devRef .tc main_v3) = Cert.ReferenceIdeal.Read.val_main_v3 (F := Ideal) (V (Proc.devRef .tc main_arg1)) :=
  (show U2 V (Proc.devRef .tc main_v3) = U1 V (Proc.devRef .tc main_v3) by stretch_keep ops2).trans (U1_v3 V)
theorem U2_v11 : U2 V (Proc.devRef .tc main_v11) = Cert.ReferenceIdeal.Read.val_main_v11 (F := Ideal) (V (Proc.devRef .tc main_arg1)) :=
  (show U2 V (Proc.devRef .tc main_v11) = U1 V (Proc.devRef .tc main_v11) by stretch_keep ops2).trans (U1_v11 V)
theorem U2_v12 : U2 V (Proc.devRef .tc main_v12) = Cert.ReferenceIdeal.Read.val_main_v12 (F := Ideal) (V (Proc.devRef .tc main_arg0)) (V (Proc.devRef .tc main_arg3)) :=
  (show U2 V (Proc.devRef .tc main_v12) = U1 V (Proc.devRef .tc main_v12) by stretch_keep ops2).trans (U1_v12 V)
theorem U2_arg2 : U2 V (Proc.devRef .tc main_arg2) = (V (Proc.devRef .tc main_arg2)) :=
  (show U2 V (Proc.devRef .tc main_arg2) = U1 V (Proc.devRef .tc main_arg2) by stretch_keep ops2).trans (U1_arg2 V)
theorem U2_arg4 : U2 V (Proc.devRef .tc main_arg4) = (V (Proc.devRef .tc main_arg4)) :=
  (show U2 V (Proc.devRef .tc main_arg4) = U1 V (Proc.devRef .tc main_arg4) by stretch_keep ops2).trans (U1_arg4 V)
theorem U2_arg5 : U2 V (Proc.devRef .tc main_arg5) = (V (Proc.devRef .tc main_arg5)) :=
  (show U2 V (Proc.devRef .tc main_arg5) = U1 V (Proc.devRef .tc main_arg5) by stretch_keep ops2).trans (U1_arg5 V)
theorem U2_arg6 : U2 V (Proc.devRef .tc main_arg6) = (V (Proc.devRef .tc main_arg6)) :=
  (show U2 V (Proc.devRef .tc main_arg6) = U1 V (Proc.devRef .tc main_arg6) by stretch_keep ops2).trans (U1_arg6 V)
theorem U2_arg7 : U2 V (Proc.devRef .tc main_arg7) = (V (Proc.devRef .tc main_arg7)) :=
  (show U2 V (Proc.devRef .tc main_arg7) = U1 V (Proc.devRef .tc main_arg7) by stretch_keep ops2).trans (U1_arg7 V)
theorem U2_arg8 : U2 V (Proc.devRef .tc main_arg8) = (V (Proc.devRef .tc main_arg8)) :=
  (show U2 V (Proc.devRef .tc main_arg8) = U1 V (Proc.devRef .tc main_arg8) by stretch_keep ops2).trans (U1_arg8 V)
theorem U2_arg9 : U2 V (Proc.devRef .tc main_arg9) = (V (Proc.devRef .tc main_arg9)) :=
  (show U2 V (Proc.devRef .tc main_arg9) = U1 V (Proc.devRef .tc main_arg9) by stretch_keep ops2).trans (U1_arg9 V)
theorem U2_arg10 : U2 V (Proc.devRef .tc main_arg10) = (V (Proc.devRef .tc main_arg10)) :=
  (show U2 V (Proc.devRef .tc main_arg10) = U1 V (Proc.devRef .tc main_arg10) by stretch_keep ops2).trans (U1_arg10 V)
theorem U2_arg11 : U2 V (Proc.devRef .tc main_arg11) = (V (Proc.devRef .tc main_arg11)) :=
  (show U2 V (Proc.devRef .tc main_arg11) = U1 V (Proc.devRef .tc main_arg11) by stretch_keep ops2).trans (U1_arg11 V)
theorem U2_arg12 : U2 V (Proc.devRef .tc main_arg12) = (V (Proc.devRef .tc main_arg12)) :=
  (show U2 V (Proc.devRef .tc main_arg12) = U1 V (Proc.devRef .tc main_arg12) by stretch_keep ops2).trans (U1_arg12 V)
theorem U2_v40 : U2 V (Proc.devRef .tc main_v40) = Cert.ReferenceIdeal.Read.val_main_v40 (F := Ideal) (V (Proc.devRef .tc main_arg0)) (V (Proc.devRef .tc main_arg1)) (V (Proc.devRef .tc main_arg3)) :=
  Cert.RefStretch.s2_v40 (Wv := U1 V) (e_v1 := U1_v1 V) (e_v3 := U1_v3 V) (e_v11 := U1_v11 V) (e_v12 := U1_v12 V)

/-! ## After stretch 3 -/

theorem U3_v1 : U3 V (Proc.devRef .tc main_v1) = Cert.ReferenceIdeal.Read.val_main_v1 (F := Ideal) (V (Proc.devRef .tc main_arg1)) :=
  (show U3 V (Proc.devRef .tc main_v1) = U2 V (Proc.devRef .tc main_v1) by stretch_keep ops3).trans (U2_v1 V)
theorem U3_v3 : U3 V (Proc.devRef .tc main_v3) = Cert.ReferenceIdeal.Read.val_main_v3 (F := Ideal) (V (Proc.devRef .tc main_arg1)) :=
  (show U3 V (Proc.devRef .tc main_v3) = U2 V (Proc.devRef .tc main_v3) by stretch_keep ops3).trans (U2_v3 V)
theorem U3_v11 : U3 V (Proc.devRef .tc main_v11) = Cert.ReferenceIdeal.Read.val_main_v11 (F := Ideal) (V (Proc.devRef .tc main_arg1)) :=
  (show U3 V (Proc.devRef .tc main_v11) = U2 V (Proc.devRef .tc main_v11) by stretch_keep ops3).trans (U2_v11 V)
theorem U3_arg2 : U3 V (Proc.devRef .tc main_arg2) = (V (Proc.devRef .tc main_arg2)) :=
  (show U3 V (Proc.devRef .tc main_arg2) = U2 V (Proc.devRef .tc main_arg2) by stretch_keep ops3).trans (U2_arg2 V)
theorem U3_arg6 : U3 V (Proc.devRef .tc main_arg6) = (V (Proc.devRef .tc main_arg6)) :=
  (show U3 V (Proc.devRef .tc main_arg6) = U2 V (Proc.devRef .tc main_arg6) by stretch_keep ops3).trans (U2_arg6 V)
theorem U3_arg7 : U3 V (Proc.devRef .tc main_arg7) = (V (Proc.devRef .tc main_arg7)) :=
  (show U3 V (Proc.devRef .tc main_arg7) = U2 V (Proc.devRef .tc main_arg7) by stretch_keep ops3).trans (U2_arg7 V)
theorem U3_arg8 : U3 V (Proc.devRef .tc main_arg8) = (V (Proc.devRef .tc main_arg8)) :=
  (show U3 V (Proc.devRef .tc main_arg8) = U2 V (Proc.devRef .tc main_arg8) by stretch_keep ops3).trans (U2_arg8 V)
theorem U3_arg9 : U3 V (Proc.devRef .tc main_arg9) = (V (Proc.devRef .tc main_arg9)) :=
  (show U3 V (Proc.devRef .tc main_arg9) = U2 V (Proc.devRef .tc main_arg9) by stretch_keep ops3).trans (U2_arg9 V)
theorem U3_arg10 : U3 V (Proc.devRef .tc main_arg10) = (V (Proc.devRef .tc main_arg10)) :=
  (show U3 V (Proc.devRef .tc main_arg10) = U2 V (Proc.devRef .tc main_arg10) by stretch_keep ops3).trans (U2_arg10 V)
theorem U3_arg11 : U3 V (Proc.devRef .tc main_arg11) = (V (Proc.devRef .tc main_arg11)) :=
  (show U3 V (Proc.devRef .tc main_arg11) = U2 V (Proc.devRef .tc main_arg11) by stretch_keep ops3).trans (U2_arg11 V)
theorem U3_arg12 : U3 V (Proc.devRef .tc main_arg12) = (V (Proc.devRef .tc main_arg12)) :=
  (show U3 V (Proc.devRef .tc main_arg12) = U2 V (Proc.devRef .tc main_arg12) by stretch_keep ops3).trans (U2_arg12 V)
theorem U3_v51 : U3 V (Proc.devRef .tc main_v51) = Cert.ReferenceIdeal.Read.val_main_v51 (F := Ideal) (V (Proc.devRef .tc main_arg0)) (V (Proc.devRef .tc main_arg1)) (V (Proc.devRef .tc main_arg3)) (V (Proc.devRef .tc main_arg4)) :=
  Cert.RefStretch.s3_v51 (Wv := U2 V) (e_v40 := U2_v40 V) (e_v11 := U2_v11 V) (e_v12 := U2_v12 V) (e_arg4 := U2_arg4 V)
theorem U3_v52 : U3 V (Proc.devRef .tc main_v52) = Cert.ReferenceIdeal.Read.val_main_v52 (F := Ideal) (V (Proc.devRef .tc main_arg0)) (V (Proc.devRef .tc main_arg1)) (V (Proc.devRef .tc main_arg3)) (V (Proc.devRef .tc main_arg4)) (V (Proc.devRef .tc main_arg5)) :=
  Cert.RefStretch.s3_v52 (Wv := U2 V) (e_v40 := U2_v40 V) (e_v11 := U2_v11 V) (e_v12 := U2_v12 V) (e_arg4 := U2_arg4 V) (e_arg5 := U2_arg5 V)

/-! ## After stretch 4 -/

theorem U4_v1 : U4 V (Proc.devRef .tc main_v1) = Cert.ReferenceIdeal.Read.val_main_v1 (F := Ideal) (V (Proc.devRef .tc main_arg1)) :=
  (show U4 V (Proc.devRef .tc main_v1) = U3 V (Proc.devRef .tc main_v1) by stretch_keep ops4).trans (U3_v1 V)
theorem U4_v3 : U4 V (Proc.devRef .tc main_v3) = Cert.ReferenceIdeal.Read.val_main_v3 (F := Ideal) (V (Proc.devRef .tc main_arg1)) :=
  (show U4 V (Proc.devRef .tc main_v3) = U3 V (Proc.devRef .tc main_v3) by stretch_keep ops4).trans (U3_v3 V)
theorem U4_v11 : U4 V (Proc.devRef .tc main_v11) = Cert.ReferenceIdeal.Read.val_main_v11 (F := Ideal) (V (Proc.devRef .tc main_arg1)) :=
  (show U4 V (Proc.devRef .tc main_v11) = U3 V (Proc.devRef .tc main_v11) by stretch_keep ops4).trans (U3_v11 V)
theorem U4_v51 : U4 V (Proc.devRef .tc main_v51) = Cert.ReferenceIdeal.Read.val_main_v51 (F := Ideal) (V (Proc.devRef .tc main_arg0)) (V (Proc.devRef .tc main_arg1)) (V (Proc.devRef .tc main_arg3)) (V (Proc.devRef .tc main_arg4)) :=
  (show U4 V (Proc.devRef .tc main_v51) = U3 V (Proc.devRef .tc main_v51) by stretch_keep ops4).trans (U3_v51 V)
theorem U4_v52 : U4 V (Proc.devRef .tc main_v52) = Cert.ReferenceIdeal.Read.val_main_v52 (F := Ideal) (V (Proc.devRef .tc main_arg0)) (V (Proc.devRef .tc main_arg1)) (V (Proc.devRef .tc main_arg3)) (V (Proc.devRef .tc main_arg4)) (V (Proc.devRef .tc main_arg5)) :=
  (show U4 V (Proc.devRef .tc main_v52) = U3 V (Proc.devRef .tc main_v52) by stretch_keep ops4).trans (U3_v52 V)
theorem U4_arg2 : U4 V (Proc.devRef .tc main_arg2) = (V (Proc.devRef .tc main_arg2)) :=
  (show U4 V (Proc.devRef .tc main_arg2) = U3 V (Proc.devRef .tc main_arg2) by stretch_keep ops4).trans (U3_arg2 V)
theorem U4_arg6 : U4 V (Proc.devRef .tc main_arg6) = (V (Proc.devRef .tc main_arg6)) :=
  (show U4 V (Proc.devRef .tc main_arg6) = U3 V (Proc.devRef .tc main_arg6) by stretch_keep ops4).trans (U3_arg6 V)
theorem U4_arg7 : U4 V (Proc.devRef .tc main_arg7) = (V (Proc.devRef .tc main_arg7)) :=
  (show U4 V (Proc.devRef .tc main_arg7) = U3 V (Proc.devRef .tc main_arg7) by stretch_keep ops4).trans (U3_arg7 V)
theorem U4_arg8 : U4 V (Proc.devRef .tc main_arg8) = (V (Proc.devRef .tc main_arg8)) :=
  (show U4 V (Proc.devRef .tc main_arg8) = U3 V (Proc.devRef .tc main_arg8) by stretch_keep ops4).trans (U3_arg8 V)
theorem U4_arg9 : U4 V (Proc.devRef .tc main_arg9) = (V (Proc.devRef .tc main_arg9)) :=
  (show U4 V (Proc.devRef .tc main_arg9) = U3 V (Proc.devRef .tc main_arg9) by stretch_keep ops4).trans (U3_arg9 V)
theorem U4_arg10 : U4 V (Proc.devRef .tc main_arg10) = (V (Proc.devRef .tc main_arg10)) :=
  (show U4 V (Proc.devRef .tc main_arg10) = U3 V (Proc.devRef .tc main_arg10) by stretch_keep ops4).trans (U3_arg10 V)
theorem U4_arg11 : U4 V (Proc.devRef .tc main_arg11) = (V (Proc.devRef .tc main_arg11)) :=
  (show U4 V (Proc.devRef .tc main_arg11) = U3 V (Proc.devRef .tc main_arg11) by stretch_keep ops4).trans (U3_arg11 V)
theorem U4_arg12 : U4 V (Proc.devRef .tc main_arg12) = (V (Proc.devRef .tc main_arg12)) :=
  (show U4 V (Proc.devRef .tc main_arg12) = U3 V (Proc.devRef .tc main_arg12) by stretch_keep ops4).trans (U3_arg12 V)
theorem U4_v80 : U4 V (Proc.devRef .tc main_v80) = Cert.ReferenceIdeal.Read.val_main_v80 (F := Ideal) (V (Proc.devRef .tc main_arg0)) (V (Proc.devRef .tc main_arg1)) (V (Proc.devRef .tc main_arg3)) (V (Proc.devRef .tc main_arg4)) (V (Proc.devRef .tc main_arg5)) :=
  Cert.RefStretch.s4_v80 (Wv := U3 V) (e_v1 := U3_v1 V) (e_v3 := U3_v3 V) (e_v11 := U3_v11 V) (e_v52 := U3_v52 V)

/-! ## After stretch 5 -/

theorem U5_v1 : U5 V (Proc.devRef .tc main_v1) = Cert.ReferenceIdeal.Read.val_main_v1 (F := Ideal) (V (Proc.devRef .tc main_arg1)) :=
  (show U5 V (Proc.devRef .tc main_v1) = U4 V (Proc.devRef .tc main_v1) by stretch_keep ops5).trans (U4_v1 V)
theorem U5_v3 : U5 V (Proc.devRef .tc main_v3) = Cert.ReferenceIdeal.Read.val_main_v3 (F := Ideal) (V (Proc.devRef .tc main_arg1)) :=
  (show U5 V (Proc.devRef .tc main_v3) = U4 V (Proc.devRef .tc main_v3) by stretch_keep ops5).trans (U4_v3 V)
theorem U5_v11 : U5 V (Proc.devRef .tc main_v11) = Cert.ReferenceIdeal.Read.val_main_v11 (F := Ideal) (V (Proc.devRef .tc main_arg1)) :=
  (show U5 V (Proc.devRef .tc main_v11) = U4 V (Proc.devRef .tc main_v11) by stretch_keep ops5).trans (U4_v11 V)
theorem U5_v51 : U5 V (Proc.devRef .tc main_v51) = Cert.ReferenceIdeal.Read.val_main_v51 (F := Ideal) (V (Proc.devRef .tc main_arg0)) (V (Proc.devRef .tc main_arg1)) (V (Proc.devRef .tc main_arg3)) (V (Proc.devRef .tc main_arg4)) :=
  (show U5 V (Proc.devRef .tc main_v51) = U4 V (Proc.devRef .tc main_v51) by stretch_keep ops5).trans (U4_v51 V)
theorem U5_arg2 : U5 V (Proc.devRef .tc main_arg2) = (V (Proc.devRef .tc main_arg2)) :=
  (show U5 V (Proc.devRef .tc main_arg2) = U4 V (Proc.devRef .tc main_arg2) by stretch_keep ops5).trans (U4_arg2 V)
theorem U5_arg8 : U5 V (Proc.devRef .tc main_arg8) = (V (Proc.devRef .tc main_arg8)) :=
  (show U5 V (Proc.devRef .tc main_arg8) = U4 V (Proc.devRef .tc main_arg8) by stretch_keep ops5).trans (U4_arg8 V)
theorem U5_arg9 : U5 V (Proc.devRef .tc main_arg9) = (V (Proc.devRef .tc main_arg9)) :=
  (show U5 V (Proc.devRef .tc main_arg9) = U4 V (Proc.devRef .tc main_arg9) by stretch_keep ops5).trans (U4_arg9 V)
theorem U5_arg10 : U5 V (Proc.devRef .tc main_arg10) = (V (Proc.devRef .tc main_arg10)) :=
  (show U5 V (Proc.devRef .tc main_arg10) = U4 V (Proc.devRef .tc main_arg10) by stretch_keep ops5).trans (U4_arg10 V)
theorem U5_arg11 : U5 V (Proc.devRef .tc main_arg11) = (V (Proc.devRef .tc main_arg11)) :=
  (show U5 V (Proc.devRef .tc main_arg11) = U4 V (Proc.devRef .tc main_arg11) by stretch_keep ops5).trans (U4_arg11 V)
theorem U5_arg12 : U5 V (Proc.devRef .tc main_arg12) = (V (Proc.devRef .tc main_arg12)) :=
  (show U5 V (Proc.devRef .tc main_arg12) = U4 V (Proc.devRef .tc main_arg12) by stretch_keep ops5).trans (U4_arg12 V)
theorem U5_v90 : U5 V (Proc.devRef .tc main_v90) = Cert.ReferenceIdeal.Read.val_main_v90 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) :=
  Cert.RefStretch.s5_v90 (Wv := U4 V) (e_v80 := U4_v80 V) (e_v11 := U4_v11 V) (e_v52 := U4_v52 V) (e_arg6 := U4_arg6 V)
theorem U5_v91 : U5 V (Proc.devRef .tc main_v91) = Cert.ReferenceIdeal.Read.val_main_v91 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) :=
  Cert.RefStretch.s5_v91 (Wv := U4 V) (e_v80 := U4_v80 V) (e_v11 := U4_v11 V) (e_v52 := U4_v52 V) (e_arg6 := U4_arg6 V) (e_arg7 := U4_arg7 V)

/-! ## After stretch 6 -/

theorem U6_v11 : U6 V (Proc.devRef .tc main_v11) = Cert.ReferenceIdeal.Read.val_main_v11 (F := Ideal) (V (Proc.devRef .tc main_arg1)) :=
  (show U6 V (Proc.devRef .tc main_v11) = U5 V (Proc.devRef .tc main_v11) by stretch_keep ops6).trans (U5_v11 V)
theorem U6_v51 : U6 V (Proc.devRef .tc main_v51) = Cert.ReferenceIdeal.Read.val_main_v51 (F := Ideal) (V (Proc.devRef .tc main_arg0)) (V (Proc.devRef .tc main_arg1)) (V (Proc.devRef .tc main_arg3)) (V (Proc.devRef .tc main_arg4)) :=
  (show U6 V (Proc.devRef .tc main_v51) = U5 V (Proc.devRef .tc main_v51) by stretch_keep ops6).trans (U5_v51 V)
theorem U6_v90 : U6 V (Proc.devRef .tc main_v90) = Cert.ReferenceIdeal.Read.val_main_v90 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) :=
  (show U6 V (Proc.devRef .tc main_v90) = U5 V (Proc.devRef .tc main_v90) by stretch_keep ops6).trans (U5_v90 V)
theorem U6_v91 : U6 V (Proc.devRef .tc main_v91) = Cert.ReferenceIdeal.Read.val_main_v91 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) :=
  (show U6 V (Proc.devRef .tc main_v91) = U5 V (Proc.devRef .tc main_v91) by stretch_keep ops6).trans (U5_v91 V)
theorem U6_arg2 : U6 V (Proc.devRef .tc main_arg2) = (V (Proc.devRef .tc main_arg2)) :=
  (show U6 V (Proc.devRef .tc main_arg2) = U5 V (Proc.devRef .tc main_arg2) by stretch_keep ops6).trans (U5_arg2 V)
theorem U6_arg8 : U6 V (Proc.devRef .tc main_arg8) = (V (Proc.devRef .tc main_arg8)) :=
  (show U6 V (Proc.devRef .tc main_arg8) = U5 V (Proc.devRef .tc main_arg8) by stretch_keep ops6).trans (U5_arg8 V)
theorem U6_arg9 : U6 V (Proc.devRef .tc main_arg9) = (V (Proc.devRef .tc main_arg9)) :=
  (show U6 V (Proc.devRef .tc main_arg9) = U5 V (Proc.devRef .tc main_arg9) by stretch_keep ops6).trans (U5_arg9 V)
theorem U6_arg10 : U6 V (Proc.devRef .tc main_arg10) = (V (Proc.devRef .tc main_arg10)) :=
  (show U6 V (Proc.devRef .tc main_arg10) = U5 V (Proc.devRef .tc main_arg10) by stretch_keep ops6).trans (U5_arg10 V)
theorem U6_arg11 : U6 V (Proc.devRef .tc main_arg11) = (V (Proc.devRef .tc main_arg11)) :=
  (show U6 V (Proc.devRef .tc main_arg11) = U5 V (Proc.devRef .tc main_arg11) by stretch_keep ops6).trans (U5_arg11 V)
theorem U6_arg12 : U6 V (Proc.devRef .tc main_arg12) = (V (Proc.devRef .tc main_arg12)) :=
  (show U6 V (Proc.devRef .tc main_arg12) = U5 V (Proc.devRef .tc main_arg12) by stretch_keep ops6).trans (U5_arg12 V)
theorem U6_v119 : U6 V (Proc.devRef .tc main_v119) = Cert.ReferenceIdeal.Read.val_main_v119 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) :=
  Cert.RefStretch.s6_v119 (Wv := U5 V) (e_v1 := U5_v1 V) (e_v3 := U5_v3 V) (e_v11 := U5_v11 V) (e_v91 := U5_v91 V)

/-! ## After stretch 7 -/

theorem U7_v51 : U7 V (Proc.devRef .tc main_v51) = Cert.ReferenceIdeal.Read.val_main_v51 (F := Ideal) (V (Proc.devRef .tc main_arg0)) (V (Proc.devRef .tc main_arg1)) (V (Proc.devRef .tc main_arg3)) (V (Proc.devRef .tc main_arg4)) :=
  (show U7 V (Proc.devRef .tc main_v51) = U6 V (Proc.devRef .tc main_v51) by stretch_keep ops7).trans (U6_v51 V)
theorem U7_v90 : U7 V (Proc.devRef .tc main_v90) = Cert.ReferenceIdeal.Read.val_main_v90 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) :=
  (show U7 V (Proc.devRef .tc main_v90) = U6 V (Proc.devRef .tc main_v90) by stretch_keep ops7).trans (U6_v90 V)
theorem U7_arg2 : U7 V (Proc.devRef .tc main_arg2) = (V (Proc.devRef .tc main_arg2)) :=
  (show U7 V (Proc.devRef .tc main_arg2) = U6 V (Proc.devRef .tc main_arg2) by stretch_keep ops7).trans (U6_arg2 V)
theorem U7_arg9 : U7 V (Proc.devRef .tc main_arg9) = (V (Proc.devRef .tc main_arg9)) :=
  (show U7 V (Proc.devRef .tc main_arg9) = U6 V (Proc.devRef .tc main_arg9) by stretch_keep ops7).trans (U6_arg9 V)
theorem U7_arg10 : U7 V (Proc.devRef .tc main_arg10) = (V (Proc.devRef .tc main_arg10)) :=
  (show U7 V (Proc.devRef .tc main_arg10) = U6 V (Proc.devRef .tc main_arg10) by stretch_keep ops7).trans (U6_arg10 V)
theorem U7_arg11 : U7 V (Proc.devRef .tc main_arg11) = (V (Proc.devRef .tc main_arg11)) :=
  (show U7 V (Proc.devRef .tc main_arg11) = U6 V (Proc.devRef .tc main_arg11) by stretch_keep ops7).trans (U6_arg11 V)
theorem U7_arg12 : U7 V (Proc.devRef .tc main_arg12) = (V (Proc.devRef .tc main_arg12)) :=
  (show U7 V (Proc.devRef .tc main_arg12) = U6 V (Proc.devRef .tc main_arg12) by stretch_keep ops7).trans (U6_arg12 V)
theorem U7_v129 : U7 V (Proc.devRef .tc main_v129) = Cert.ReferenceIdeal.Read.val_main_v129 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  Cert.RefStretch.s7_v129 (Wv := U6 V) (e_v119 := U6_v119 V) (e_v11 := U6_v11 V) (e_v91 := U6_v91 V) (e_arg8 := U6_arg8 V)

/-! ## After stretch 8 -/

theorem U8_arg2 : U8 V (Proc.devRef .tc main_arg2) = (V (Proc.devRef .tc main_arg2)) :=
  (show U8 V (Proc.devRef .tc main_arg2) = U7 V (Proc.devRef .tc main_arg2) by stretch_keep ops8).trans (U7_arg2 V)
theorem U8_arg11 : U8 V (Proc.devRef .tc main_arg11) = (V (Proc.devRef .tc main_arg11)) :=
  (show U8 V (Proc.devRef .tc main_arg11) = U7 V (Proc.devRef .tc main_arg11) by stretch_keep ops8).trans (U7_arg11 V)
theorem U8_arg12 : U8 V (Proc.devRef .tc main_arg12) = (V (Proc.devRef .tc main_arg12)) :=
  (show U8 V (Proc.devRef .tc main_arg12) = U7 V (Proc.devRef .tc main_arg12) by stretch_keep ops8).trans (U7_arg12 V)
theorem U8_v135 : U8 V (Proc.devRef .tc main_v135) = Cert.ReferenceIdeal.Read.val_main_v135 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  Cert.RefStretch.s8_v135 (Wv := U7 V) (e_v51 := U7_v51 V) (e_v90 := U7_v90 V) (e_v129 := U7_v129 V) (e_arg9 := U7_arg9 V) (e_arg10 := U7_arg10 V)

/-! ## After stretch 9 -/

theorem U9_v143 : U9 V (Proc.devRef .tc main_v143) = Cert.ReferenceIdeal.Read.val_main_v143 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  Cert.RefStretch.s9_v143 (Wv := U8 V) (e_v135 := U8_v135 V) (e_arg2 := U8_arg2 V) (e_arg11 := U8_arg11 V) (e_arg12 := U8_arg12 V)

/-- After the whole operation list the result buffer holds the last stage at the argument arrays. -/
theorem after_ops_v143 : after (Cert.ReferenceIdeal.Value.ops (F := Ideal)) V (Proc.devRef .tc main_v143) = Cert.ReferenceIdeal.Read.val_main_v143 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_app, after_app, after_app, after_app, after_app, after_app, after_app, after_app]
  exact U9_v143 V

/-- No operation of the reference writes an argument array. -/
theorem after_ops_arg0 : after (Cert.ReferenceIdeal.Value.ops (F := Ideal)) V (Proc.devRef .tc main_arg0) = V (Proc.devRef .tc main_arg0) := by
  after_results_simp
theorem after_ops_arg1 : after (Cert.ReferenceIdeal.Value.ops (F := Ideal)) V (Proc.devRef .tc main_arg1) = V (Proc.devRef .tc main_arg1) := by
  after_results_simp
theorem after_ops_arg2 : after (Cert.ReferenceIdeal.Value.ops (F := Ideal)) V (Proc.devRef .tc main_arg2) = V (Proc.devRef .tc main_arg2) := by
  after_results_simp
theorem after_ops_arg3 : after (Cert.ReferenceIdeal.Value.ops (F := Ideal)) V (Proc.devRef .tc main_arg3) = V (Proc.devRef .tc main_arg3) := by
  after_results_simp
theorem after_ops_arg4 : after (Cert.ReferenceIdeal.Value.ops (F := Ideal)) V (Proc.devRef .tc main_arg4) = V (Proc.devRef .tc main_arg4) := by
  after_results_simp
theorem after_ops_arg5 : after (Cert.ReferenceIdeal.Value.ops (F := Ideal)) V (Proc.devRef .tc main_arg5) = V (Proc.devRef .tc main_arg5) := by
  after_results_simp
theorem after_ops_arg6 : after (Cert.ReferenceIdeal.Value.ops (F := Ideal)) V (Proc.devRef .tc main_arg6) = V (Proc.devRef .tc main_arg6) := by
  after_results_simp
theorem after_ops_arg7 : after (Cert.ReferenceIdeal.Value.ops (F := Ideal)) V (Proc.devRef .tc main_arg7) = V (Proc.devRef .tc main_arg7) := by
  after_results_simp
theorem after_ops_arg8 : after (Cert.ReferenceIdeal.Value.ops (F := Ideal)) V (Proc.devRef .tc main_arg8) = V (Proc.devRef .tc main_arg8) := by
  after_results_simp
theorem after_ops_arg9 : after (Cert.ReferenceIdeal.Value.ops (F := Ideal)) V (Proc.devRef .tc main_arg9) = V (Proc.devRef .tc main_arg9) := by
  after_results_simp
theorem after_ops_arg10 : after (Cert.ReferenceIdeal.Value.ops (F := Ideal)) V (Proc.devRef .tc main_arg10) = V (Proc.devRef .tc main_arg10) := by
  after_results_simp
theorem after_ops_arg11 : after (Cert.ReferenceIdeal.Value.ops (F := Ideal)) V (Proc.devRef .tc main_arg11) = V (Proc.devRef .tc main_arg11) := by
  after_results_simp
theorem after_ops_arg12 : after (Cert.ReferenceIdeal.Value.ops (F := Ideal)) V (Proc.devRef .tc main_arg12) = V (Proc.devRef .tc main_arg12) := by
  after_results_simp

/-- THE REFERENCE'S RUN: every weakly fair execution of its @main terminates, nothing faulting, with the result at the
    last stage of the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143) = Cert.ReferenceIdeal.Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v143).trans (after_ops_v143 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c))⟩)
    (run_seq Cert.ReferenceIdeal.Value.scopedRefs_eq Cert.ReferenceIdeal.Value.scopedSems_eq defs main (fun _ => Cert.ReferenceIdeal.Value.ops) Cert.ReferenceIdeal.Value.main_eq (fun _ => Cert.ReferenceIdeal.Value.ops_sub) m ρ)

end Cert.RefChain

end
-- ==== Proof.lean ====
/-
  The claim: the kernel program and its idealization run and leave their arguments as launched; the
  reference does too; and at the ideal values the idealized kernel and the reference, run from memories
  that agree on the arguments, end with the same result.

  The result both end with is the reference's last stage at the argument arrays: the log-softmax, over
  two columns, of a dense layer of the per-graph sums of a dense layer over three graph-convolution
  layers' outputs. The reference's run is read stretch by stretch against its stages. The kernel's run
  is read boundary by boundary: its host stretches apply the reference's own scatter, gather and
  elementwise operations, and each of its eight pipelines writes, block by block, the whole array the
  reference's corresponding dense product, layer closing, dense layer or log-softmax computes — a
  change of float format being the identity at the ideal values, a product accumulated into zero the
  plain sum, and the dense layer over the concatenated outputs the sum of the three products with the
  weight's three row blocks.
-/
import proofs.«139152_j41120016892602_1_alg».proof.Defs
import proofs.«139152_j41120016892602_1_alg».proof.Proof.Gen.Kernel
import proofs.«139152_j41120016892602_1_alg».proof.Proof.Gen.Kernel.Skeleton
import proofs.«139152_j41120016892602_1_alg».proof.Proof.Gen.Kernel.Launch
import proofs.«139152_j41120016892602_1_alg».proof.Proof.Gen.Kernel.Points
import proofs.«139152_j41120016892602_1_alg».proof.Proof.Gen.Kernel.Frame
import proofs.«139152_j41120016892602_1_alg».proof.Proof.Gen.KernelIdeal
import proofs.«139152_j41120016892602_1_alg».proof.Proof.Gen.KernelIdeal.Skeleton
import proofs.«139152_j41120016892602_1_alg».proof.Proof.Gen.KernelIdeal.Launch
import proofs.«139152_j41120016892602_1_alg».proof.Proof.Gen.KernelIdeal.Points
import proofs.«139152_j41120016892602_1_alg».proof.Proof.Gen.KernelIdeal.Frame
import proofs.«139152_j41120016892602_1_alg».proof.Proof.Gen.ReferenceIdeal
import proofs.«139152_j41120016892602_1_alg».proof.Proof.Gen.Pre_finite_inputs
import proofs.«139152_j41120016892602_1_alg».proof.Proof.KRun
import proofs.«139152_j41120016892602_1_alg».proof.Proof.Chain3
import proofs.«139152_j41120016892602_1_alg».proof.Proof.RefChain
import Idealize.ShloMosaic.Adequacy
import Idealize.ShloMosaic.Init

noncomputable section

namespace Cert.Proof

open Idealize.ShloMosaic Idealize.SL.Sem

/-- The kernel program's frame, its idealization's, the reference's (its run with the result dropped), the
    idealization's empty ledger, and the two idealized programs' equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.RefChain.run m ρ),
  trivial,
  fun m ρ m' ρ' _ hagree =>
    ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
     (θ_run (Cert.KernelIdeal.defs (F := Ideal)) _ _).mono (fun _ h c => ⟨(h c).1.trans (Cert.Chain.W14_v115 m ρ c), (h c).2⟩)
       (Cert.KRun.run_named m ρ),
     (θ_run (Cert.ReferenceIdeal.defs (F := Ideal)) _ _).mono (fun _ h c => ⟨by
         obtain ⟨e0, e1, e2, e3, e4, e5, e6, e7, e8, e9, e10, e11, e12⟩ := hagree c
         rw [(h c).1, e0, e1, e2, e3, e4, e5, e6, e7, e8, e9, e10, e11, e12], (h c).2⟩)
       (Cert.RefChain.run m' ρ')⟩⟩

end Cert.Proof

end
